-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v188)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v188) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S100000x64 : Shape := ⟨2, ![100000, 64]⟩
abbrev S500x128 : Shape := ⟨2, ![500, 128]⟩
abbrev S134x64 : Shape := ⟨2, ![134, 64]⟩
abbrev S4000x128 : Shape := ⟨2, ![4000, 128]⟩
abbrev S3x100000x64 : Shape := ⟨3, ![3, 100000, 64]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S500x128 : S_.BroadcastsInDim S500x128 (![] : Fin 0 → Fin S500x128.rank)
  reducesTo_S500x128_S_d0_1 : S500x128.ReducesTo [0, 1] S_
  bcast_S_S134x64 : S_.BroadcastsInDim S134x64 (![] : Fin 0 → Fin S134x64.rank)
  reducesTo_S134x64_S_d0_1 : S134x64.ReducesTo [0, 1] S_
  bcast_S_S4000x128 : S_.BroadcastsInDim S4000x128 (![] : Fin 0 → Fin S4000x128.rank)
  reducesTo_S4000x128_S_d0_1 : S4000x128.ReducesTo [0, 1] S_
  bcast_S_S3x100000x64 : S_.BroadcastsInDim S3x100000x64 (![] : Fin 0 → Fin S3x100000x64.rank)
  reducesTo_S3x100000x64_S_d0_1_2 : S3x100000x64.ReducesTo [0, 1, 2] S_

variable [Facts]

def fn_part4 {F : FTy → Type} [FloatOps F] (main_arg18 : FVec F S3x100000x64 .f32) (main_v63 : IVec S_ 1) (main_v67 : IVec S_ 1) : IVec S_ 1 :=
  let main_v68 : IVec S_ 1 := andi main_v63 main_v67
  let main_v69 : FVec F S3x100000x64 .f32 := Host.absf main_arg18
  let main_cst_26 : FVec F S_ .f32 := constant S_ .f32 0x7F800000#32
  let main_v70 : FVec F S3x100000x64 .f32 := broadcastInDim S3x100000x64 ![] bcast_S_S3x100000x64 main_cst_26
  let main_v71 : IVec S3x100000x64 1 := cmpf .olt main_v69 main_v70
  let main_c_27 : IVec S_ 1 := constantI S_ 1 1#1
  let main_v72 : IVec S_ 1 := (fun x v => Host.reduce IntOp.andi x v reducesTo_S3x100000x64_S_d0_1_2 h_S_) main_v71 main_c_27
  let main_v73 : IVec S_ 1 := andi main_v68 main_v72
  main_v73

def fn_part3 {F : FTy → Type} [FloatOps F] (main_arg15 : FVec F S3x100000x64 .f32) (main_arg16 : FVec F S3x100000x64 .f32) (main_arg17 : FVec F S3x100000x64 .f32) (main_arg18 : FVec F S3x100000x64 .f32) (main_v48 : IVec S_ 1) (main_v49 : FVec F S3x100000x64 .f32) (main_v50 : FVec F S3x100000x64 .f32) : IVec S_ 1 :=
  let main_v51 : IVec S3x100000x64 1 := cmpf .olt main_v49 main_v50
  let main_c_19 : IVec S_ 1 := constantI S_ 1 1#1
  let main_v52 : IVec S_ 1 := (fun x v => Host.reduce IntOp.andi x v reducesTo_S3x100000x64_S_d0_1_2 h_S_) main_v51 main_c_19
  let main_v53 : IVec S_ 1 := andi main_v48 main_v52
  let main_v54 : FVec F S3x100000x64 .f32 := Host.absf main_arg15
  let main_cst_20 : FVec F S_ .f32 := constant S_ .f32 0x7F800000#32
  let main_v55 : FVec F S3x100000x64 .f32 := broadcastInDim S3x100000x64 ![] bcast_S_S3x100000x64 main_cst_20
  let main_v56 : IVec S3x100000x64 1 := cmpf .olt main_v54 main_v55
  let main_c_21 : IVec S_ 1 := constantI S_ 1 1#1
  let main_v57 : IVec S_ 1 := (fun x v => Host.reduce IntOp.andi x v reducesTo_S3x100000x64_S_d0_1_2 h_S_) main_v56 main_c_21
  let main_v58 : IVec S_ 1 := andi main_v53 main_v57
  let main_v59 : FVec F S3x100000x64 .f32 := Host.absf main_arg16
  let main_cst_22 : FVec F S_ .f32 := constant S_ .f32 0x7F800000#32
  let main_v60 : FVec F S3x100000x64 .f32 := broadcastInDim S3x100000x64 ![] bcast_S_S3x100000x64 main_cst_22
  let main_v61 : IVec S3x100000x64 1 := cmpf .olt main_v59 main_v60
  let main_c_23 : IVec S_ 1 := constantI S_ 1 1#1
  let main_v62 : IVec S_ 1 := (fun x v => Host.reduce IntOp.andi x v reducesTo_S3x100000x64_S_d0_1_2 h_S_) main_v61 main_c_23
  let main_v63 : IVec S_ 1 := andi main_v58 main_v62
  let main_v64 : FVec F S3x100000x64 .f32 := Host.absf main_arg17
  let main_cst_24 : FVec F S_ .f32 := constant S_ .f32 0x7F800000#32
  let main_v65 : FVec F S3x100000x64 .f32 := broadcastInDim S3x100000x64 ![] bcast_S_S3x100000x64 main_cst_24
  let main_v66 : IVec S3x100000x64 1 := cmpf .olt main_v64 main_v65
  let main_c_25 : IVec S_ 1 := constantI S_ 1 1#1
  let main_v67 : IVec S_ 1 := (fun x v => Host.reduce IntOp.andi x v reducesTo_S3x100000x64_S_d0_1_2 h_S_) main_v66 main_c_25
  fn_part4 (F := F) main_arg18 main_v63 main_v67

def fn_part2 {F : FTy → Type} [FloatOps F] (main_arg11 : FVec F S134x64 .f32) (main_arg12 : FVec F S4000x128 .f32) (main_arg13 : FVec F S3x100000x64 .f32) (main_arg14 : FVec F S3x100000x64 .f32) (main_arg15 : FVec F S3x100000x64 .f32) (main_arg16 : FVec F S3x100000x64 .f32) (main_arg17 : FVec F S3x100000x64 .f32) (main_arg18 : FVec F S3x100000x64 .f32) (main_v33 : IVec S_ 1) : IVec S_ 1 :=
  let main_v34 : FVec F S134x64 .f32 := Host.absf main_arg11
  let main_cst_12 : FVec F S_ .f32 := constant S_ .f32 0x7F800000#32
  let main_v35 : FVec F S134x64 .f32 := broadcastInDim S134x64 ![] bcast_S_S134x64 main_cst_12
  let main_v36 : IVec S134x64 1 := cmpf .olt main_v34 main_v35
  let main_c_13 : IVec S_ 1 := constantI S_ 1 1#1
  let main_v37 : IVec S_ 1 := (fun x v => Host.reduce IntOp.andi x v reducesTo_S134x64_S_d0_1 h_S_) main_v36 main_c_13
  let main_v38 : IVec S_ 1 := andi main_v33 main_v37
  let main_v39 : FVec F S4000x128 .f32 := Host.absf main_arg12
  let main_cst_14 : FVec F S_ .f32 := constant S_ .f32 0x7F800000#32
  let main_v40 : FVec F S4000x128 .f32 := broadcastInDim S4000x128 ![] bcast_S_S4000x128 main_cst_14
  let main_v41 : IVec S4000x128 1 := cmpf .olt main_v39 main_v40
  let main_c_15 : IVec S_ 1 := constantI S_ 1 1#1
  let main_v42 : IVec S_ 1 := (fun x v => Host.reduce IntOp.andi x v reducesTo_S4000x128_S_d0_1 h_S_) main_v41 main_c_15
  let main_v43 : IVec S_ 1 := andi main_v38 main_v42
  let main_v44 : FVec F S3x100000x64 .f32 := Host.absf main_arg13
  let main_cst_16 : FVec F S_ .f32 := constant S_ .f32 0x7F800000#32
  let main_v45 : FVec F S3x100000x64 .f32 := broadcastInDim S3x100000x64 ![] bcast_S_S3x100000x64 main_cst_16
  let main_v46 : IVec S3x100000x64 1 := cmpf .olt main_v44 main_v45
  let main_c_17 : IVec S_ 1 := constantI S_ 1 1#1
  let main_v47 : IVec S_ 1 := (fun x v => Host.reduce IntOp.andi x v reducesTo_S3x100000x64_S_d0_1_2 h_S_) main_v46 main_c_17
  let main_v48 : IVec S_ 1 := andi main_v43 main_v47
  let main_v49 : FVec F S3x100000x64 .f32 := Host.absf main_arg14
  let main_cst_18 : FVec F S_ .f32 := constant S_ .f32 0x7F800000#32
  let main_v50 : FVec F S3x100000x64 .f32 := broadcastInDim S3x100000x64 ![] bcast_S_S3x100000x64 main_cst_18
  fn_part3 (F := F) main_arg15 main_arg16 main_arg17 main_arg18 main_v48 main_v49 main_v50

def fn_part1 {F : FTy → Type} [FloatOps F] (main_arg8 : FVec F S100000x64 .f32) (main_arg9 : FVec F S500x128 .f32) (main_arg10 : FVec F S500x128 .f32) (main_arg11 : FVec F S134x64 .f32) (main_arg12 : FVec F S4000x128 .f32) (main_arg13 : FVec F S3x100000x64 .f32) (main_arg14 : FVec F S3x100000x64 .f32) (main_arg15 : FVec F S3x100000x64 .f32) (main_arg16 : FVec F S3x100000x64 .f32) (main_arg17 : FVec F S3x100000x64 .f32) (main_arg18 : FVec F S3x100000x64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S100000x64 .f32 := Host.absf main_arg8
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S500x128 .f32 := Host.absf main_arg9
  let main_cst_8 : FVec F S_ .f32 := constant S_ .f32 0x7F800000#32
  let main_v25 : FVec F S500x128 .f32 := broadcastInDim S500x128 ![] bcast_S_S500x128 main_cst_8
  let main_v26 : IVec S500x128 1 := cmpf .olt main_v24 main_v25
  let main_c_9 : IVec S_ 1 := constantI S_ 1 1#1
  let main_v27 : IVec S_ 1 := (fun x v => Host.reduce IntOp.andi x v reducesTo_S500x128_S_d0_1 h_S_) main_v26 main_c_9
  let main_v28 : IVec S_ 1 := andi main_v23 main_v27
  let main_v29 : FVec F S500x128 .f32 := Host.absf main_arg10
  let main_cst_10 : FVec F S_ .f32 := constant S_ .f32 0x7F800000#32
  let main_v30 : FVec F S500x128 .f32 := broadcastInDim S500x128 ![] bcast_S_S500x128 main_cst_10
  let main_v31 : IVec S500x128 1 := cmpf .olt main_v29 main_v30
  let main_c_11 : IVec S_ 1 := constantI S_ 1 1#1
  let main_v32 : IVec S_ 1 := (fun x v => Host.reduce IntOp.andi x v reducesTo_S500x128_S_d0_1 h_S_) main_v31 main_c_11
  let main_v33 : IVec S_ 1 := andi main_v28 main_v32
  fn_part2 (F := F) main_arg11 main_arg12 main_arg13 main_arg14 main_arg15 main_arg16 main_arg17 main_arg18 main_v33

def fn {F : FTy → Type} [FloatOps F] (main_arg0 : IVec S262144 32) (main_arg1 : IVec S262144 32) (main_arg2 : IVec S262144 32) (main_arg3 : FVec F S262144 .f32) (main_arg4 : FVec F S262144 .f32) (main_arg5 : FVec F S262144 .f32) (main_arg6 : IVec S262144 32) (main_arg7 : FVec F S100000x64 .f32) (main_arg8 : FVec F S100000x64 .f32) (main_arg9 : FVec F S500x128 .f32) (main_arg10 : FVec F S500x128 .f32) (main_arg11 : FVec F S134x64 .f32) (main_arg12 : FVec F S4000x128 .f32) (main_arg13 : FVec F S3x100000x64 .f32) (main_arg14 : FVec F S3x100000x64 .f32) (main_arg15 : FVec F S3x100000x64 .f32) (main_arg16 : FVec F S3x100000x64 .f32) (main_arg17 : FVec F S3x100000x64 .f32) (main_arg18 : FVec F S3x100000x64 .f32) : IVec S_ 1 :=
  let main_v0 : FVec F S262144 .f32 := Host.absf main_arg3
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg4
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144 .f32 := Host.absf main_arg5
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S100000x64 .f32 := Host.absf main_arg7
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg8 main_arg9 main_arg10 main_arg11 main_arg12 main_arg13 main_arg14 main_arg15 main_arg16 main_arg17 main_arg18 main_v13 main_v16
-- ==== Kernel.lean ====
abbrev S262144 : Shape := ⟨1, ![262144]⟩
abbrev S100000x64 : Shape := ⟨2, ![100000, 64]⟩
abbrev S500x128 : Shape := ⟨2, ![500, 128]⟩
abbrev S134x64 : Shape := ⟨2, ![134, 64]⟩
abbrev S4000x128 : Shape := ⟨2, ![4000, 128]⟩
abbrev S3x100000x64 : Shape := ⟨3, ![3, 100000, 64]⟩
abbrev S_ : Shape := ⟨0, ![]⟩
abbrev S262144x1 : Shape := ⟨2, ![262144, 1]⟩
abbrev S262144x64 : Shape := ⟨2, ![262144, 64]⟩
abbrev S262144x128 : Shape := ⟨2, ![262144, 128]⟩
abbrev S1x262144 : Shape := ⟨2, ![1, 262144]⟩
abbrev S3x262144 : Shape := ⟨2, ![3, 262144]⟩
abbrev S3x262144x64 : Shape := ⟨3, ![3, 262144, 64]⟩
abbrev S3x262144x1 : Shape := ⟨3, ![3, 262144, 1]⟩
abbrev S262144x256 : Shape := ⟨2, ![262144, 256]⟩
abbrev S4096x256 : Shape := ⟨2, ![4096, 256]⟩
abbrev S4096 : Shape := ⟨1, ![4096]⟩

abbrev nBuf : Space → Nat
  | .hbm => 269
  | .vmem => 8
  | .smem => 0
  | _ => 0

abbrev hbmTy0_0 (i : Nat) : BufTy := match i % 128 with
  | 0 => ⟨S262144, .i32⟩
  | 1 => ⟨S262144, .i32⟩
  | 2 => ⟨S262144, .i32⟩
  | 3 => ⟨S262144, .f32⟩
  | 4 => ⟨S262144, .f32⟩
  | 5 => ⟨S262144, .f32⟩
  | 6 => ⟨S262144, .i32⟩
  | 7 => ⟨S100000x64, .f32⟩
  | 8 => ⟨S100000x64, .f32⟩
  | 9 => ⟨S500x128, .f32⟩
  | 10 => ⟨S500x128, .f32⟩
  | 11 => ⟨S134x64, .f32⟩
  | 12 => ⟨S4000x128, .f32⟩
  | 13 => ⟨S3x100000x64, .f32⟩
  | 14 => ⟨S3x100000x64, .f32⟩
  | 15 => ⟨S3x100000x64, .f32⟩
  | 16 => ⟨S3x100000x64, .f32⟩
  | 17 => ⟨S3x100000x64, .f32⟩
  | 18 => ⟨S3x100000x64, .f32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S262144x64, .f32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144x64, .f32⟩
  | 37 => ⟨S_, .i32⟩
  | 38 => ⟨S262144, .i32⟩
  | 39 => ⟨S262144, .i1⟩
  | 40 => ⟨S_, .i32⟩
  | 41 => ⟨S262144, .i32⟩
  | 42 => ⟨S262144, .i32⟩
  | 43 => ⟨S262144, .i32⟩
  | 44 => ⟨S262144x1, .i32⟩
  | 45 => ⟨S262144x64, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S262144x64, .f32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S262144x128, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S262144x1, .i32⟩
  | 72 => ⟨S262144x128, .f32⟩
  | 73 => ⟨S262144x128, .f32⟩
  | 74 => ⟨S262144x128, .f32⟩
  | 75 => ⟨S_, .i32⟩
  | 76 => ⟨S262144, .i32⟩
  | 77 => ⟨S262144, .i1⟩
  | 78 => ⟨S_, .i32⟩
  | 79 => ⟨S262144, .i32⟩
  | 80 => ⟨S262144, .i32⟩
  | 81 => ⟨S262144, .i32⟩
  | 82 => ⟨S262144x1, .i32⟩
  | 83 => ⟨S262144x128, .f32⟩
  | 84 => ⟨S262144x128, .f32⟩
  | 85 => ⟨S262144x128, .f32⟩
  | 86 => ⟨S262144x64, .f32⟩
  | 87 => ⟨S262144x64, .f32⟩
  | 88 => ⟨S262144x64, .f32⟩
  | 89 => ⟨S262144x64, .f32⟩
  | 90 => ⟨S1x262144, .f32⟩
  | 91 => ⟨S1x262144, .f32⟩
  | 92 => ⟨S1x262144, .f32⟩
  | 93 => ⟨S3x262144, .f32⟩
  | 94 => ⟨S_, .i32⟩
  | 95 => ⟨S_, .i32⟩
  | 96 => ⟨S262144, .i32⟩
  | 97 => ⟨S262144, .i32⟩
  | 98 => ⟨S262144, .i32⟩
  | 99 => ⟨S_, .i32⟩
  | 100 => ⟨S262144, .i32⟩
  | 101 => ⟨S262144, .i1⟩
  | 102 => ⟨S262144, .i32⟩
  | 103 => ⟨S262144, .i32⟩
  | 104 => ⟨S_, .i32⟩
  | 105 => ⟨S262144, .i32⟩
  | 106 => ⟨S262144, .i1⟩
  | 107 => ⟨S262144, .i1⟩
  | 108 => ⟨S_, .i32⟩
  | 109 => ⟨S262144, .i32⟩
  | 110 => ⟨S262144, .i32⟩
  | 111 => ⟨S262144, .i32⟩
  | 112 => ⟨S_, .i32⟩
  | 113 => ⟨S262144, .i32⟩
  | 114 => ⟨S262144, .i1⟩
  | 115 => ⟨S_, .i32⟩
  | 116 => ⟨S262144, .i32⟩
  | 117 => ⟨S262144, .i32⟩
  | 118 => ⟨S262144, .i32⟩
  | 119 => ⟨S262144x1, .i32⟩
  | 120 => ⟨S262144x64, .f32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S262144, .i32⟩

abbrev hbmTy0_1 (i : Nat) : BufTy := match i % 128 with
  | 0 => ⟨S262144x1, .i32⟩
  | 1 => ⟨S3x262144x64, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S262144x1, .i32⟩
  | 10 => ⟨S3x262144x64, .f32⟩
  | 11 => ⟨S_, .i32⟩
  | 12 => ⟨S262144, .i32⟩
  | 13 => ⟨S262144, .i1⟩
  | 14 => ⟨S_, .i32⟩
  | 15 => ⟨S262144, .i32⟩
  | 16 => ⟨S262144, .i32⟩
  | 17 => ⟨S262144, .i32⟩
  | 18 => ⟨S262144x1, .i32⟩
  | 19 => ⟨S3x262144x64, .f32⟩
  | 20 => ⟨S3x262144x1, .f32⟩
  | 21 => ⟨S3x262144x64, .f32⟩
  | 22 => ⟨S3x262144x64, .f32⟩
  | 23 => ⟨S3x262144x64, .f32⟩
  | 24 => ⟨S3x262144x64, .f32⟩
  | 25 => ⟨S3x262144x64, .f32⟩
  | 26 => ⟨S_, .f32⟩
  | 27 => ⟨S262144x64, .f32⟩
  | 28 => ⟨S262144x64, .f32⟩
  | 29 => ⟨S_, .i32⟩
  | 30 => ⟨S262144, .i32⟩
  | 31 => ⟨S262144, .i1⟩
  | 32 => ⟨S_, .i32⟩
  | 33 => ⟨S262144, .i32⟩
  | 34 => ⟨S262144, .i32⟩
  | 35 => ⟨S262144, .i32⟩
  | 36 => ⟨S262144x1, .i32⟩
  | 37 => ⟨S3x262144x64, .f32⟩
  | 38 => ⟨S_, .i32⟩
  | 39 => ⟨S262144, .i32⟩
  | 40 => ⟨S262144, .i1⟩
  | 41 => ⟨S_, .i32⟩
  | 42 => ⟨S262144, .i32⟩
  | 43 => ⟨S262144, .i32⟩
  | 44 => ⟨S262144, .i32⟩
  | 45 => ⟨S262144x1, .i32⟩
  | 46 => ⟨S3x262144x64, .f32⟩
  | 47 => ⟨S_, .i32⟩
  | 48 => ⟨S262144, .i32⟩
  | 49 => ⟨S262144, .i1⟩
  | 50 => ⟨S_, .i32⟩
  | 51 => ⟨S262144, .i32⟩
  | 52 => ⟨S262144, .i32⟩
  | 53 => ⟨S262144, .i32⟩
  | 54 => ⟨S262144x1, .i32⟩
  | 55 => ⟨S3x262144x64, .f32⟩
  | 56 => ⟨S3x262144x1, .f32⟩
  | 57 => ⟨S3x262144x64, .f32⟩
  | 58 => ⟨S3x262144x64, .f32⟩
  | 59 => ⟨S3x262144x64, .f32⟩
  | 60 => ⟨S3x262144x64, .f32⟩
  | 61 => ⟨S3x262144x64, .f32⟩
  | 62 => ⟨S_, .f32⟩
  | 63 => ⟨S262144x64, .f32⟩
  | 64 => ⟨S262144x64, .f32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S3x262144x64, .f32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S3x262144x64, .f32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S3x262144x64, .f32⟩
  | 92 => ⟨S3x262144x1, .f32⟩
  | 93 => ⟨S3x262144x64, .f32⟩
  | 94 => ⟨S3x262144x64, .f32⟩
  | 95 => ⟨S3x262144x64, .f32⟩
  | 96 => ⟨S3x262144x64, .f32⟩
  | 97 => ⟨S3x262144x64, .f32⟩
  | 98 => ⟨S_, .f32⟩
  | 99 => ⟨S262144x64, .f32⟩
  | 100 => ⟨S262144x64, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S3x262144x64, .f32⟩
  | 110 => ⟨S_, .i32⟩
  | 111 => ⟨S262144, .i32⟩
  | 112 => ⟨S262144, .i1⟩
  | 113 => ⟨S_, .i32⟩
  | 114 => ⟨S262144, .i32⟩
  | 115 => ⟨S262144, .i32⟩
  | 116 => ⟨S262144, .i32⟩
  | 117 => ⟨S262144x1, .i32⟩
  | 118 => ⟨S3x262144x64, .f32⟩
  | 119 => ⟨S_, .i32⟩
  | 120 => ⟨S262144, .i32⟩
  | 121 => ⟨S262144, .i1⟩
  | 122 => ⟨S_, .i32⟩
  | 123 => ⟨S262144, .i32⟩
  | 124 => ⟨S262144, .i32⟩
  | 125 => ⟨S262144, .i32⟩
  | 126 => ⟨S262144x1, .i32⟩
  | 127 => ⟨S3x262144x64, .f32⟩
  | _ => ⟨S262144, .i32⟩

abbrev hbmTy0_2 (i : Nat) : BufTy := match i % 128 with
  | 0 => ⟨S3x262144x1, .f32⟩
  | 1 => ⟨S3x262144x64, .f32⟩
  | 2 => ⟨S3x262144x64, .f32⟩
  | 3 => ⟨S3x262144x64, .f32⟩
  | 4 => ⟨S3x262144x64, .f32⟩
  | 5 => ⟨S3x262144x64, .f32⟩
  | 6 => ⟨S_, .f32⟩
  | 7 => ⟨S262144x64, .f32⟩
  | 8 => ⟨S262144x64, .f32⟩
  | 9 => ⟨S262144x256, .f32⟩
  | 10 => ⟨S262144x256, .f32⟩
  | 11 => ⟨S262144x256, .f32⟩
  | 12 => ⟨S262144, .f32⟩
  | _ => ⟨S262144, .i32⟩

abbrev hbmTy (i : Nat) : BufTy := match i / 128 with
  | 0 => hbmTy0_0 i
  | 1 => hbmTy0_1 i
  | 2 => hbmTy0_2 i
  | _ => ⟨S262144, .i32⟩

abbrev bufTy : (tb : Table) → Fin (tcTables nBuf tb) → BufTy
  | .hbm, ⟨i, _⟩ => hbmTy i
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096, .f32⟩
  | .local _ .vmem, ⟨7, _⟩ => ⟨S4096, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_c_8 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_c_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_v5 : Ref sig .tc := ⟨.hbm, 100, rfl⟩
abbrev main_call0_v6 : Ref sig .tc := ⟨.hbm, 101, rfl⟩
abbrev main_call0_v7 : Ref sig .tc := ⟨.hbm, 102, rfl⟩
abbrev main_call0_v8 : Ref sig .tc := ⟨.hbm, 103, rfl⟩
abbrev main_call0_c : Ref sig .tc := ⟨.hbm, 104, rfl⟩
abbrev main_call0_v9 : Ref sig .tc := ⟨.hbm, 105, rfl⟩
abbrev main_call0_v10 : Ref sig .tc := ⟨.hbm, 106, rfl⟩
abbrev main_call0_v11 : Ref sig .tc := ⟨.hbm, 107, rfl⟩
abbrev main_call0_c_0 : Ref sig .tc := ⟨.hbm, 108, rfl⟩
abbrev main_call0_v12 : Ref sig .tc := ⟨.hbm, 109, rfl⟩
abbrev main_call0_v13 : Ref sig .tc := ⟨.hbm, 110, rfl⟩
abbrev main_v61 : Ref sig .tc := ⟨.hbm, 111, rfl⟩
abbrev main_c_14 : Ref sig .tc := ⟨.hbm, 112, rfl⟩
abbrev main_v62 : Ref sig .tc := ⟨.hbm, 113, rfl⟩
abbrev main_v63 : Ref sig .tc := ⟨.hbm, 114, rfl⟩
abbrev main_c_15 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_16 : Ref sig .tc := ⟨.hbm, 121, rfl⟩
abbrev main_v69 : Ref sig .tc := ⟨.hbm, 122, rfl⟩
abbrev main_v70 : Ref sig .tc := ⟨.hbm, 123, rfl⟩
abbrev main_c_17 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_c_18 : Ref sig .tc := ⟨.hbm, 130, rfl⟩
abbrev main_v76 : Ref sig .tc := ⟨.hbm, 131, rfl⟩
abbrev main_v77 : Ref sig .tc := ⟨.hbm, 132, rfl⟩
abbrev main_c_19 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_20 : Ref sig .tc := ⟨.hbm, 139, rfl⟩
abbrev main_v83 : Ref sig .tc := ⟨.hbm, 140, rfl⟩
abbrev main_v84 : Ref sig .tc := ⟨.hbm, 141, rfl⟩
abbrev main_c_21 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst : Ref sig .tc := ⟨.hbm, 154, rfl⟩
abbrev main_v96 : Ref sig .tc := ⟨.hbm, 155, rfl⟩
abbrev main_v97 : Ref sig .tc := ⟨.hbm, 156, rfl⟩
abbrev main_c_22 : Ref sig .tc := ⟨.hbm, 157, rfl⟩
abbrev main_v98 : Ref sig .tc := ⟨.hbm, 158, rfl⟩
abbrev main_v99 : Ref sig .tc := ⟨.hbm, 159, rfl⟩
abbrev main_c_23 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_c_24 : Ref sig .tc := ⟨.hbm, 166, rfl⟩
abbrev main_v105 : Ref sig .tc := ⟨.hbm, 167, rfl⟩
abbrev main_v106 : Ref sig .tc := ⟨.hbm, 168, rfl⟩
abbrev main_c_25 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_c_26 : Ref sig .tc := ⟨.hbm, 175, rfl⟩
abbrev main_v112 : Ref sig .tc := ⟨.hbm, 176, rfl⟩
abbrev main_v113 : Ref sig .tc := ⟨.hbm, 177, rfl⟩
abbrev main_c_27 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_28 : Ref sig .tc := ⟨.hbm, 190, rfl⟩
abbrev main_v125 : Ref sig .tc := ⟨.hbm, 191, rfl⟩
abbrev main_v126 : Ref sig .tc := ⟨.hbm, 192, rfl⟩
abbrev main_c_29 : Ref sig .tc := ⟨.hbm, 193, rfl⟩
abbrev main_v127 : Ref sig .tc := ⟨.hbm, 194, rfl⟩
abbrev main_v128 : Ref sig .tc := ⟨.hbm, 195, rfl⟩
abbrev main_c_30 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_c_31 : Ref sig .tc := ⟨.hbm, 202, rfl⟩
abbrev main_v134 : Ref sig .tc := ⟨.hbm, 203, rfl⟩
abbrev main_v135 : Ref sig .tc := ⟨.hbm, 204, rfl⟩
abbrev main_c_32 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_c_33 : Ref sig .tc := ⟨.hbm, 211, rfl⟩
abbrev main_v141 : Ref sig .tc := ⟨.hbm, 212, rfl⟩
abbrev main_v142 : Ref sig .tc := ⟨.hbm, 213, rfl⟩
abbrev main_c_34 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_cst_35 : Ref sig .tc := ⟨.hbm, 226, rfl⟩
abbrev main_v154 : Ref sig .tc := ⟨.hbm, 227, rfl⟩
abbrev main_v155 : Ref sig .tc := ⟨.hbm, 228, rfl⟩
abbrev main_c_36 : Ref sig .tc := ⟨.hbm, 229, rfl⟩
abbrev main_v156 : Ref sig .tc := ⟨.hbm, 230, rfl⟩
abbrev main_v157 : Ref sig .tc := ⟨.hbm, 231, rfl⟩
abbrev main_c_37 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_c_38 : Ref sig .tc := ⟨.hbm, 238, rfl⟩
abbrev main_v163 : Ref sig .tc := ⟨.hbm, 239, rfl⟩
abbrev main_v164 : Ref sig .tc := ⟨.hbm, 240, rfl⟩
abbrev main_c_39 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_c_40 : Ref sig .tc := ⟨.hbm, 247, rfl⟩
abbrev main_v170 : Ref sig .tc := ⟨.hbm, 248, rfl⟩
abbrev main_v171 : Ref sig .tc := ⟨.hbm, 249, rfl⟩
abbrev main_c_41 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_cst_42 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  slices_S262144x128_S262144x64_0_0 : S262144x128.Slices ![0, 0] S262144x64
  slices_S262144x128_S262144x64_0_64 : S262144x128.Slices ![0, 64] S262144x64
  bcast_S262144_S1x262144_1 : S262144.BroadcastsInDim S1x262144 (![1] : Fin 1 → Fin S1x262144.rank)
  concatenates_S1x262144_S1x262144_S1x262144_S3x262144_d0 : Shape.Concatenates [S1x262144, S1x262144, S1x262144] S3x262144 0
  bcast_S3x262144_S3x262144x1_0_1 : S3x262144.BroadcastsInDim S3x262144x1 (![0, 1] : Fin 2 → Fin S3x262144x1.rank)
  bcast_S3x262144x1_S3x262144x64_0_1_2 : S3x262144x1.BroadcastsInDim S3x262144x64 (![0, 1, 2] : Fin 3 → Fin S3x262144x64.rank)
  reducesTo_S3x262144x64_S262144x64_d0 : S3x262144x64.ReducesTo [0] S262144x64
  h_S_ : 0 < S_.numel
  concatenates_S262144x64_S262144x64_S262144x64_S262144x64_S262144x256_d1 : Shape.Concatenates [S262144x64, S262144x64, S262144x64, S262144x64] S262144x256 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  reduces_S4096x256_S4096 : S4096x256.Reduces [1] S4096
  inb_S4096_S4096_0 : ∀ a, (![0] : Fin 1 → Nat) a + S4096.size a ≤ S4096.size a
  h_S4096 : 0 < S4096.numel
  gather_S100000x64_S262144x1_S262144x64_1_0_n_n_0_1_164_wf : GatherDims.WF S100000x64 S262144x1 S262144x64 [1] [0] [] [0] [] 1 ![1, 64]
  gather_S4000x128_S262144x1_S262144x128_1_0_n_n_0_1_1128_wf : GatherDims.WF S4000x128 S262144x1 S262144x128 [1] [0] [] [0] [] 1 ![1, 128]
  gather_S500x128_S262144x1_S262144x128_1_0_n_n_0_1_1128_wf : GatherDims.WF S500x128 S262144x1 S262144x128 [1] [0] [] [0] [] 1 ![1, 128]
  gather_S134x64_S262144x1_S262144x64_1_0_n_n_0_1_164_wf : GatherDims.WF S134x64 S262144x1 S262144x64 [1] [0] [] [0] [] 1 ![1, 64]
  gather_S3x100000x64_S262144x1_S3x262144x64_02_1_n_n_1_1_3164_wf : GatherDims.WF S3x100000x64 S262144x1 S3x262144x64 [0, 2] [1] [] [1] [] 1 ![3, 1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S262144x256.size a
  hwx0_2 : ∀ i : grid0.Coords, EltTy.bits .f32 = 32 ∨ (Rect.block (s := S262144x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S262144.size a
  hwx0_3 : ∀ i : grid0.Coords, EltTy.bits .f32 = 32 ∨ (Rect.block (s := S262144) S4096.size (cc0_transform_3 i) (hinb0_3 i)).WholeWords (EltTy.packing .f32)

variable [Facts₀]

def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf
def gather_S4000x128_S262144x1_S262144x128_1_0_n_n_0_1_1128 : GatherDims S4000x128 S262144x1 S262144x128 where
  offsetDims := [1]
  collapsedSliceDims := [0]
  operandBatchingDims := []
  startIndicesBatchingDims := []
  startIndexMap := [0]
  indexVectorDim := 1
  sliceSizes := ![1, 128]
  wf := gather_S4000x128_S262144x1_S262144x128_1_0_n_n_0_1_1128_wf
def gather_S500x128_S262144x1_S262144x128_1_0_n_n_0_1_1128 : GatherDims S500x128 S262144x1 S262144x128 where
  offsetDims := [1]
  collapsedSliceDims := [0]
  operandBatchingDims := []
  startIndicesBatchingDims := []
  startIndexMap := [0]
  indexVectorDim := 1
  sliceSizes := ![1, 128]
  wf := gather_S500x128_S262144x1_S262144x128_1_0_n_n_0_1_1128_wf
def gather_S134x64_S262144x1_S262144x64_1_0_n_n_0_1_164 : GatherDims S134x64 S262144x1 S262144x64 where
  offsetDims := [1]
  collapsedSliceDims := [0]
  operandBatchingDims := []
  startIndicesBatchingDims := []
  startIndexMap := [0]
  indexVectorDim := 1
  sliceSizes := ![1, 64]
  wf := gather_S134x64_S262144x1_S262144x64_1_0_n_n_0_1_164_wf
def gather_S3x100000x64_S262144x1_S3x262144x64_02_1_n_n_1_1_3164 : GatherDims S3x100000x64 S262144x1 S3x262144x64 where
  offsetDims := [0, 2]
  collapsedSliceDims := [1]
  operandBatchingDims := []
  startIndicesBatchingDims := []
  startIndexMap := [1]
  indexVectorDim := 1
  sliceSizes := ![3, 1, 64]
  wf := gather_S3x100000x64_S262144x1_S3x262144x64_02_1_n_n_1_1_3164_wf

abbrev win0_0 : Pipeline.Window sig grid0 :=
  Pipeline.Window.ofSpec (Memref.whole main_v185) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v186) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v187) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v188) S4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144 : Shape := ⟨1, ![262144]⟩
abbrev S100000x64 : Shape := ⟨2, ![100000, 64]⟩
abbrev S500x128 : Shape := ⟨2, ![500, 128]⟩
abbrev S134x64 : Shape := ⟨2, ![134, 64]⟩
abbrev S4000x128 : Shape := ⟨2, ![4000, 128]⟩
abbrev S3x100000x64 : Shape := ⟨3, ![3, 100000, 64]⟩
abbrev S1x262144 : Shape := ⟨2, ![1, 262144]⟩
abbrev S3x262144 : Shape := ⟨2, ![3, 262144]⟩
abbrev S_ : Shape := ⟨0, ![]⟩
abbrev S262144x1 : Shape := ⟨2, ![262144, 1]⟩
abbrev S262144x64 : Shape := ⟨2, ![262144, 64]⟩
abbrev S262144x128 : Shape := ⟨2, ![262144, 128]⟩
abbrev S3x262144x64 : Shape := ⟨3, ![3, 262144, 64]⟩
abbrev S3x262144x1 : Shape := ⟨3, ![3, 262144, 1]⟩

abbrev nBuf : Space → Nat
  | .hbm => 275
  | .vmem => 0
  | .smem => 0
  | _ => 0

abbrev hbmTy0_0 (i : Nat) : BufTy := match i % 128 with
  | 0 => ⟨S262144, .i32⟩
  | 1 => ⟨S262144, .i32⟩
  | 2 => ⟨S262144, .i32⟩
  | 3 => ⟨S262144, .f32⟩
  | 4 => ⟨S262144, .f32⟩
  | 5 => ⟨S262144, .f32⟩
  | 6 => ⟨S262144, .i32⟩
  | 7 => ⟨S100000x64, .f32⟩
  | 8 => ⟨S100000x64, .f32⟩
  | 9 => ⟨S500x128, .f32⟩
  | 10 => ⟨S500x128, .f32⟩
  | 11 => ⟨S134x64, .f32⟩
  | 12 => ⟨S4000x128, .f32⟩
  | 13 => ⟨S3x100000x64, .f32⟩
  | 14 => ⟨S3x100000x64, .f32⟩
  | 15 => ⟨S3x100000x64, .f32⟩
  | 16 => ⟨S3x100000x64, .f32⟩
  | 17 => ⟨S3x100000x64, .f32⟩
  | 18 => ⟨S3x100000x64, .f32⟩
  | 19 => ⟨S1x262144, .f32⟩
  | 20 => ⟨S1x262144, .f32⟩
  | 21 => ⟨S1x262144, .f32⟩
  | 22 => ⟨S3x262144, .f32⟩
  | 23 => ⟨S_, .i32⟩
  | 24 => ⟨S_, .i32⟩
  | 25 => ⟨S262144, .i32⟩
  | 26 => ⟨S262144, .i32⟩
  | 27 => ⟨S262144, .i32⟩
  | 28 => ⟨S_, .i32⟩
  | 29 => ⟨S262144, .i32⟩
  | 30 => ⟨S262144, .i1⟩
  | 31 => ⟨S262144, .i32⟩
  | 32 => ⟨S262144, .i32⟩
  | 33 => ⟨S_, .i32⟩
  | 34 => ⟨S262144, .i32⟩
  | 35 => ⟨S262144, .i1⟩
  | 36 => ⟨S262144, .i1⟩
  | 37 => ⟨S_, .i32⟩
  | 38 => ⟨S262144, .i32⟩
  | 39 => ⟨S262144, .i32⟩
  | 40 => ⟨S262144, .i32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S262144x64, .f32⟩
  | 50 => ⟨S_, .i32⟩
  | 51 => ⟨S262144, .i32⟩
  | 52 => ⟨S262144, .i1⟩
  | 53 => ⟨S_, .i32⟩
  | 54 => ⟨S262144, .i32⟩
  | 55 => ⟨S262144, .i32⟩
  | 56 => ⟨S262144, .i32⟩
  | 57 => ⟨S262144x1, .i32⟩
  | 58 => ⟨S262144x128, .f32⟩
  | 59 => ⟨S_, .i32⟩
  | 60 => ⟨S262144, .i32⟩
  | 61 => ⟨S262144, .i1⟩
  | 62 => ⟨S_, .i32⟩
  | 63 => ⟨S262144, .i32⟩
  | 64 => ⟨S262144, .i32⟩
  | 65 => ⟨S262144, .i32⟩
  | 66 => ⟨S262144x1, .i32⟩
  | 67 => ⟨S262144x128, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S262144x1, .i32⟩
  | 76 => ⟨S262144x128, .f32⟩
  | 77 => ⟨S262144x128, .f32⟩
  | 78 => ⟨S262144x128, .f32⟩
  | 79 => ⟨S262144x128, .f32⟩
  | 80 => ⟨S262144x128, .f32⟩
  | 81 => ⟨S_, .i32⟩
  | 82 => ⟨S262144, .i32⟩
  | 83 => ⟨S262144, .i1⟩
  | 84 => ⟨S_, .i32⟩
  | 85 => ⟨S262144, .i32⟩
  | 86 => ⟨S262144, .i32⟩
  | 87 => ⟨S262144, .i32⟩
  | 88 => ⟨S262144x1, .i32⟩
  | 89 => ⟨S3x262144x64, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S3x262144x64, .f32⟩
  | 99 => ⟨S_, .i32⟩
  | 100 => ⟨S262144, .i32⟩
  | 101 => ⟨S262144, .i1⟩
  | 102 => ⟨S_, .i32⟩
  | 103 => ⟨S262144, .i32⟩
  | 104 => ⟨S262144, .i32⟩
  | 105 => ⟨S262144, .i32⟩
  | 106 => ⟨S262144x1, .i32⟩
  | 107 => ⟨S3x262144x64, .f32⟩
  | 108 => ⟨S3x262144x1, .f32⟩
  | 109 => ⟨S3x262144x64, .f32⟩
  | 110 => ⟨S3x262144x64, .f32⟩
  | 111 => ⟨S3x262144x64, .f32⟩
  | 112 => ⟨S3x262144x64, .f32⟩
  | 113 => ⟨S3x262144x64, .f32⟩
  | 114 => ⟨S_, .f32⟩
  | 115 => ⟨S262144x64, .f32⟩
  | 116 => ⟨S262144x64, .f32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S3x262144x64, .f32⟩
  | 126 => ⟨S_, .i32⟩
  | 127 => ⟨S262144, .i32⟩
  | _ => ⟨S262144, .i32⟩

abbrev hbmTy0_1 (i : Nat) : BufTy := match i % 128 with
  | 0 => ⟨S262144, .i1⟩
  | 1 => ⟨S_, .i32⟩
  | 2 => ⟨S262144, .i32⟩
  | 3 => ⟨S262144, .i32⟩
  | 4 => ⟨S262144, .i32⟩
  | 5 => ⟨S262144x1, .i32⟩
  | 6 => ⟨S3x262144x64, .f32⟩
  | 7 => ⟨S_, .i32⟩
  | 8 => ⟨S262144, .i32⟩
  | 9 => ⟨S262144, .i1⟩
  | 10 => ⟨S_, .i32⟩
  | 11 => ⟨S262144, .i32⟩
  | 12 => ⟨S262144, .i32⟩
  | 13 => ⟨S262144, .i32⟩
  | 14 => ⟨S262144x1, .i32⟩
  | 15 => ⟨S3x262144x64, .f32⟩
  | 16 => ⟨S3x262144x1, .f32⟩
  | 17 => ⟨S3x262144x64, .f32⟩
  | 18 => ⟨S3x262144x64, .f32⟩
  | 19 => ⟨S3x262144x64, .f32⟩
  | 20 => ⟨S3x262144x64, .f32⟩
  | 21 => ⟨S3x262144x64, .f32⟩
  | 22 => ⟨S_, .f32⟩
  | 23 => ⟨S262144x64, .f32⟩
  | 24 => ⟨S262144x64, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S3x262144x64, .f32⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S262144x1, .i32⟩
  | 42 => ⟨S3x262144x64, .f32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S3x262144x64, .f32⟩
  | 52 => ⟨S3x262144x1, .f32⟩
  | 53 => ⟨S3x262144x64, .f32⟩
  | 54 => ⟨S3x262144x64, .f32⟩
  | 55 => ⟨S3x262144x64, .f32⟩
  | 56 => ⟨S3x262144x64, .f32⟩
  | 57 => ⟨S3x262144x64, .f32⟩
  | 58 => ⟨S_, .f32⟩
  | 59 => ⟨S262144x64, .f32⟩
  | 60 => ⟨S262144x64, .f32⟩
  | 61 => ⟨S_, .i32⟩
  | 62 => ⟨S262144, .i32⟩
  | 63 => ⟨S262144, .i1⟩
  | 64 => ⟨S_, .i32⟩
  | 65 => ⟨S262144, .i32⟩
  | 66 => ⟨S262144, .i32⟩
  | 67 => ⟨S262144, .i32⟩
  | 68 => ⟨S262144x1, .i32⟩
  | 69 => ⟨S3x262144x64, .f32⟩
  | 70 => ⟨S_, .i32⟩
  | 71 => ⟨S262144, .i32⟩
  | 72 => ⟨S262144, .i1⟩
  | 73 => ⟨S_, .i32⟩
  | 74 => ⟨S262144, .i32⟩
  | 75 => ⟨S262144, .i32⟩
  | 76 => ⟨S262144, .i32⟩
  | 77 => ⟨S262144x1, .i32⟩
  | 78 => ⟨S3x262144x64, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S3x262144x64, .f32⟩
  | 88 => ⟨S3x262144x1, .f32⟩
  | 89 => ⟨S3x262144x64, .f32⟩
  | 90 => ⟨S3x262144x64, .f32⟩
  | 91 => ⟨S3x262144x64, .f32⟩
  | 92 => ⟨S3x262144x64, .f32⟩
  | 93 => ⟨S3x262144x64, .f32⟩
  | 94 => ⟨S_, .f32⟩
  | 95 => ⟨S262144x64, .f32⟩
  | 96 => ⟨S262144x64, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S262144x1, .i32⟩
  | 105 => ⟨S262144x64, .f32⟩
  | 106 => ⟨S262144x128, .f32⟩
  | 107 => ⟨S_, .i32⟩
  | 108 => ⟨S262144, .i32⟩
  | 109 => ⟨S262144, .i1⟩
  | 110 => ⟨S_, .i32⟩
  | 111 => ⟨S262144, .i32⟩
  | 112 => ⟨S262144, .i32⟩
  | 113 => ⟨S262144, .i32⟩
  | 114 => ⟨S262144x1, .i32⟩
  | 115 => ⟨S262144x64, .f32⟩
  | 116 => ⟨S262144x128, .f32⟩
  | 117 => ⟨S_, .i32⟩
  | 118 => ⟨S262144, .i32⟩
  | 119 => ⟨S262144, .i1⟩
  | 120 => ⟨S_, .i32⟩
  | 121 => ⟨S262144, .i32⟩
  | 122 => ⟨S262144, .i32⟩
  | 123 => ⟨S262144, .i32⟩
  | 124 => ⟨S262144x1, .i32⟩
  | 125 => ⟨S262144x64, .f32⟩
  | 126 => ⟨S262144x128, .f32⟩
  | 127 => ⟨S_, .i32⟩
  | _ => ⟨S262144, .i32⟩

abbrev hbmTy0_2 (i : Nat) : BufTy := match i % 128 with
  | 0 => ⟨S262144, .i32⟩
  | 1 => ⟨S262144, .i1⟩
  | 2 => ⟨S_, .i32⟩
  | 3 => ⟨S262144, .i32⟩
  | 4 => ⟨S262144, .i32⟩
  | 5 => ⟨S262144, .i32⟩
  | 6 => ⟨S262144x1, .i32⟩
  | 7 => ⟨S262144x64, .f32⟩
  | 8 => ⟨S262144x128, .f32⟩
  | 9 => ⟨S262144x128, .f32⟩
  | 10 => ⟨S262144x128, .f32⟩
  | 11 => ⟨S262144x128, .f32⟩
  | 12 => ⟨S262144x128, .f32⟩
  | 13 => ⟨S262144x128, .f32⟩
  | 14 => ⟨S_, .f32⟩
  | 15 => ⟨S262144x128, .f32⟩
  | 16 => ⟨S262144x128, .f32⟩
  | 17 => ⟨S_, .f32⟩
  | 18 => ⟨S262144, .f32⟩
  | _ => ⟨S262144, .i32⟩

abbrev hbmTy (i : Nat) : BufTy := match i / 128 with
  | 0 => hbmTy0_0 i
  | 1 => hbmTy0_1 i
  | 2 => hbmTy0_2 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v4 : Ref sig .tc := ⟨.hbm, 40, rfl⟩
abbrev main_c_0 : Ref sig .tc := ⟨.hbm, 41, rfl⟩
abbrev main_v5 : Ref sig .tc := ⟨.hbm, 42, rfl⟩
abbrev main_v6 : Ref sig .tc := ⟨.hbm, 43, rfl⟩
abbrev main_c_1 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_c_2 : Ref sig .tc := ⟨.hbm, 50, rfl⟩
abbrev main_v12 : Ref sig .tc := ⟨.hbm, 51, rfl⟩
abbrev main_v13 : Ref sig .tc := ⟨.hbm, 52, rfl⟩
abbrev main_c_3 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_4 : Ref sig .tc := ⟨.hbm, 59, rfl⟩
abbrev main_v19 : Ref sig .tc := ⟨.hbm, 60, rfl⟩
abbrev main_v20 : Ref sig .tc := ⟨.hbm, 61, rfl⟩
abbrev main_c_5 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_c_6 : Ref sig .tc := ⟨.hbm, 68, rfl⟩
abbrev main_v26 : Ref sig .tc := ⟨.hbm, 69, rfl⟩
abbrev main_v27 : Ref sig .tc := ⟨.hbm, 70, rfl⟩
abbrev main_c_7 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_8 : Ref sig .tc := ⟨.hbm, 81, rfl⟩
abbrev main_v37 : Ref sig .tc := ⟨.hbm, 82, rfl⟩
abbrev main_v38 : Ref sig .tc := ⟨.hbm, 83, rfl⟩
abbrev main_c_9 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_c_10 : Ref sig .tc := ⟨.hbm, 90, rfl⟩
abbrev main_v44 : Ref sig .tc := ⟨.hbm, 91, rfl⟩
abbrev main_v45 : Ref sig .tc := ⟨.hbm, 92, rfl⟩
abbrev main_c_11 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_c_12 : Ref sig .tc := ⟨.hbm, 99, rfl⟩
abbrev main_v51 : Ref sig .tc := ⟨.hbm, 100, rfl⟩
abbrev main_v52 : Ref sig .tc := ⟨.hbm, 101, rfl⟩
abbrev main_c_13 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_cst : Ref sig .tc := ⟨.hbm, 114, rfl⟩
abbrev main_v64 : Ref sig .tc := ⟨.hbm, 115, rfl⟩
abbrev main_v65 : Ref sig .tc := ⟨.hbm, 116, rfl⟩
abbrev main_c_14 : Ref sig .tc := ⟨.hbm, 117, rfl⟩
abbrev main_v66 : Ref sig .tc := ⟨.hbm, 118, rfl⟩
abbrev main_v67 : Ref sig .tc := ⟨.hbm, 119, rfl⟩
abbrev main_c_15 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_16 : Ref sig .tc := ⟨.hbm, 126, rfl⟩
abbrev main_v73 : Ref sig .tc := ⟨.hbm, 127, rfl⟩
abbrev main_v74 : Ref sig .tc := ⟨.hbm, 128, rfl⟩
abbrev main_c_17 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_c_18 : Ref sig .tc := ⟨.hbm, 135, rfl⟩
abbrev main_v80 : Ref sig .tc := ⟨.hbm, 136, rfl⟩
abbrev main_v81 : Ref sig .tc := ⟨.hbm, 137, rfl⟩
abbrev main_c_19 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_cst_20 : Ref sig .tc := ⟨.hbm, 150, rfl⟩
abbrev main_v93 : Ref sig .tc := ⟨.hbm, 151, rfl⟩
abbrev main_v94 : Ref sig .tc := ⟨.hbm, 152, rfl⟩
abbrev main_c_21 : Ref sig .tc := ⟨.hbm, 153, rfl⟩
abbrev main_v95 : Ref sig .tc := ⟨.hbm, 154, rfl⟩
abbrev main_v96 : Ref sig .tc := ⟨.hbm, 155, rfl⟩
abbrev main_c_22 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_c_23 : Ref sig .tc := ⟨.hbm, 162, rfl⟩
abbrev main_v102 : Ref sig .tc := ⟨.hbm, 163, rfl⟩
abbrev main_v103 : Ref sig .tc := ⟨.hbm, 164, rfl⟩
abbrev main_c_24 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_c_25 : Ref sig .tc := ⟨.hbm, 171, rfl⟩
abbrev main_v109 : Ref sig .tc := ⟨.hbm, 172, rfl⟩
abbrev main_v110 : Ref sig .tc := ⟨.hbm, 173, rfl⟩
abbrev main_c_26 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_27 : Ref sig .tc := ⟨.hbm, 186, rfl⟩
abbrev main_v122 : Ref sig .tc := ⟨.hbm, 187, rfl⟩
abbrev main_v123 : Ref sig .tc := ⟨.hbm, 188, rfl⟩
abbrev main_c_28 : Ref sig .tc := ⟨.hbm, 189, rfl⟩
abbrev main_v124 : Ref sig .tc := ⟨.hbm, 190, rfl⟩
abbrev main_v125 : Ref sig .tc := ⟨.hbm, 191, rfl⟩
abbrev main_c_29 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_c_30 : Ref sig .tc := ⟨.hbm, 198, rfl⟩
abbrev main_v131 : Ref sig .tc := ⟨.hbm, 199, rfl⟩
abbrev main_v132 : Ref sig .tc := ⟨.hbm, 200, rfl⟩
abbrev main_c_31 : Ref sig .tc := ⟨.hbm, 201, rfl⟩
abbrev main_v133 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_c_32 : Ref sig .tc := ⟨.hbm, 207, rfl⟩
abbrev main_v138 : Ref sig .tc := ⟨.hbm, 208, rfl⟩
abbrev main_v139 : Ref sig .tc := ⟨.hbm, 209, rfl⟩
abbrev main_c_33 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_cst_34 : Ref sig .tc := ⟨.hbm, 222, rfl⟩
abbrev main_v151 : Ref sig .tc := ⟨.hbm, 223, rfl⟩
abbrev main_v152 : Ref sig .tc := ⟨.hbm, 224, rfl⟩
abbrev main_c_35 : Ref sig .tc := ⟨.hbm, 225, rfl⟩
abbrev main_v153 : Ref sig .tc := ⟨.hbm, 226, rfl⟩
abbrev main_v154 : Ref sig .tc := ⟨.hbm, 227, rfl⟩
abbrev main_c_36 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_c_37 : Ref sig .tc := ⟨.hbm, 235, rfl⟩
abbrev main_v161 : Ref sig .tc := ⟨.hbm, 236, rfl⟩
abbrev main_v162 : Ref sig .tc := ⟨.hbm, 237, rfl⟩
abbrev main_c_38 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_c_39 : Ref sig .tc := ⟨.hbm, 245, rfl⟩
abbrev main_v169 : Ref sig .tc := ⟨.hbm, 246, rfl⟩
abbrev main_v170 : Ref sig .tc := ⟨.hbm, 247, rfl⟩
abbrev main_c_40 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_c_41 : Ref sig .tc := ⟨.hbm, 255, rfl⟩
abbrev main_v177 : Ref sig .tc := ⟨.hbm, 256, rfl⟩
abbrev main_v178 : Ref sig .tc := ⟨.hbm, 257, rfl⟩
abbrev main_c_42 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_cst_43 : Ref sig .tc := ⟨.hbm, 270, rfl⟩
abbrev main_v190 : Ref sig .tc := ⟨.hbm, 271, rfl⟩
abbrev main_v191 : Ref sig .tc := ⟨.hbm, 272, rfl⟩
abbrev main_cst_44 : Ref sig .tc := ⟨.hbm, 273, rfl⟩
abbrev main_v192 : Ref sig .tc := ⟨.hbm, 274, rfl⟩

abbrev nD : Nat := 1
abbrev τ : Topo := Topo.v7x

variable {F : FTy → Type} [FloatOps F]

class Facts₀ : Prop where
  bcast_S262144_S1x262144_1 : S262144.BroadcastsInDim S1x262144 (![1] : Fin 1 → Fin S1x262144.rank)
  concatenates_S1x262144_S1x262144_S1x262144_S3x262144_d0 : Shape.Concatenates [S1x262144, S1x262144, S1x262144] S3x262144 0
  bcast_S_S262144 : S_.BroadcastsInDim S262144 (![] : Fin 0 → Fin S262144.rank)
  bcast_S262144_S262144x1_0 : S262144.BroadcastsInDim S262144x1 (![0] : Fin 1 → Fin S262144x1.rank)
  bcast_S3x262144_S3x262144x1_0_1 : S3x262144.BroadcastsInDim S3x262144x1 (![0, 1] : Fin 2 → Fin S3x262144x1.rank)
  bcast_S3x262144x1_S3x262144x64_0_1_2 : S3x262144x1.BroadcastsInDim S3x262144x64 (![0, 1, 2] : Fin 3 → Fin S3x262144x64.rank)
  reducesTo_S3x262144x64_S262144x64_d0 : S3x262144x64.ReducesTo [0] S262144x64
  h_S_ : 0 < S_.numel
  concatenates_S262144x64_S262144x64_S262144x128_d1 : Shape.Concatenates [S262144x64, S262144x64] S262144x128 1
  bcast_S_S262144x128 : S_.BroadcastsInDim S262144x128 (![] : Fin 0 → Fin S262144x128.rank)
  reducesTo_S262144x128_S262144_d1 : S262144x128.ReducesTo [1] S262144
  gather_S134x64_S262144x1_S262144x64_1_0_n_n_0_1_164_wf : GatherDims.WF S134x64 S262144x1 S262144x64 [1] [0] [] [0] [] 1 ![1, 64]
  gather_S4000x128_S262144x1_S262144x128_1_0_n_n_0_1_1128_wf : GatherDims.WF S4000x128 S262144x1 S262144x128 [1] [0] [] [0] [] 1 ![1, 128]
  gather_S500x128_S262144x1_S262144x128_1_0_n_n_0_1_1128_wf : GatherDims.WF S500x128 S262144x1 S262144x128 [1] [0] [] [0] [] 1 ![1, 128]
  gather_S3x100000x64_S262144x1_S3x262144x64_02_1_n_n_1_1_3164_wf : GatherDims.WF S3x100000x64 S262144x1 S3x262144x64 [0, 2] [1] [] [1] [] 1 ![3, 1, 64]
  gather_S100000x64_S262144x1_S262144x64_1_0_n_n_0_1_164_wf : GatherDims.WF S100000x64 S262144x1 S262144x64 [1] [0] [] [0] [] 1 ![1, 64]

variable [Facts₀]

def gather_S134x64_S262144x1_S262144x64_1_0_n_n_0_1_164 : GatherDims S134x64 S262144x1 S262144x64 where
  offsetDims := [1]
  collapsedSliceDims := [0]
  operandBatchingDims := []
  startIndicesBatchingDims := []
  startIndexMap := [0]
  indexVectorDim := 1
  sliceSizes := ![1, 64]
  wf := gather_S134x64_S262144x1_S262144x64_1_0_n_n_0_1_164_wf
def gather_S4000x128_S262144x1_S262144x128_1_0_n_n_0_1_1128 : GatherDims S4000x128 S262144x1 S262144x128 where
  offsetDims := [1]
  collapsedSliceDims := [0]
  operandBatchingDims := []
  startIndicesBatchingDims := []
  startIndexMap := [0]
  indexVectorDim := 1
  sliceSizes := ![1, 128]
  wf := gather_S4000x128_S262144x1_S262144x128_1_0_n_n_0_1_1128_wf
def gather_S500x128_S262144x1_S262144x128_1_0_n_n_0_1_1128 : GatherDims S500x128 S262144x1 S262144x128 where
  offsetDims := [1]
  collapsedSliceDims := [0]
  operandBatchingDims := []
  startIndicesBatchingDims := []
  startIndexMap := [0]
  indexVectorDim := 1
  sliceSizes := ![1, 128]
  wf := gather_S500x128_S262144x1_S262144x128_1_0_n_n_0_1_1128_wf
def gather_S3x100000x64_S262144x1_S3x262144x64_02_1_n_n_1_1_3164 : GatherDims S3x100000x64 S262144x1 S3x262144x64 where
  offsetDims := [0, 2]
  collapsedSliceDims := [1]
  operandBatchingDims := []
  startIndicesBatchingDims := []
  startIndexMap := [1]
  indexVectorDim := 1
  sliceSizes := ![3, 1, 64]
  wf := gather_S3x100000x64_S262144x1_S3x262144x64_02_1_n_n_1_1_3164_wf
def gather_S100000x64_S262144x1_S262144x64_1_0_n_n_0_1_164 : GatherDims S100000x64 S262144x1 S262144x64 where
  offsetDims := [1]
  collapsedSliceDims := [0]
  operandBatchingDims := []
  startIndicesBatchingDims := []
  startIndexMap := [0]
  indexVectorDim := 1
  sliceSizes := ![1, 64]
  wf := gather_S100000x64_S262144x1_S262144x64_1_0_n_n_0_1_164_wf

class Facts : Prop extends Facts₀ where

variable [Facts]
-- ==== Proof.FrameBits.lean ====
/-
  The frame of the program: the host operations before the one pallas region leave every argument array as
  launched, the region's body at each of the 64 grid points reads three [4096, 256] blocks and overwrites the
  [4096] output block with one payload, and the library's launch theorem for such a region gives the run:
  termination, no fault, every argument array unchanged, and the output array at what the 64 write-backs leave.
  Stated at any float instance.
-/
import proofs.«129495_j14431090114916_2_alg».proof.Proof.Gen.Kernel.Launch
import proofs.«129495_j14431090114916_2_alg».proof.Proof.Gen.Kernel.Skeleton
import proofs.«129495_j14431090114916_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the fold of the host operations over the launch memory. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is the three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- Every host operation writes its own result buffer only, and none of those is the named argument. -/
local macro "not_written" : tactic => `(tactic| (
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (by decide)))

/-- No host operation writes argument array 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by not_written))
/-- No host operation writes argument array 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by not_written))
/-- No host operation writes argument array 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by not_written))
/-- No host operation writes argument array 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by not_written))
/-- No host operation writes argument array 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by not_written))
/-- No host operation writes argument array 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by not_written))
/-- No host operation writes argument array 6: the region finds it as launched. -/
theorem entry_arg6 (c : Dev nD) : V m c main_arg6 = m ((c : Thread nD τ).loc main_arg6) :=
  StableHlo.after_of_forall_not_mem (b := Proc.devRef .tc main_arg6) _ _ (List.forall_iff_forall_mem.mp (by not_written))
/-- No host operation writes argument array 7: the region finds it as launched. -/
theorem entry_arg7 (c : Dev nD) : V m c main_arg7 = m ((c : Thread nD τ).loc main_arg7) :=
  StableHlo.after_of_forall_not_mem (b := Proc.devRef .tc main_arg7) _ _ (List.forall_iff_forall_mem.mp (by not_written))
/-- No host operation writes argument array 8: the region finds it as launched. -/
theorem entry_arg8 (c : Dev nD) : V m c main_arg8 = m ((c : Thread nD τ).loc main_arg8) :=
  StableHlo.after_of_forall_not_mem (b := Proc.devRef .tc main_arg8) _ _ (List.forall_iff_forall_mem.mp (by not_written))
/-- No host operation writes argument array 9: the region finds it as launched. -/
theorem entry_arg9 (c : Dev nD) : V m c main_arg9 = m ((c : Thread nD τ).loc main_arg9) :=
  StableHlo.after_of_forall_not_mem (b := Proc.devRef .tc main_arg9) _ _ (List.forall_iff_forall_mem.mp (by not_written))
/-- No host operation writes argument array 10: the region finds it as launched. -/
theorem entry_arg10 (c : Dev nD) : V m c main_arg10 = m ((c : Thread nD τ).loc main_arg10) :=
  StableHlo.after_of_forall_not_mem (b := Proc.devRef .tc main_arg10) _ _ (List.forall_iff_forall_mem.mp (by not_written))
/-- No host operation writes argument array 11: the region finds it as launched. -/
theorem entry_arg11 (c : Dev nD) : V m c main_arg11 = m ((c : Thread nD τ).loc main_arg11) :=
  StableHlo.after_of_forall_not_mem (b := Proc.devRef .tc main_arg11) _ _ (List.forall_iff_forall_mem.mp (by not_written))
/-- No host operation writes argument array 12: the region finds it as launched. -/
theorem entry_arg12 (c : Dev nD) : V m c main_arg12 = m ((c : Thread nD τ).loc main_arg12) :=
  StableHlo.after_of_forall_not_mem (b := Proc.devRef .tc main_arg12) _ _ (List.forall_iff_forall_mem.mp (by not_written))
/-- No host operation writes argument array 13: the region finds it as launched. -/
theorem entry_arg13 (c : Dev nD) : V m c main_arg13 = m ((c : Thread nD τ).loc main_arg13) :=
  StableHlo.after_of_forall_not_mem (b := Proc.devRef .tc main_arg13) _ _ (List.forall_iff_forall_mem.mp (by not_written))
/-- No host operation writes argument array 14: the region finds it as launched. -/
theorem entry_arg14 (c : Dev nD) : V m c main_arg14 = m ((c : Thread nD τ).loc main_arg14) :=
  StableHlo.after_of_forall_not_mem (b := Proc.devRef .tc main_arg14) _ _ (List.forall_iff_forall_mem.mp (by not_written))
/-- No host operation writes argument array 15: the region finds it as launched. -/
theorem entry_arg15 (c : Dev nD) : V m c main_arg15 = m ((c : Thread nD τ).loc main_arg15) :=
  StableHlo.after_of_forall_not_mem (b := Proc.devRef .tc main_arg15) _ _ (List.forall_iff_forall_mem.mp (by not_written))
/-- No host operation writes argument array 16: the region finds it as launched. -/
theorem entry_arg16 (c : Dev nD) : V m c main_arg16 = m ((c : Thread nD τ).loc main_arg16) :=
  StableHlo.after_of_forall_not_mem (b := Proc.devRef .tc main_arg16) _ _ (List.forall_iff_forall_mem.mp (by not_written))
/-- No host operation writes argument array 17: the region finds it as launched. -/
theorem entry_arg17 (c : Dev nD) : V m c main_arg17 = m ((c : Thread nD τ).loc main_arg17) :=
  StableHlo.after_of_forall_not_mem (b := Proc.devRef .tc main_arg17) _ _ (List.forall_iff_forall_mem.mp (by not_written))
/-- No host operation writes argument array 18: the region finds it as launched. -/
theorem entry_arg18 (c : Dev nD) : V m c main_arg18 = m ((c : Thread nD τ).loc main_arg18) :=
  StableHlo.after_of_forall_not_mem (b := Proc.devRef .tc main_arg18) _ _ (List.forall_iff_forall_mem.mp (by not_written))

/-! ## The windows' blocks -/

/-- Window `w`'s block at point `t`: rows 4096·t … 4096·t + 4095 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for proof data over `V`
    whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not, for proof data over `V`
    whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not, for proof data over `V`
    whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rIn : Rect S4096x256 := Rect.unit (s := S4096x256) ![0, 0] S4096x256.size inb_S4096x256_S4096x256_0_0
abbrev rOut : Rect S4096 := Rect.unit (s := S4096) ![0] S4096.size inb_S4096_S4096_0

/-- The output block after the body: its one store, of the payload of the three input blocks. -/
def outBlk (x0 x1 x2 : Vec F S4096x256 .f32) : Vec F S4096 .f32 :=
  View.canon [⟨rOut, k0_pay1 (View.ld x0 rIn) (View.ld x1 rIn) (View.ld x2 rIn)⟩]

/-- The one store covers the output block. -/
theorem outCover (p0 : Vec F S4096 .f32) (y : S4096.Idx) :
    ∃ pc ∈ ([⟨rOut, p0⟩] : List (View.Piece (Elt F) S4096 .f32)), y ∈ pc.1.set :=
  View.cover_of_tiled [⟨rOut, p0⟩] S4096.size (by rfl) y

set_option maxHeartbeats 1000000 in
/-- The kernel body on whole staging memrefs: the inputs keep their contents, the output ends at `outBlk`. -/
theorem sound_kernel (c : Dev nD) (E : Set ℕ) (i : grid0.Coords)
    (a1 : Memref sig .tc .vmem S4096x256 .f32) (h1 : a1.IsWhole) (a2 : Memref sig .tc .vmem S4096x256 .f32) (h2 : a2.IsWhole)
    (a3 : Memref sig .tc .vmem S4096x256 .f32) (h3 : a3.IsWhole) (a4 : Memref sig .tc .vmem S4096 .f32) (h4 : a4.IsWhole)
    (x0 x1 x2 : Vec F S4096x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (outBlk x0 x1 x2)) -∗ K ⟨⟩))
      ⊢ wp frame (wpE (defs₀ (F := F)) Variants.none c none) E (cc0__fused_kernel i a1 h1 a2 h2 a3 h3 a4 h4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The proof data -/

/-- On core `c`: the arrays as the region finds them; after the body at point `t` each input's buffer at its block
    and the output's at `outBlk` of the three input blocks; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlk (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; the four arrays of the region end at what
    the proof data computes, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩) (run_main m ρ)

end Cert.Kernel.Frm

end
-- ==== Proof.FrameIdeal.lean ====
/-
  The frame of the program: the host operations before the one pallas region leave every argument array as
  launched, the region's body at each of the 64 grid points reads three [4096, 256] blocks and overwrites the
  [4096] output block with one payload, and the library's launch theorem for such a region gives the run:
  termination, no fault, every argument array unchanged, and the output array at what the 64 write-backs leave.
  Stated at any float instance.
-/
import proofs.«129495_j14431090114916_2_alg».proof.Proof.Gen.KernelIdeal.Launch
import proofs.«129495_j14431090114916_2_alg».proof.Proof.Gen.KernelIdeal.Skeleton
import proofs.«129495_j14431090114916_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the fold of the host operations over the launch memory. -/
abbrev V (c : Dev nD) (b : Ref sig .tc) : Buf (Elt F) ((c : Thread nD τ).loc b) :=
  StableHlo.after (List.flatten [hostOps0, hostOps0_1, hostOps0_2]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor

/-- @main is the three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨fresh0, fresh1, fresh2⟩) main_chain

/-- Every host operation writes its own result buffer only, and none of those is the named argument. -/
local macro "not_written" : tactic => `(tactic| (
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.mem_singleton]
  repeat' apply And.intro
  all_goals exact StableHlo.devRef_ne_of_ne (by decide)))

/-- No host operation writes argument array 0: the region finds it as launched. -/
theorem entry_arg0 (c : Dev nD) : V m c main_arg0 = m ((c : Thread nD τ).loc main_arg0) :=
  StableHlo.after_of_forall_not_mem (b := Proc.devRef .tc main_arg0) _ _ (List.forall_iff_forall_mem.mp (by not_written))
/-- No host operation writes argument array 1: the region finds it as launched. -/
theorem entry_arg1 (c : Dev nD) : V m c main_arg1 = m ((c : Thread nD τ).loc main_arg1) :=
  StableHlo.after_of_forall_not_mem (b := Proc.devRef .tc main_arg1) _ _ (List.forall_iff_forall_mem.mp (by not_written))
/-- No host operation writes argument array 2: the region finds it as launched. -/
theorem entry_arg2 (c : Dev nD) : V m c main_arg2 = m ((c : Thread nD τ).loc main_arg2) :=
  StableHlo.after_of_forall_not_mem (b := Proc.devRef .tc main_arg2) _ _ (List.forall_iff_forall_mem.mp (by not_written))
/-- No host operation writes argument array 3: the region finds it as launched. -/
theorem entry_arg3 (c : Dev nD) : V m c main_arg3 = m ((c : Thread nD τ).loc main_arg3) :=
  StableHlo.after_of_forall_not_mem (b := Proc.devRef .tc main_arg3) _ _ (List.forall_iff_forall_mem.mp (by not_written))
/-- No host operation writes argument array 4: the region finds it as launched. -/
theorem entry_arg4 (c : Dev nD) : V m c main_arg4 = m ((c : Thread nD τ).loc main_arg4) :=
  StableHlo.after_of_forall_not_mem (b := Proc.devRef .tc main_arg4) _ _ (List.forall_iff_forall_mem.mp (by not_written))
/-- No host operation writes argument array 5: the region finds it as launched. -/
theorem entry_arg5 (c : Dev nD) : V m c main_arg5 = m ((c : Thread nD τ).loc main_arg5) :=
  StableHlo.after_of_forall_not_mem (b := Proc.devRef .tc main_arg5) _ _ (List.forall_iff_forall_mem.mp (by not_written))
/-- No host operation writes argument array 6: the region finds it as launched. -/
theorem entry_arg6 (c : Dev nD) : V m c main_arg6 = m ((c : Thread nD τ).loc main_arg6) :=
  StableHlo.after_of_forall_not_mem (b := Proc.devRef .tc main_arg6) _ _ (List.forall_iff_forall_mem.mp (by not_written))
/-- No host operation writes argument array 7: the region finds it as launched. -/
theorem entry_arg7 (c : Dev nD) : V m c main_arg7 = m ((c : Thread nD τ).loc main_arg7) :=
  StableHlo.after_of_forall_not_mem (b := Proc.devRef .tc main_arg7) _ _ (List.forall_iff_forall_mem.mp (by not_written))
/-- No host operation writes argument array 8: the region finds it as launched. -/
theorem entry_arg8 (c : Dev nD) : V m c main_arg8 = m ((c : Thread nD τ).loc main_arg8) :=
  StableHlo.after_of_forall_not_mem (b := Proc.devRef .tc main_arg8) _ _ (List.forall_iff_forall_mem.mp (by not_written))
/-- No host operation writes argument array 9: the region finds it as launched. -/
theorem entry_arg9 (c : Dev nD) : V m c main_arg9 = m ((c : Thread nD τ).loc main_arg9) :=
  StableHlo.after_of_forall_not_mem (b := Proc.devRef .tc main_arg9) _ _ (List.forall_iff_forall_mem.mp (by not_written))
/-- No host operation writes argument array 10: the region finds it as launched. -/
theorem entry_arg10 (c : Dev nD) : V m c main_arg10 = m ((c : Thread nD τ).loc main_arg10) :=
  StableHlo.after_of_forall_not_mem (b := Proc.devRef .tc main_arg10) _ _ (List.forall_iff_forall_mem.mp (by not_written))
/-- No host operation writes argument array 11: the region finds it as launched. -/
theorem entry_arg11 (c : Dev nD) : V m c main_arg11 = m ((c : Thread nD τ).loc main_arg11) :=
  StableHlo.after_of_forall_not_mem (b := Proc.devRef .tc main_arg11) _ _ (List.forall_iff_forall_mem.mp (by not_written))
/-- No host operation writes argument array 12: the region finds it as launched. -/
theorem entry_arg12 (c : Dev nD) : V m c main_arg12 = m ((c : Thread nD τ).loc main_arg12) :=
  StableHlo.after_of_forall_not_mem (b := Proc.devRef .tc main_arg12) _ _ (List.forall_iff_forall_mem.mp (by not_written))
/-- No host operation writes argument array 13: the region finds it as launched. -/
theorem entry_arg13 (c : Dev nD) : V m c main_arg13 = m ((c : Thread nD τ).loc main_arg13) :=
  StableHlo.after_of_forall_not_mem (b := Proc.devRef .tc main_arg13) _ _ (List.forall_iff_forall_mem.mp (by not_written))
/-- No host operation writes argument array 14: the region finds it as launched. -/
theorem entry_arg14 (c : Dev nD) : V m c main_arg14 = m ((c : Thread nD τ).loc main_arg14) :=
  StableHlo.after_of_forall_not_mem (b := Proc.devRef .tc main_arg14) _ _ (List.forall_iff_forall_mem.mp (by not_written))
/-- No host operation writes argument array 15: the region finds it as launched. -/
theorem entry_arg15 (c : Dev nD) : V m c main_arg15 = m ((c : Thread nD τ).loc main_arg15) :=
  StableHlo.after_of_forall_not_mem (b := Proc.devRef .tc main_arg15) _ _ (List.forall_iff_forall_mem.mp (by not_written))
/-- No host operation writes argument array 16: the region finds it as launched. -/
theorem entry_arg16 (c : Dev nD) : V m c main_arg16 = m ((c : Thread nD τ).loc main_arg16) :=
  StableHlo.after_of_forall_not_mem (b := Proc.devRef .tc main_arg16) _ _ (List.forall_iff_forall_mem.mp (by not_written))
/-- No host operation writes argument array 17: the region finds it as launched. -/
theorem entry_arg17 (c : Dev nD) : V m c main_arg17 = m ((c : Thread nD τ).loc main_arg17) :=
  StableHlo.after_of_forall_not_mem (b := Proc.devRef .tc main_arg17) _ _ (List.forall_iff_forall_mem.mp (by not_written))
/-- No host operation writes argument array 18: the region finds it as launched. -/
theorem entry_arg18 (c : Dev nD) : V m c main_arg18 = m ((c : Thread nD τ).loc main_arg18) :=
  StableHlo.after_of_forall_not_mem (b := Proc.devRef .tc main_arg18) _ _ (List.forall_iff_forall_mem.mp (by not_written))

/-! ## The windows' blocks -/

/-- Window `w`'s block at point `t`: rows 4096·t … 4096·t + 4095 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not, for proof data over `V`
    whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, fetched there or not, for proof data over `V`
    whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, fetched there or not, for proof data over `V`
    whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rIn : Rect S4096x256 := Rect.unit (s := S4096x256) ![0, 0] S4096x256.size inb_S4096x256_S4096x256_0_0
abbrev rOut : Rect S4096 := Rect.unit (s := S4096) ![0] S4096.size inb_S4096_S4096_0

/-- The output block after the body: its one store, of the payload of the three input blocks. -/
def outBlk (x0 x1 x2 : Vec F S4096x256 .f32) : Vec F S4096 .f32 :=
  View.canon [⟨rOut, k0_pay1 (View.ld x0 rIn) (View.ld x1 rIn) (View.ld x2 rIn)⟩]

/-- The one store covers the output block. -/
theorem outCover (p0 : Vec F S4096 .f32) (y : S4096.Idx) :
    ∃ pc ∈ ([⟨rOut, p0⟩] : List (View.Piece (Elt F) S4096 .f32)), y ∈ pc.1.set :=
  View.cover_of_tiled [⟨rOut, p0⟩] S4096.size (by rfl) y

set_option maxHeartbeats 1000000 in
/-- The kernel body on whole staging memrefs: the inputs keep their contents, the output ends at `outBlk`. -/
theorem sound_kernel (c : Dev nD) (E : Set ℕ) (i : grid0.Coords)
    (a1 : Memref sig .tc .vmem S4096x256 .f32) (h1 : a1.IsWhole) (a2 : Memref sig .tc .vmem S4096x256 .f32) (h2 : a2.IsWhole)
    (a3 : Memref sig .tc .vmem S4096x256 .f32) (h3 : a3.IsWhole) (a4 : Memref sig .tc .vmem S4096 .f32) (h4 : a4.IsWhole)
    (x0 x1 x2 : Vec F S4096x256 .f32) (K : PUnit → sProp 𝕄) :
    iprop(owns (c : Thread nD τ) a1 fullShare x0 ∗ owns (c : Thread nD τ) a2 fullShare x1 ∗ owns (c : Thread nD τ) a3 fullShare x2
        ∗ (∃ d, owns (c : Thread nD τ) a4 fullShare d)
        ∗ (iprop(owns (c : Thread nD τ) a1 fullShare x0 ∗ owns (c : Thread nD τ) a2 fullShare x1 ∗ owns (c : Thread nD τ) a3 fullShare x2
            ∗ owns (c : Thread nD τ) a4 fullShare (outBlk x0 x1 x2)) -∗ K ⟨⟩))
      ⊢ wp frame (wpE (defs₀ (F := F)) Variants.none c none) E (cc0__fused_kernel i a1 h1 a2 h2 a3 h3 a4 h4) K := by
  simp only [cc0__fused_kernel_eq_skeleton]; unfold cc0__fused_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The proof data -/

/-- On core `c`: the arrays as the region finds them; after the body at point `t` each input's buffer at its block
    and the output's at `outBlk` of the three input blocks; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlk (iblk m c 0 t) (iblk m c 1 t) (iblk m c 2 t) := by dsimp only [dats]

theorem before_0 (c : Dev nD) (t : Fin cfg0.N) (d) : (dats m 0 c).before 0 t d = iblk m c 0 t :=
  before_in0 m (dats m 0 c) (A_eq m c 0) (after_0 m c) t d
theorem before_1 (c : Dev nD) (t : Fin cfg0.N) (d) : (dats m 0 c).before 1 t d = iblk m c 1 t :=
  before_in1 m (dats m 0 c) (A_eq m c 1) (after_1 m c) t d
theorem before_2 (c : Dev nD) (t : Fin cfg0.N) (d) : (dats m 0 c).before 2 t d = iblk m c 2 t :=
  before_in2 m (dats m 0 c) (A_eq m c 2) (after_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; the four arrays of the region end at what
    the proof data computes, every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its nineteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).2 main_arg3 (Pipeline.mem_restRefs_of main_arg3 (by decide) (by decide))).trans (entry_arg3 m c),
      ((h c).2 main_arg4 (Pipeline.mem_restRefs_of main_arg4 (by decide) (by decide))).trans (entry_arg4 m c),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c),
      ((h c).2 main_arg17 (Pipeline.mem_restRefs_of main_arg17 (by decide) (by decide))).trans (entry_arg17 m c),
      ((h c).2 main_arg18 (Pipeline.mem_restRefs_of main_arg18 (by decide) (by decide))).trans (entry_arg18 m c)⟩) (run_main m ρ)

end Cert.KernelIdeal.Frm

end
-- ==== Proof.ScoreSpec.lean ====
/-
  The score as one function of three packed [262144, 256] arrays: entry b is half the sum over the 256 lanes of
  the product of the three arrays' entries (b, j).
-/
import Idealize.ShloMosaic.PureOps.Ideal
import Idealize.ShloMosaic.Lib.ValueIdx

noncomputable section

open scoped BigOperators

namespace Cert.ScoreSpec

open Idealize.ShloMosaic Idealize.ShloMosaic.ValueIdx

/-- Half the lane sum of the triple product, row by row. -/
def score (A R C : (⟨2, ![262144, 256]⟩ : Shape).Idx → EReal) : (⟨1, ![262144]⟩ : Shape).Idx → EReal :=
  fun i => (∑ j : Fin 256, A (ix2 (i 0 : Fin 262144) j) * R (ix2 (i 0 : Fin 262144) j) * C (ix2 (i 0 : Fin 262144) j))
    * Ideal.ofBits .f32 0x3F000000#32

end Cert.ScoreSpec

end
-- ==== Proof.KValue.lean ====
/-
  What the idealized kernel leaves in its result array: at grid point t the body overwrites rows 4096·t … 4096·t + 4095
  of the result with half the 256-lane sum of the product of the same rows of the three packed arrays; the 64 points
  cover all 262144 rows, so the result array ends at `score` of the three packed arrays as the region finds them.
-/
import proofs.«129495_j14431090114916_2_alg».proof.Proof.FrameIdeal
import proofs.«129495_j14431090114916_2_alg».proof.Proof.ScoreSpec
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Val

open Cert.KernelIdeal Cert.KernelIdeal.Gen Cert.KernelIdeal.Frm Cert.ScoreSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The body's payload at row r of the block: half the lane sum of the three loaded blocks' products. -/
theorem pay_apply (x0 x1 x2 : Vec Ideal S4096x256 .f32) (r : Fin 4096) :
    k0_pay1 x0 x1 x2 (ix1 r)
      = (∑ k : Fin 256, x0 (ix2 r k) * x1 (ix2 r k) * x2 (ix2 r k)) * Ideal.ofBits .f32 0x3F000000#32 := by
  unfold k0_pay1
  show multiReduction .add [1] S4096 _ 0x00000000#32 reduces_S4096x256_S4096 (.inl rfl) rfl (ix1 r)
      * Ideal.ofBits .f32 0x3F000000#32 = _
  refine congrArg (· * Ideal.ofBits .f32 0x3F000000#32) ?_
  refine (Ideal.multiReduction_add_single _ 0x00000000#32 reduces_S4096x256_S4096 (.inl rfl) rfl (ix1 r)).trans ?_
  show ∑ k : Fin 256, _ = _
  refine Finset.sum_congr rfl fun k _ => ?_
  have e : reduces_S4096x256_S4096.lift (ix1 r) k = ix2 r k := by
    funext a; match a with | ⟨0, _⟩ => rfl | ⟨1, _⟩ => rfl
  rw [e, shapeCast_self, shapeCast_self, shapeCast_self]
  rfl

/-- One row of one point: if the three loaded blocks agree with the packed arrays on the row, the payload is the score. -/
theorem point_eq (A R C : S262144x256.Idx → EReal) (x0 x1 x2 : Vec Ideal S4096x256 .f32) (j : S4096.Idx) (i : S262144.Idx)
    (h0 : ∀ k : Fin 256, x0 (ix2 (j 0 : Fin 4096) k) = A (ix2 (i 0 : Fin 262144) k))
    (h1 : ∀ k : Fin 256, x1 (ix2 (j 0 : Fin 4096) k) = R (ix2 (i 0 : Fin 262144) k))
    (h2 : ∀ k : Fin 256, x2 (ix2 (j 0 : Fin 4096) k) = C (ix2 (i 0 : Fin 262144) k)) :
    k0_pay1 x0 x1 x2 j = score A R C i := by
  obtain ⟨r, rfl⟩ : ∃ r : Fin 4096, j = ix1 r := ⟨j 0, eq_ix1 j⟩
  rw [pay_apply]
  unfold score
  refine congrArg (· * Ideal.ofBits .f32 0x3F000000#32) ?_
  refine Finset.sum_congr rfl fun k _ => ?_
  rw [← h0 k, ← h1 k, ← h2 k]

/-- The printed index maps over the grid: every window's row block index is the point's number, the input
    windows' column block index is zero. -/
theorem idx_facts : ∀ t : Fin cfg0.N, win0_3.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the score of the packed arrays. -/
theorem flushed_eq (c : Dev nD) (t : Fin cfg0.N) :
    (dats m 0 c).flushed 3 t
      = ((cfg0.win 3).blk t).view.read (Elt Ideal) (score (V m c main_v185) (V m c main_v186) (V m c main_v187)) := by
  show (cfg0.win 3).cut (grid0.coords t) ((dats m 0 c).after 3 t) = _
  rw [after_3]
  unfold outBlk
  rw [View.canon_unit_zero hz1]
  simp only [View.ld_unit_zero (S := S4096x256) hz2]
  obtain ⟨e3, e00, e01, e10, e11, e20, e21⟩ := idx_facts t
  funext j
  refine point_eq (V m c main_v185) (V m c main_v186) (V m c main_v187) (iblk m c 0 t) (iblk m c 1 t) (iblk m c 2 t) j
    (((cfg0.win 3).blk t).view.emb j) ?_ ?_ ?_
  · intro k
    show V m c main_v185 (((cfg0.win 0).blk t).view.emb (ix2 (j 0 : Fin 4096) k)) = V m c main_v185 (ix2 _ k)
    refine congrArg (V m c main_v185) (funext fun a => Fin.ext ?_)
    match a with
    | ⟨0, _⟩ => show win0_0.index t (0 : Fin 2) * 4096 + 1 * (j 0).val = win0_3.index t (0 : Fin 1) * 4096 + 1 * (j 0).val; omega
    | ⟨1, _⟩ => show win0_0.index t (1 : Fin 2) * 256 + 1 * k.val = k.val; omega
  · intro k
    show V m c main_v186 (((cfg0.win 1).blk t).view.emb (ix2 (j 0 : Fin 4096) k)) = V m c main_v186 (ix2 _ k)
    refine congrArg (V m c main_v186) (funext fun a => Fin.ext ?_)
    match a with
    | ⟨0, _⟩ => show win0_1.index t (0 : Fin 2) * 4096 + 1 * (j 0).val = win0_3.index t (0 : Fin 1) * 4096 + 1 * (j 0).val; omega
    | ⟨1, _⟩ => show win0_1.index t (1 : Fin 2) * 256 + 1 * k.val = k.val; omega
  · intro k
    show V m c main_v187 (((cfg0.win 2).blk t).view.emb (ix2 (j 0 : Fin 4096) k)) = V m c main_v187 (ix2 _ k)
    refine congrArg (V m c main_v187) (funext fun a => Fin.ext ?_)
    match a with
    | ⟨0, _⟩ => show win0_2.index t (0 : Fin 2) * 4096 + 1 * (j 0).val = win0_3.index t (0 : Fin 1) * 4096 + 1 * (j 0).val; omega
    | ⟨1, _⟩ => show win0_2.index t (1 : Fin 2) * 256 + 1 * k.val = k.val; omega

/-- An index of the result array lies in point t's block iff its row is among the block's 4096 rows. -/
theorem mem_blk (t : Fin cfg0.N) (i : S262144.Idx) :
    i ∈ ((cfg0.win 3).blk t).view.set ↔ ∀ a : Fin 1, win0_3.index t a * S4096.size a ≤ (i a).val
      ∧ (i a).val < win0_3.index t a * S4096.size a + S4096.size a := by
  show i ∈ ((View.whole main_v188).slice (win0_3.rect t)).set ↔ _
  rw [View.set_slice_whole, Rect.mem_set_unit]
  exact Iff.rfl

/-- Every row of the result lies in the block of the point numbered row / 4096, and every point writes back. -/
theorem cover (i : S262144.Idx) :
    ∃ t : Fin cfg0.N, (cfg0.win 3).flush t = true ∧ i ∈ ((cfg0.win 3).blk t).view.set := by
  have hi : (i 0).val < 262144 := (i 0).isLt
  have hN : cfg0.N = 64 := N_0
  refine ⟨⟨(i 0).val / 4096, by rw [hN]; omega⟩, flush0_3 _, ?_⟩
  rw [mem_blk]
  intro a
  obtain ⟨e3, -⟩ := idx_facts ⟨(i 0).val / 4096, by rw [hN]; omega⟩
  match a with
  | ⟨0, _⟩ =>
    show win0_3.index _ (0 : Fin 1) * 4096 ≤ (i 0).val ∧ (i 0).val < win0_3.index _ (0 : Fin 1) * 4096 + 4096
    rw [e3]
    show (i 0).val / 4096 * 4096 ≤ (i 0).val ∧ (i 0).val < (i 0).val / 4096 * 4096 + 4096
    omega

/-- The result array after the run. -/
theorem final (c : Dev nD) :
    (dats m 0 c).arrAt 3 cfg0.N = score (V m c main_v185) (V m c main_v186) (V m c main_v187) :=
  (dats m 0 c).arrAt_eq_of_cover 3 _ (fun t _ => flushed_eq m c t) cover

/-- The run, with the result array named: half the lane sums of the packed arrays' products, and the region-entry
    contents of every buffer the region does not stage. -/
theorem run : θ_run defs (onTc (τ := τ) (main (F := Ideal))) ⟨m, fun _ => 0, ρ⟩ fun r => ∀ c : Dev nD,
      r.2.mem ((c.tc : Thread nD τ).loc main_v188) = score (V m c main_v185) (V m c main_v186) (V m c main_v187)
      ∧ ∀ b ∈ Pipeline.restRefs sig cfg0.spec, r.2.mem ((c.tc : Thread nD τ).loc b) = V m c b :=
  (θ_run defs _ _).mono (fun r h c => ⟨((h c).1 3).trans (final m c), (h c).2⟩) (run_main m ρ)

end Cert.KernelIdeal.Val

end
-- ==== Proof.RefRun.lean ====
/- The idealized reference program's @main as ONE list of its operations, the call of @floor_divide (and, inside
   it, of @_where) replaced by that function's operations over the call's buffer record, and its run read back:
   every weakly fair execution terminates with each TensorCore buffer at the fold of the operations' results over
   the launch contents. -/
import proofs.«129495_j14431090114916_2_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The 76 operations of @main's statements 1 … 60 (the call of @floor_divide among them, its seventeen operations in its place), in order. -/
abbrev ops0 : List (HloOp τ sig (Elt F)) :=
  ( StableHlo.unary main_arg3 main_v0 (broadcastInDim S1x262144 ![1] bcast_S262144_S1x262144_1 : (⟨S262144, .f32⟩ : BufTy).Contents (Elt F) → (⟨S1x262144, .f32⟩ : BufTy).Contents (Elt F))
  :: StableHlo.unary main_arg4 main_v1 (broadcastInDim S1x262144 ![1] bcast_S262144_S1x262144_1 : (⟨S262144, .f32⟩ : BufTy).Contents (Elt F) → (⟨S1x262144, .f32⟩ : BufTy).Contents (Elt F))
  :: StableHlo.unary main_arg5 main_v2 (broadcastInDim S1x262144 ![1] bcast_S262144_S1x262144_1 : (⟨S262144, .f32⟩ : BufTy).Contents (Elt F) → (⟨S1x262144, .f32⟩ : BufTy).Contents (Elt F))
  :: StableHlo.nary ![main_v0, main_v1, main_v2] main_v3 (fun u => concatenate S3x262144 0 [⟨S1x262144, u 0⟩, ⟨S1x262144, u 1⟩, ⟨S1x262144, u 2⟩] concatenates_S1x262144_S1x262144_S1x262144_S3x262144_d0)
  :: StableHlo.nullary main_c (constantI S_ 32 30#32)
  :: StableHlo.TRef.unary (.of main_c : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S262144, .i32⟩) (broadcastInDim S262144 ![] bcast_S_S262144)
  :: StableHlo.TRef.binary (.of main_arg6 : StableHlo.TRef sig ⟨S262144, .i32⟩) (.of main_call0_v1 : StableHlo.TRef sig ⟨S262144, .i32⟩) (.of main_call0_v2 : StableHlo.TRef sig ⟨S262144, .i32⟩) Host.divsi
  :: StableHlo.TRef.unary (.of main_arg6 : StableHlo.TRef sig ⟨S262144, .i32⟩) (.of main_call0_v3 : StableHlo.TRef sig ⟨S262144, .i32⟩) signi
  :: StableHlo.TRef.unary (.of main_call0_v0 : StableHlo.TRef sig ⟨S_, .i32⟩) (.of main_call0_v4 : StableHlo.TRef sig ⟨S_, .i32⟩) signi
  :: StableHlo.TRef.unary (.of main_call0_v4 : StableHlo.TRef sig ⟨S_, .i32⟩) (.of main_call0_v5 : StableHlo.TRef sig ⟨S262144, .i32⟩) (broadcastInDim S262144 ![] bcast_S_S262144)
  :: StableHlo.TRef.binary (.of main_call0_v3 : StableHlo.TRef sig ⟨S262144, .i32⟩) (.of main_call0_v5 : StableHlo.TRef sig ⟨S262144, .i32⟩) (.of main_call0_v6 : StableHlo.TRef sig ⟨S262144, .i1⟩) (cmpi .ne)
  :: StableHlo.TRef.unary (.of main_call0_v0 : StableHlo.TRef sig ⟨S_, .i32⟩) (.of main_call0_v7 : StableHlo.TRef sig ⟨S262144, .i32⟩) (broadcastInDim S262144 ![] bcast_S_S262144)
  :: StableHlo.TRef.binary (.of main_arg6 : StableHlo.TRef sig ⟨S262144, .i32⟩) (.of main_call0_v7 : StableHlo.TRef sig ⟨S262144, .i32⟩) (.of main_call0_v8 : StableHlo.TRef sig ⟨S262144, .i32⟩) Host.remsi
  :: StableHlo.TRef.nullary (.of main_call0_c : StableHlo.TRef sig ⟨S_, .i32⟩) (constantI S_ 32 0#32)
  :: StableHlo.TRef.unary (.of main_call0_c : StableHlo.TRef sig ⟨S_, .i32⟩) (.of main_call0_v9 : StableHlo.TRef sig ⟨S262144, .i32⟩) (broadcastInDim S262144 ![] bcast_S_S262144)
  :: StableHlo.TRef.binary (.of main_call0_v8 : StableHlo.TRef sig ⟨S262144, .i32⟩) (.of main_call0_v9 : StableHlo.TRef sig ⟨S262144, .i32⟩) (.of main_call0_v10 : StableHlo.TRef sig ⟨S262144, .i1⟩) (cmpi .ne)
  :: StableHlo.TRef.binary (.of main_call0_v6 : StableHlo.TRef sig ⟨S262144, .i1⟩) (.of main_call0_v10 : StableHlo.TRef sig ⟨S262144, .i1⟩) (.of main_call0_v11 : StableHlo.TRef sig ⟨S262144, .i1⟩) andi
  :: StableHlo.TRef.nullary (.of main_call0_c_0 : StableHlo.TRef sig ⟨S_, .i32⟩) (constantI S_ 32 1#32)
  :: StableHlo.TRef.unary (.of main_call0_c_0 : StableHlo.TRef sig ⟨S_, .i32⟩) (.of main_call0_v12 : StableHlo.TRef sig ⟨S262144, .i32⟩) (broadcastInDim S262144 ![] bcast_S_S262144)
  :: StableHlo.TRef.binary (.of main_call0_v2 : StableHlo.TRef sig ⟨S262144, .i32⟩) (.of main_call0_v12 : StableHlo.TRef sig ⟨S262144, .i32⟩) (.of main_call0_v13 : StableHlo.TRef sig ⟨S262144, .i32⟩) subi
  :: StableHlo.TRef.ternary (.of main_call0_v11 : StableHlo.TRef sig ⟨S262144, .i1⟩) (.of main_call0_v13 : StableHlo.TRef sig ⟨S262144, .i32⟩) (.of main_call0_v2 : StableHlo.TRef sig ⟨S262144, .i32⟩) (.of main_v4 : StableHlo.TRef sig ⟨S262144, .i32⟩) select
  :: StableHlo.nullary main_c_0 (constantI S_ 32 0#32)
  :: StableHlo.unary main_c_0 main_v5 (broadcastInDim S262144 ![] bcast_S_S262144 : (⟨S_, .i32⟩ : BufTy).Contents (Elt F) → (⟨S262144, .i32⟩ : BufTy).Contents (Elt F))
  :: StableHlo.binary main_v4 main_v5 main_v6 (cmpi .slt : (⟨S262144, .i32⟩ : BufTy).Contents (Elt F) → (⟨S262144, .i32⟩ : BufTy).Contents (Elt F) → (⟨S262144, .i1⟩ : BufTy).Contents (Elt F))
  :: StableHlo.nullary main_c_1 (constantI S_ 32 134#32)
  :: StableHlo.unary main_c_1 main_v7 (broadcastInDim S262144 ![] bcast_S_S262144 : (⟨S_, .i32⟩ : BufTy).Contents (Elt F) → (⟨S262144, .i32⟩ : BufTy).Contents (Elt F))
  :: StableHlo.binary main_v4 main_v7 main_v8 (addi : (⟨S262144, .i32⟩ : BufTy).Contents (Elt F) → (⟨S262144, .i32⟩ : BufTy).Contents (Elt F) → (⟨S262144, .i32⟩ : BufTy).Contents (Elt F))
  :: StableHlo.ternary main_v6 main_v8 main_v4 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v9 main_v10 (broadcastInDim S262144x1 ![0] bcast_S262144_S262144x1_0 : (⟨S262144, .i32⟩ : BufTy).Contents (Elt F) → (⟨S262144x1, .i32⟩ : BufTy).Contents (Elt F))
  :: StableHlo.binary main_arg11 main_v10 main_v11 ((fun x i => Host.gather gather_S134x64_S262144x1_S262144x64_1_0_n_n_0_1_164 x i) : (⟨S134x64, .f32⟩ : BufTy).Contents (Elt F) → (⟨S262144x1, .i32⟩ : BufTy).Contents (Elt F) → (⟨S262144x64, .f32⟩ : BufTy).Contents (Elt F))
  :: StableHlo.nullary main_c_2 (constantI S_ 32 0#32)
  :: StableHlo.unary main_c_2 main_v12 (broadcastInDim S262144 ![] bcast_S_S262144 : (⟨S_, .i32⟩ : BufTy).Contents (Elt F) → (⟨S262144, .i32⟩ : BufTy).Contents (Elt F))
  :: StableHlo.binary main_arg6 main_v12 main_v13 (cmpi .slt : (⟨S262144, .i32⟩ : BufTy).Contents (Elt F) → (⟨S262144, .i32⟩ : BufTy).Contents (Elt F) → (⟨S262144, .i1⟩ : BufTy).Contents (Elt F))
  :: StableHlo.nullary main_c_3 (constantI S_ 32 4000#32)
  :: StableHlo.unary main_c_3 main_v14 (broadcastInDim S262144 ![] bcast_S_S262144 : (⟨S_, .i32⟩ : BufTy).Contents (Elt F) → (⟨S262144, .i32⟩ : BufTy).Contents (Elt F))
  :: StableHlo.binary main_arg6 main_v14 main_v15 (addi : (⟨S262144, .i32⟩ : BufTy).Contents (Elt F) → (⟨S262144, .i32⟩ : BufTy).Contents (Elt F) → (⟨S262144, .i32⟩ : BufTy).Contents (Elt F))
  :: StableHlo.ternary main_v13 main_v15 main_arg6 main_v16 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v16 main_v17 (broadcastInDim S262144x1 ![0] bcast_S262144_S262144x1_0 : (⟨S262144, .i32⟩ : BufTy).Contents (Elt F) → (⟨S262144x1, .i32⟩ : BufTy).Contents (Elt F))
  :: StableHlo.binary main_arg12 main_v17 main_v18 ((fun x i => Host.gather gather_S4000x128_S262144x1_S262144x128_1_0_n_n_0_1_1128 x i) : (⟨S4000x128, .f32⟩ : BufTy).Contents (Elt F) → (⟨S262144x1, .i32⟩ : BufTy).Contents (Elt F) → (⟨S262144x128, .f32⟩ : BufTy).Contents (Elt F))
  :: StableHlo.nullary main_c_4 (constantI S_ 32 0#32)
  :: StableHlo.unary main_c_4 main_v19 (broadcastInDim S262144 ![] bcast_S_S262144 : (⟨S_, .i32⟩ : BufTy).Contents (Elt F) → (⟨S262144, .i32⟩ : BufTy).Contents (Elt F))
  :: StableHlo.binary main_arg1 main_v19 main_v20 (cmpi .slt : (⟨S262144, .i32⟩ : BufTy).Contents (Elt F) → (⟨S262144, .i32⟩ : BufTy).Contents (Elt F) → (⟨S262144, .i1⟩ : BufTy).Contents (Elt F))
  :: StableHlo.nullary main_c_5 (constantI S_ 32 500#32)
  :: StableHlo.unary main_c_5 main_v21 (broadcastInDim S262144 ![] bcast_S_S262144 : (⟨S_, .i32⟩ : BufTy).Contents (Elt F) → (⟨S262144, .i32⟩ : BufTy).Contents (Elt F))
  :: StableHlo.binary main_arg1 main_v21 main_v22 (addi : (⟨S262144, .i32⟩ : BufTy).Contents (Elt F) → (⟨S262144, .i32⟩ : BufTy).Contents (Elt F) → (⟨S262144, .i32⟩ : BufTy).Contents (Elt F))
  :: StableHlo.ternary main_v20 main_v22 main_arg1 main_v23 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v23 main_v24 (broadcastInDim S262144x1 ![0] bcast_S262144_S262144x1_0 : (⟨S262144, .i32⟩ : BufTy).Contents (Elt F) → (⟨S262144x1, .i32⟩ : BufTy).Contents (Elt F))
  :: StableHlo.binary main_arg9 main_v24 main_v25 ((fun x i => Host.gather gather_S500x128_S262144x1_S262144x128_1_0_n_n_0_1_1128 x i) : (⟨S500x128, .f32⟩ : BufTy).Contents (Elt F) → (⟨S262144x1, .i32⟩ : BufTy).Contents (Elt F) → (⟨S262144x128, .f32⟩ : BufTy).Contents (Elt F))
  :: StableHlo.nullary main_c_6 (constantI S_ 32 0#32)
  :: StableHlo.unary main_c_6 main_v26 (broadcastInDim S262144 ![] bcast_S_S262144 : (⟨S_, .i32⟩ : BufTy).Contents (Elt F) → (⟨S262144, .i32⟩ : BufTy).Contents (Elt F))
  :: StableHlo.binary main_arg1 main_v26 main_v27 (cmpi .slt : (⟨S262144, .i32⟩ : BufTy).Contents (Elt F) → (⟨S262144, .i32⟩ : BufTy).Contents (Elt F) → (⟨S262144, .i1⟩ : BufTy).Contents (Elt F))
  :: StableHlo.nullary main_c_7 (constantI S_ 32 500#32)
  :: StableHlo.unary main_c_7 main_v28 (broadcastInDim S262144 ![] bcast_S_S262144 : (⟨S_, .i32⟩ : BufTy).Contents (Elt F) → (⟨S262144, .i32⟩ : BufTy).Contents (Elt F))
  :: StableHlo.binary main_arg1 main_v28 main_v29 (addi : (⟨S262144, .i32⟩ : BufTy).Contents (Elt F) → (⟨S262144, .i32⟩ : BufTy).Contents (Elt F) → (⟨S262144, .i32⟩ : BufTy).Contents (Elt F))
  :: StableHlo.ternary main_v27 main_v29 main_arg1 main_v30 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v30 main_v31 (broadcastInDim S262144x1 ![0] bcast_S262144_S262144x1_0 : (⟨S262144, .i32⟩ : BufTy).Contents (Elt F) → (⟨S262144x1, .i32⟩ : BufTy).Contents (Elt F))
  :: StableHlo.binary main_arg10 main_v31 main_v32 ((fun x i => Host.gather gather_S500x128_S262144x1_S262144x128_1_0_n_n_0_1_1128 x i) : (⟨S500x128, .f32⟩ : BufTy).Contents (Elt F) → (⟨S262144x1, .i32⟩ : BufTy).Contents (Elt F) → (⟨S262144x128, .f32⟩ : BufTy).Contents (Elt F))
  :: StableHlo.binary main_v25 main_v18 main_v33 (mulf : (⟨S262144x128, .f32⟩ : BufTy).Contents (Elt F) → (⟨S262144x128, .f32⟩ : BufTy).Contents (Elt F) → (⟨S262144x128, .f32⟩ : BufTy).Contents (Elt F))
  :: StableHlo.binary main_v25 main_v33 main_v34 (addf : (⟨S262144x128, .f32⟩ : BufTy).Contents (Elt F) → (⟨S262144x128, .f32⟩ : BufTy).Contents (Elt F) → (⟨S262144x128, .f32⟩ : BufTy).Contents (Elt F))
  :: StableHlo.binary main_v32 main_v18 main_v35 (mulf : (⟨S262144x128, .f32⟩ : BufTy).Contents (Elt F) → (⟨S262144x128, .f32⟩ : BufTy).Contents (Elt F) → (⟨S262144x128, .f32⟩ : BufTy).Contents (Elt F))
  :: StableHlo.binary main_v32 main_v35 main_v36 (addf : (⟨S262144x128, .f32⟩ : BufTy).Contents (Elt F) → (⟨S262144x128, .f32⟩ : BufTy).Contents (Elt F) → (⟨S262144x128, .f32⟩ : BufTy).Contents (Elt F))
  :: StableHlo.nullary main_c_8 (constantI S_ 32 0#32)
  :: StableHlo.unary main_c_8 main_v37 (broadcastInDim S262144 ![] bcast_S_S262144 : (⟨S_, .i32⟩ : BufTy).Contents (Elt F) → (⟨S262144, .i32⟩ : BufTy).Contents (Elt F))
  :: StableHlo.binary main_arg0 main_v37 main_v38 (cmpi .slt : (⟨S262144, .i32⟩ : BufTy).Contents (Elt F) → (⟨S262144, .i32⟩ : BufTy).Contents (Elt F) → (⟨S262144, .i1⟩ : BufTy).Contents (Elt F))
  :: StableHlo.nullary main_c_9 (constantI S_ 32 100000#32)
  :: StableHlo.unary main_c_9 main_v39 (broadcastInDim S262144 ![] bcast_S_S262144 : (⟨S_, .i32⟩ : BufTy).Contents (Elt F) → (⟨S262144, .i32⟩ : BufTy).Contents (Elt F))
  :: StableHlo.binary main_arg0 main_v39 main_v40 (addi : (⟨S262144, .i32⟩ : BufTy).Contents (Elt F) → (⟨S262144, .i32⟩ : BufTy).Contents (Elt F) → (⟨S262144, .i32⟩ : BufTy).Contents (Elt F))
  :: StableHlo.ternary main_v38 main_v40 main_arg0 main_v41 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v41 main_v42 (broadcastInDim S262144x1 ![0] bcast_S262144_S262144x1_0 : (⟨S262144, .i32⟩ : BufTy).Contents (Elt F) → (⟨S262144x1, .i32⟩ : BufTy).Contents (Elt F))
  :: StableHlo.binary main_arg13 main_v42 main_v43 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_10 (constantI S_ 32 0#32)
  :: StableHlo.unary main_c_10 main_v44 (broadcastInDim S262144 ![] bcast_S_S262144 : (⟨S_, .i32⟩ : BufTy).Contents (Elt F) → (⟨S262144, .i32⟩ : BufTy).Contents (Elt F))
  :: StableHlo.binary main_arg0 main_v44 main_v45 (cmpi .slt : (⟨S262144, .i32⟩ : BufTy).Contents (Elt F) → (⟨S262144, .i32⟩ : BufTy).Contents (Elt F) → (⟨S262144, .i1⟩ : BufTy).Contents (Elt F))
  :: StableHlo.nullary main_c_11 (constantI S_ 32 100000#32)
  :: StableHlo.unary main_c_11 main_v46 (broadcastInDim S262144 ![] bcast_S_S262144 : (⟨S_, .i32⟩ : BufTy).Contents (Elt F) → (⟨S262144, .i32⟩ : BufTy).Contents (Elt F))
  :: [] )

set_option maxHeartbeats 40000000 in
/-- The 60 operations of @main's statements 61 … 120, in order. -/
abbrev ops1 : List (HloOp τ sig (Elt F)) :=
  ( StableHlo.binary main_arg0 main_v46 main_v47 (addi : (⟨S262144, .i32⟩ : BufTy).Contents (Elt F) → (⟨S262144, .i32⟩ : BufTy).Contents (Elt F) → (⟨S262144, .i32⟩ : BufTy).Contents (Elt F))
  :: StableHlo.ternary main_v45 main_v47 main_arg0 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v48 main_v49 (broadcastInDim S262144x1 ![0] bcast_S262144_S262144x1_0 : (⟨S262144, .i32⟩ : BufTy).Contents (Elt F) → (⟨S262144x1, .i32⟩ : BufTy).Contents (Elt F))
  :: StableHlo.binary main_arg14 main_v49 main_v50 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_12 (constantI S_ 32 0#32)
  :: StableHlo.unary main_c_12 main_v51 (broadcastInDim S262144 ![] bcast_S_S262144 : (⟨S_, .i32⟩ : BufTy).Contents (Elt F) → (⟨S262144, .i32⟩ : BufTy).Contents (Elt F))
  :: StableHlo.binary main_arg0 main_v51 main_v52 (cmpi .slt : (⟨S262144, .i32⟩ : BufTy).Contents (Elt F) → (⟨S262144, .i32⟩ : BufTy).Contents (Elt F) → (⟨S262144, .i1⟩ : BufTy).Contents (Elt F))
  :: StableHlo.nullary main_c_13 (constantI S_ 32 100000#32)
  :: StableHlo.unary main_c_13 main_v53 (broadcastInDim S262144 ![] bcast_S_S262144 : (⟨S_, .i32⟩ : BufTy).Contents (Elt F) → (⟨S262144, .i32⟩ : BufTy).Contents (Elt F))
  :: StableHlo.binary main_arg0 main_v53 main_v54 (addi : (⟨S262144, .i32⟩ : BufTy).Contents (Elt F) → (⟨S262144, .i32⟩ : BufTy).Contents (Elt F) → (⟨S262144, .i32⟩ : BufTy).Contents (Elt F))
  :: StableHlo.ternary main_v52 main_v54 main_arg0 main_v55 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v55 main_v56 (broadcastInDim S262144x1 ![0] bcast_S262144_S262144x1_0 : (⟨S262144, .i32⟩ : BufTy).Contents (Elt F) → (⟨S262144x1, .i32⟩ : BufTy).Contents (Elt F))
  :: StableHlo.binary main_arg15 main_v56 main_v57 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v58 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v58 main_v59 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v50 main_v59 main_v60 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v60 main_v57 main_v61 (addf : (⟨S3x262144x64, .f32⟩ : BufTy).Contents (Elt F) → (⟨S3x262144x64, .f32⟩ : BufTy).Contents (Elt F) → (⟨S3x262144x64, .f32⟩ : BufTy).Contents (Elt F))
  :: StableHlo.unary main_v61 main_v62 (Host.sin : (⟨S3x262144x64, .f32⟩ : BufTy).Contents (Elt F) → (⟨S3x262144x64, .f32⟩ : BufTy).Contents (Elt F))
  :: StableHlo.binary main_v43 main_v62 main_v63 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst (constant S_ .f32 0x00000000#32)
  :: StableHlo.binary main_v63 main_cst main_v64 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v64 main_v11 main_v65 (addf : (⟨S262144x64, .f32⟩ : BufTy).Contents (Elt F) → (⟨S262144x64, .f32⟩ : BufTy).Contents (Elt F) → (⟨S262144x64, .f32⟩ : BufTy).Contents (Elt F))
  :: StableHlo.nullary main_c_14 (constantI S_ 32 0#32)
  :: StableHlo.unary main_c_14 main_v66 (broadcastInDim S262144 ![] bcast_S_S262144 : (⟨S_, .i32⟩ : BufTy).Contents (Elt F) → (⟨S262144, .i32⟩ : BufTy).Contents (Elt F))
  :: StableHlo.binary main_arg2 main_v66 main_v67 (cmpi .slt : (⟨S262144, .i32⟩ : BufTy).Contents (Elt F) → (⟨S262144, .i32⟩ : BufTy).Contents (Elt F) → (⟨S262144, .i1⟩ : BufTy).Contents (Elt F))
  :: StableHlo.nullary main_c_15 (constantI S_ 32 100000#32)
  :: StableHlo.unary main_c_15 main_v68 (broadcastInDim S262144 ![] bcast_S_S262144 : (⟨S_, .i32⟩ : BufTy).Contents (Elt F) → (⟨S262144, .i32⟩ : BufTy).Contents (Elt F))
  :: StableHlo.binary main_arg2 main_v68 main_v69 (addi : (⟨S262144, .i32⟩ : BufTy).Contents (Elt F) → (⟨S262144, .i32⟩ : BufTy).Contents (Elt F) → (⟨S262144, .i32⟩ : BufTy).Contents (Elt F))
  :: StableHlo.ternary main_v67 main_v69 main_arg2 main_v70 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v70 main_v71 (broadcastInDim S262144x1 ![0] bcast_S262144_S262144x1_0 : (⟨S262144, .i32⟩ : BufTy).Contents (Elt F) → (⟨S262144x1, .i32⟩ : BufTy).Contents (Elt F))
  :: StableHlo.binary main_arg16 main_v71 main_v72 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_16 (constantI S_ 32 0#32)
  :: StableHlo.unary main_c_16 main_v73 (broadcastInDim S262144 ![] bcast_S_S262144 : (⟨S_, .i32⟩ : BufTy).Contents (Elt F) → (⟨S262144, .i32⟩ : BufTy).Contents (Elt F))
  :: StableHlo.binary main_arg2 main_v73 main_v74 (cmpi .slt : (⟨S262144, .i32⟩ : BufTy).Contents (Elt F) → (⟨S262144, .i32⟩ : BufTy).Contents (Elt F) → (⟨S262144, .i1⟩ : BufTy).Contents (Elt F))
  :: StableHlo.nullary main_c_17 (constantI S_ 32 100000#32)
  :: StableHlo.unary main_c_17 main_v75 (broadcastInDim S262144 ![] bcast_S_S262144 : (⟨S_, .i32⟩ : BufTy).Contents (Elt F) → (⟨S262144, .i32⟩ : BufTy).Contents (Elt F))
  :: StableHlo.binary main_arg2 main_v75 main_v76 (addi : (⟨S262144, .i32⟩ : BufTy).Contents (Elt F) → (⟨S262144, .i32⟩ : BufTy).Contents (Elt F) → (⟨S262144, .i32⟩ : BufTy).Contents (Elt F))
  :: StableHlo.ternary main_v74 main_v76 main_arg2 main_v77 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v77 main_v78 (broadcastInDim S262144x1 ![0] bcast_S262144_S262144x1_0 : (⟨S262144, .i32⟩ : BufTy).Contents (Elt F) → (⟨S262144x1, .i32⟩ : BufTy).Contents (Elt F))
  :: StableHlo.binary main_arg17 main_v78 main_v79 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_18 (constantI S_ 32 0#32)
  :: StableHlo.unary main_c_18 main_v80 (broadcastInDim S262144 ![] bcast_S_S262144 : (⟨S_, .i32⟩ : BufTy).Contents (Elt F) → (⟨S262144, .i32⟩ : BufTy).Contents (Elt F))
  :: StableHlo.binary main_arg2 main_v80 main_v81 (cmpi .slt : (⟨S262144, .i32⟩ : BufTy).Contents (Elt F) → (⟨S262144, .i32⟩ : BufTy).Contents (Elt F) → (⟨S262144, .i1⟩ : BufTy).Contents (Elt F))
  :: StableHlo.nullary main_c_19 (constantI S_ 32 100000#32)
  :: StableHlo.unary main_c_19 main_v82 (broadcastInDim S262144 ![] bcast_S_S262144 : (⟨S_, .i32⟩ : BufTy).Contents (Elt F) → (⟨S262144, .i32⟩ : BufTy).Contents (Elt F))
  :: StableHlo.binary main_arg2 main_v82 main_v83 (addi : (⟨S262144, .i32⟩ : BufTy).Contents (Elt F) → (⟨S262144, .i32⟩ : BufTy).Contents (Elt F) → (⟨S262144, .i32⟩ : BufTy).Contents (Elt F))
  :: StableHlo.ternary main_v81 main_v83 main_arg2 main_v84 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v84 main_v85 (broadcastInDim S262144x1 ![0] bcast_S262144_S262144x1_0 : (⟨S262144, .i32⟩ : BufTy).Contents (Elt F) → (⟨S262144x1, .i32⟩ : BufTy).Contents (Elt F))
  :: StableHlo.binary main_arg18 main_v85 main_v86 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v87 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v87 main_v88 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v79 main_v88 main_v89 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v89 main_v86 main_v90 (addf : (⟨S3x262144x64, .f32⟩ : BufTy).Contents (Elt F) → (⟨S3x262144x64, .f32⟩ : BufTy).Contents (Elt F) → (⟨S3x262144x64, .f32⟩ : BufTy).Contents (Elt F))
  :: StableHlo.unary main_v90 main_v91 (Host.sin : (⟨S3x262144x64, .f32⟩ : BufTy).Contents (Elt F) → (⟨S3x262144x64, .f32⟩ : BufTy).Contents (Elt F))
  :: StableHlo.binary main_v72 main_v91 main_v92 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst_20 (constant S_ .f32 0x00000000#32)
  :: StableHlo.binary main_v92 main_cst_20 main_v93 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v93 main_v11 main_v94 (addf : (⟨S262144x64, .f32⟩ : BufTy).Contents (Elt F) → (⟨S262144x64, .f32⟩ : BufTy).Contents (Elt F) → (⟨S262144x64, .f32⟩ : BufTy).Contents (Elt F))
  :: StableHlo.nullary main_c_21 (constantI S_ 32 0#32)
  :: StableHlo.unary main_c_21 main_v95 (broadcastInDim S262144 ![] bcast_S_S262144 : (⟨S_, .i32⟩ : BufTy).Contents (Elt F) → (⟨S262144, .i32⟩ : BufTy).Contents (Elt F))
  :: [] )

set_option maxHeartbeats 40000000 in
/-- The 60 operations of @main's statements 121 … 180, in order. -/
abbrev ops2 : List (HloOp τ sig (Elt F)) :=
  ( StableHlo.binary main_arg2 main_v95 main_v96 (cmpi .slt : (⟨S262144, .i32⟩ : BufTy).Contents (Elt F) → (⟨S262144, .i32⟩ : BufTy).Contents (Elt F) → (⟨S262144, .i1⟩ : BufTy).Contents (Elt F))
  :: StableHlo.nullary main_c_22 (constantI S_ 32 100000#32)
  :: StableHlo.unary main_c_22 main_v97 (broadcastInDim S262144 ![] bcast_S_S262144 : (⟨S_, .i32⟩ : BufTy).Contents (Elt F) → (⟨S262144, .i32⟩ : BufTy).Contents (Elt F))
  :: StableHlo.binary main_arg2 main_v97 main_v98 (addi : (⟨S262144, .i32⟩ : BufTy).Contents (Elt F) → (⟨S262144, .i32⟩ : BufTy).Contents (Elt F) → (⟨S262144, .i32⟩ : BufTy).Contents (Elt F))
  :: StableHlo.ternary main_v96 main_v98 main_arg2 main_v99 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v99 main_v100 (broadcastInDim S262144x1 ![0] bcast_S262144_S262144x1_0 : (⟨S262144, .i32⟩ : BufTy).Contents (Elt F) → (⟨S262144x1, .i32⟩ : BufTy).Contents (Elt F))
  :: StableHlo.binary main_arg13 main_v100 main_v101 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_23 (constantI S_ 32 0#32)
  :: StableHlo.unary main_c_23 main_v102 (broadcastInDim S262144 ![] bcast_S_S262144 : (⟨S_, .i32⟩ : BufTy).Contents (Elt F) → (⟨S262144, .i32⟩ : BufTy).Contents (Elt F))
  :: StableHlo.binary main_arg2 main_v102 main_v103 (cmpi .slt : (⟨S262144, .i32⟩ : BufTy).Contents (Elt F) → (⟨S262144, .i32⟩ : BufTy).Contents (Elt F) → (⟨S262144, .i1⟩ : BufTy).Contents (Elt F))
  :: StableHlo.nullary main_c_24 (constantI S_ 32 100000#32)
  :: StableHlo.unary main_c_24 main_v104 (broadcastInDim S262144 ![] bcast_S_S262144 : (⟨S_, .i32⟩ : BufTy).Contents (Elt F) → (⟨S262144, .i32⟩ : BufTy).Contents (Elt F))
  :: StableHlo.binary main_arg2 main_v104 main_v105 (addi : (⟨S262144, .i32⟩ : BufTy).Contents (Elt F) → (⟨S262144, .i32⟩ : BufTy).Contents (Elt F) → (⟨S262144, .i32⟩ : BufTy).Contents (Elt F))
  :: StableHlo.ternary main_v103 main_v105 main_arg2 main_v106 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v106 main_v107 (broadcastInDim S262144x1 ![0] bcast_S262144_S262144x1_0 : (⟨S262144, .i32⟩ : BufTy).Contents (Elt F) → (⟨S262144x1, .i32⟩ : BufTy).Contents (Elt F))
  :: StableHlo.binary main_arg14 main_v107 main_v108 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_25 (constantI S_ 32 0#32)
  :: StableHlo.unary main_c_25 main_v109 (broadcastInDim S262144 ![] bcast_S_S262144 : (⟨S_, .i32⟩ : BufTy).Contents (Elt F) → (⟨S262144, .i32⟩ : BufTy).Contents (Elt F))
  :: StableHlo.binary main_arg2 main_v109 main_v110 (cmpi .slt : (⟨S262144, .i32⟩ : BufTy).Contents (Elt F) → (⟨S262144, .i32⟩ : BufTy).Contents (Elt F) → (⟨S262144, .i1⟩ : BufTy).Contents (Elt F))
  :: StableHlo.nullary main_c_26 (constantI S_ 32 100000#32)
  :: StableHlo.unary main_c_26 main_v111 (broadcastInDim S262144 ![] bcast_S_S262144 : (⟨S_, .i32⟩ : BufTy).Contents (Elt F) → (⟨S262144, .i32⟩ : BufTy).Contents (Elt F))
  :: StableHlo.binary main_arg2 main_v111 main_v112 (addi : (⟨S262144, .i32⟩ : BufTy).Contents (Elt F) → (⟨S262144, .i32⟩ : BufTy).Contents (Elt F) → (⟨S262144, .i32⟩ : BufTy).Contents (Elt F))
  :: StableHlo.ternary main_v110 main_v112 main_arg2 main_v113 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v113 main_v114 (broadcastInDim S262144x1 ![0] bcast_S262144_S262144x1_0 : (⟨S262144, .i32⟩ : BufTy).Contents (Elt F) → (⟨S262144x1, .i32⟩ : BufTy).Contents (Elt F))
  :: StableHlo.binary main_arg15 main_v114 main_v115 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v116 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v116 main_v117 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v108 main_v117 main_v118 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v118 main_v115 main_v119 (addf : (⟨S3x262144x64, .f32⟩ : BufTy).Contents (Elt F) → (⟨S3x262144x64, .f32⟩ : BufTy).Contents (Elt F) → (⟨S3x262144x64, .f32⟩ : BufTy).Contents (Elt F))
  :: StableHlo.unary main_v119 main_v120 (Host.sin : (⟨S3x262144x64, .f32⟩ : BufTy).Contents (Elt F) → (⟨S3x262144x64, .f32⟩ : BufTy).Contents (Elt F))
  :: StableHlo.binary main_v101 main_v120 main_v121 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst_27 (constant S_ .f32 0x00000000#32)
  :: StableHlo.binary main_v121 main_cst_27 main_v122 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v122 main_v11 main_v123 (addf : (⟨S262144x64, .f32⟩ : BufTy).Contents (Elt F) → (⟨S262144x64, .f32⟩ : BufTy).Contents (Elt F) → (⟨S262144x64, .f32⟩ : BufTy).Contents (Elt F))
  :: StableHlo.nullary main_c_28 (constantI S_ 32 0#32)
  :: StableHlo.unary main_c_28 main_v124 (broadcastInDim S262144 ![] bcast_S_S262144 : (⟨S_, .i32⟩ : BufTy).Contents (Elt F) → (⟨S262144, .i32⟩ : BufTy).Contents (Elt F))
  :: StableHlo.binary main_arg0 main_v124 main_v125 (cmpi .slt : (⟨S262144, .i32⟩ : BufTy).Contents (Elt F) → (⟨S262144, .i32⟩ : BufTy).Contents (Elt F) → (⟨S262144, .i1⟩ : BufTy).Contents (Elt F))
  :: StableHlo.nullary main_c_29 (constantI S_ 32 100000#32)
  :: StableHlo.unary main_c_29 main_v126 (broadcastInDim S262144 ![] bcast_S_S262144 : (⟨S_, .i32⟩ : BufTy).Contents (Elt F) → (⟨S262144, .i32⟩ : BufTy).Contents (Elt F))
  :: StableHlo.binary main_arg0 main_v126 main_v127 (addi : (⟨S262144, .i32⟩ : BufTy).Contents (Elt F) → (⟨S262144, .i32⟩ : BufTy).Contents (Elt F) → (⟨S262144, .i32⟩ : BufTy).Contents (Elt F))
  :: StableHlo.ternary main_v125 main_v127 main_arg0 main_v128 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v128 main_v129 (broadcastInDim S262144x1 ![0] bcast_S262144_S262144x1_0 : (⟨S262144, .i32⟩ : BufTy).Contents (Elt F) → (⟨S262144x1, .i32⟩ : BufTy).Contents (Elt F))
  :: StableHlo.binary main_arg16 main_v129 main_v130 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_30 (constantI S_ 32 0#32)
  :: StableHlo.unary main_c_30 main_v131 (broadcastInDim S262144 ![] bcast_S_S262144 : (⟨S_, .i32⟩ : BufTy).Contents (Elt F) → (⟨S262144, .i32⟩ : BufTy).Contents (Elt F))
  :: StableHlo.binary main_arg0 main_v131 main_v132 (cmpi .slt : (⟨S262144, .i32⟩ : BufTy).Contents (Elt F) → (⟨S262144, .i32⟩ : BufTy).Contents (Elt F) → (⟨S262144, .i1⟩ : BufTy).Contents (Elt F))
  :: StableHlo.nullary main_c_31 (constantI S_ 32 100000#32)
  :: StableHlo.unary main_c_31 main_v133 (broadcastInDim S262144 ![] bcast_S_S262144 : (⟨S_, .i32⟩ : BufTy).Contents (Elt F) → (⟨S262144, .i32⟩ : BufTy).Contents (Elt F))
  :: StableHlo.binary main_arg0 main_v133 main_v134 (addi : (⟨S262144, .i32⟩ : BufTy).Contents (Elt F) → (⟨S262144, .i32⟩ : BufTy).Contents (Elt F) → (⟨S262144, .i32⟩ : BufTy).Contents (Elt F))
  :: StableHlo.ternary main_v132 main_v134 main_arg0 main_v135 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v135 main_v136 (broadcastInDim S262144x1 ![0] bcast_S262144_S262144x1_0 : (⟨S262144, .i32⟩ : BufTy).Contents (Elt F) → (⟨S262144x1, .i32⟩ : BufTy).Contents (Elt F))
  :: StableHlo.binary main_arg17 main_v136 main_v137 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_32 (constantI S_ 32 0#32)
  :: StableHlo.unary main_c_32 main_v138 (broadcastInDim S262144 ![] bcast_S_S262144 : (⟨S_, .i32⟩ : BufTy).Contents (Elt F) → (⟨S262144, .i32⟩ : BufTy).Contents (Elt F))
  :: StableHlo.binary main_arg0 main_v138 main_v139 (cmpi .slt : (⟨S262144, .i32⟩ : BufTy).Contents (Elt F) → (⟨S262144, .i32⟩ : BufTy).Contents (Elt F) → (⟨S262144, .i1⟩ : BufTy).Contents (Elt F))
  :: StableHlo.nullary main_c_33 (constantI S_ 32 100000#32)
  :: StableHlo.unary main_c_33 main_v140 (broadcastInDim S262144 ![] bcast_S_S262144 : (⟨S_, .i32⟩ : BufTy).Contents (Elt F) → (⟨S262144, .i32⟩ : BufTy).Contents (Elt F))
  :: StableHlo.binary main_arg0 main_v140 main_v141 (addi : (⟨S262144, .i32⟩ : BufTy).Contents (Elt F) → (⟨S262144, .i32⟩ : BufTy).Contents (Elt F) → (⟨S262144, .i32⟩ : BufTy).Contents (Elt F))
  :: StableHlo.ternary main_v139 main_v141 main_arg0 main_v142 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v142 main_v143 (broadcastInDim S262144x1 ![0] bcast_S262144_S262144x1_0 : (⟨S262144, .i32⟩ : BufTy).Contents (Elt F) → (⟨S262144x1, .i32⟩ : BufTy).Contents (Elt F))
  :: [] )

set_option maxHeartbeats 40000000 in
/-- The 60 operations of @main's statements 181 … 240, in order. -/
abbrev ops3 : List (HloOp τ sig (Elt F)) :=
  ( StableHlo.binary main_arg18 main_v143 main_v144 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v145 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v145 main_v146 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v137 main_v146 main_v147 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v147 main_v144 main_v148 (addf : (⟨S3x262144x64, .f32⟩ : BufTy).Contents (Elt F) → (⟨S3x262144x64, .f32⟩ : BufTy).Contents (Elt F) → (⟨S3x262144x64, .f32⟩ : BufTy).Contents (Elt F))
  :: StableHlo.unary main_v148 main_v149 (Host.sin : (⟨S3x262144x64, .f32⟩ : BufTy).Contents (Elt F) → (⟨S3x262144x64, .f32⟩ : BufTy).Contents (Elt F))
  :: StableHlo.binary main_v130 main_v149 main_v150 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst_34 (constant S_ .f32 0x00000000#32)
  :: StableHlo.binary main_v150 main_cst_34 main_v151 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v151 main_v11 main_v152 (addf : (⟨S262144x64, .f32⟩ : BufTy).Contents (Elt F) → (⟨S262144x64, .f32⟩ : BufTy).Contents (Elt F) → (⟨S262144x64, .f32⟩ : BufTy).Contents (Elt F))
  :: StableHlo.nullary main_c_35 (constantI S_ 32 0#32)
  :: StableHlo.unary main_c_35 main_v153 (broadcastInDim S262144 ![] bcast_S_S262144 : (⟨S_, .i32⟩ : BufTy).Contents (Elt F) → (⟨S262144, .i32⟩ : BufTy).Contents (Elt F))
  :: StableHlo.binary main_arg0 main_v153 main_v154 (cmpi .slt : (⟨S262144, .i32⟩ : BufTy).Contents (Elt F) → (⟨S262144, .i32⟩ : BufTy).Contents (Elt F) → (⟨S262144, .i1⟩ : BufTy).Contents (Elt F))
  :: StableHlo.nullary main_c_36 (constantI S_ 32 100000#32)
  :: StableHlo.unary main_c_36 main_v155 (broadcastInDim S262144 ![] bcast_S_S262144 : (⟨S_, .i32⟩ : BufTy).Contents (Elt F) → (⟨S262144, .i32⟩ : BufTy).Contents (Elt F))
  :: StableHlo.binary main_arg0 main_v155 main_v156 (addi : (⟨S262144, .i32⟩ : BufTy).Contents (Elt F) → (⟨S262144, .i32⟩ : BufTy).Contents (Elt F) → (⟨S262144, .i32⟩ : BufTy).Contents (Elt F))
  :: StableHlo.ternary main_v154 main_v156 main_arg0 main_v157 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v157 main_v158 (broadcastInDim S262144x1 ![0] bcast_S262144_S262144x1_0 : (⟨S262144, .i32⟩ : BufTy).Contents (Elt F) → (⟨S262144x1, .i32⟩ : BufTy).Contents (Elt F))
  :: StableHlo.binary main_arg7 main_v158 main_v159 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v159 main_v65 main_v160 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.nullary main_c_37 (constantI S_ 32 0#32)
  :: StableHlo.unary main_c_37 main_v161 (broadcastInDim S262144 ![] bcast_S_S262144 : (⟨S_, .i32⟩ : BufTy).Contents (Elt F) → (⟨S262144, .i32⟩ : BufTy).Contents (Elt F))
  :: StableHlo.binary main_arg2 main_v161 main_v162 (cmpi .slt : (⟨S262144, .i32⟩ : BufTy).Contents (Elt F) → (⟨S262144, .i32⟩ : BufTy).Contents (Elt F) → (⟨S262144, .i1⟩ : BufTy).Contents (Elt F))
  :: StableHlo.nullary main_c_38 (constantI S_ 32 100000#32)
  :: StableHlo.unary main_c_38 main_v163 (broadcastInDim S262144 ![] bcast_S_S262144 : (⟨S_, .i32⟩ : BufTy).Contents (Elt F) → (⟨S262144, .i32⟩ : BufTy).Contents (Elt F))
  :: StableHlo.binary main_arg2 main_v163 main_v164 (addi : (⟨S262144, .i32⟩ : BufTy).Contents (Elt F) → (⟨S262144, .i32⟩ : BufTy).Contents (Elt F) → (⟨S262144, .i32⟩ : BufTy).Contents (Elt F))
  :: StableHlo.ternary main_v162 main_v164 main_arg2 main_v165 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v165 main_v166 (broadcastInDim S262144x1 ![0] bcast_S262144_S262144x1_0 : (⟨S262144, .i32⟩ : BufTy).Contents (Elt F) → (⟨S262144x1, .i32⟩ : BufTy).Contents (Elt F))
  :: StableHlo.binary main_arg8 main_v166 main_v167 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v167 main_v94 main_v168 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.nullary main_c_39 (constantI S_ 32 0#32)
  :: StableHlo.unary main_c_39 main_v169 (broadcastInDim S262144 ![] bcast_S_S262144 : (⟨S_, .i32⟩ : BufTy).Contents (Elt F) → (⟨S262144, .i32⟩ : BufTy).Contents (Elt F))
  :: StableHlo.binary main_arg2 main_v169 main_v170 (cmpi .slt : (⟨S262144, .i32⟩ : BufTy).Contents (Elt F) → (⟨S262144, .i32⟩ : BufTy).Contents (Elt F) → (⟨S262144, .i1⟩ : BufTy).Contents (Elt F))
  :: StableHlo.nullary main_c_40 (constantI S_ 32 100000#32)
  :: StableHlo.unary main_c_40 main_v171 (broadcastInDim S262144 ![] bcast_S_S262144 : (⟨S_, .i32⟩ : BufTy).Contents (Elt F) → (⟨S262144, .i32⟩ : BufTy).Contents (Elt F))
  :: StableHlo.binary main_arg2 main_v171 main_v172 (addi : (⟨S262144, .i32⟩ : BufTy).Contents (Elt F) → (⟨S262144, .i32⟩ : BufTy).Contents (Elt F) → (⟨S262144, .i32⟩ : BufTy).Contents (Elt F))
  :: StableHlo.ternary main_v170 main_v172 main_arg2 main_v173 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v173 main_v174 (broadcastInDim S262144x1 ![0] bcast_S262144_S262144x1_0 : (⟨S262144, .i32⟩ : BufTy).Contents (Elt F) → (⟨S262144x1, .i32⟩ : BufTy).Contents (Elt F))
  :: StableHlo.binary main_arg7 main_v174 main_v175 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v175 main_v123 main_v176 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.nullary main_c_41 (constantI S_ 32 0#32)
  :: StableHlo.unary main_c_41 main_v177 (broadcastInDim S262144 ![] bcast_S_S262144 : (⟨S_, .i32⟩ : BufTy).Contents (Elt F) → (⟨S262144, .i32⟩ : BufTy).Contents (Elt F))
  :: StableHlo.binary main_arg0 main_v177 main_v178 (cmpi .slt : (⟨S262144, .i32⟩ : BufTy).Contents (Elt F) → (⟨S262144, .i32⟩ : BufTy).Contents (Elt F) → (⟨S262144, .i1⟩ : BufTy).Contents (Elt F))
  :: StableHlo.nullary main_c_42 (constantI S_ 32 100000#32)
  :: StableHlo.unary main_c_42 main_v179 (broadcastInDim S262144 ![] bcast_S_S262144 : (⟨S_, .i32⟩ : BufTy).Contents (Elt F) → (⟨S262144, .i32⟩ : BufTy).Contents (Elt F))
  :: StableHlo.binary main_arg0 main_v179 main_v180 (addi : (⟨S262144, .i32⟩ : BufTy).Contents (Elt F) → (⟨S262144, .i32⟩ : BufTy).Contents (Elt F) → (⟨S262144, .i32⟩ : BufTy).Contents (Elt F))
  :: StableHlo.ternary main_v178 main_v180 main_arg0 main_v181 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v181 main_v182 (broadcastInDim S262144x1 ![0] bcast_S262144_S262144x1_0 : (⟨S262144, .i32⟩ : BufTy).Contents (Elt F) → (⟨S262144x1, .i32⟩ : BufTy).Contents (Elt F))
  :: StableHlo.binary main_arg8 main_v182 main_v183 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v183 main_v152 main_v184 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.binary main_v160 main_v34 main_v185 (mulf : (⟨S262144x128, .f32⟩ : BufTy).Contents (Elt F) → (⟨S262144x128, .f32⟩ : BufTy).Contents (Elt F) → (⟨S262144x128, .f32⟩ : BufTy).Contents (Elt F))
  :: StableHlo.binary main_v185 main_v168 main_v186 (mulf : (⟨S262144x128, .f32⟩ : BufTy).Contents (Elt F) → (⟨S262144x128, .f32⟩ : BufTy).Contents (Elt F) → (⟨S262144x128, .f32⟩ : BufTy).Contents (Elt F))
  :: StableHlo.binary main_v176 main_v36 main_v187 (mulf : (⟨S262144x128, .f32⟩ : BufTy).Contents (Elt F) → (⟨S262144x128, .f32⟩ : BufTy).Contents (Elt F) → (⟨S262144x128, .f32⟩ : BufTy).Contents (Elt F))
  :: StableHlo.binary main_v187 main_v184 main_v188 (mulf : (⟨S262144x128, .f32⟩ : BufTy).Contents (Elt F) → (⟨S262144x128, .f32⟩ : BufTy).Contents (Elt F) → (⟨S262144x128, .f32⟩ : BufTy).Contents (Elt F))
  :: StableHlo.binary main_v186 main_v188 main_v189 (addf : (⟨S262144x128, .f32⟩ : BufTy).Contents (Elt F) → (⟨S262144x128, .f32⟩ : BufTy).Contents (Elt F) → (⟨S262144x128, .f32⟩ : BufTy).Contents (Elt F))
  :: StableHlo.nullary main_cst_43 (constant S_ .f32 0x3F000000#32)
  :: StableHlo.unary main_cst_43 main_v190 (broadcastInDim S262144x128 ![] bcast_S_S262144x128 : (⟨S_, .f32⟩ : BufTy).Contents (Elt F) → (⟨S262144x128, .f32⟩ : BufTy).Contents (Elt F))
  :: StableHlo.binary main_v189 main_v190 main_v191 (mulf : (⟨S262144x128, .f32⟩ : BufTy).Contents (Elt F) → (⟨S262144x128, .f32⟩ : BufTy).Contents (Elt F) → (⟨S262144x128, .f32⟩ : BufTy).Contents (Elt F))
  :: StableHlo.nullary main_cst_44 (constant S_ .f32 0x00000000#32)
  :: StableHlo.binary main_v191 main_cst_44 main_v192 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F))
  :: [] )

set_option maxHeartbeats 40000000 in
/-- @main's 256 operations, in order: its 239 own and, at the call of @floor_divide, that function's sixteen
    followed by @_where's one, each over the buffers the call's record names. -/
abbrev ops : List (HloOp τ sig (Elt F)) :=
  ( StableHlo.unary main_arg3 main_v0 (broadcastInDim S1x262144 ![1] bcast_S262144_S1x262144_1 : (⟨S262144, .f32⟩ : BufTy).Contents (Elt F) → (⟨S1x262144, .f32⟩ : BufTy).Contents (Elt F))
  :: StableHlo.unary main_arg4 main_v1 (broadcastInDim S1x262144 ![1] bcast_S262144_S1x262144_1 : (⟨S262144, .f32⟩ : BufTy).Contents (Elt F) → (⟨S1x262144, .f32⟩ : BufTy).Contents (Elt F))
  :: StableHlo.unary main_arg5 main_v2 (broadcastInDim S1x262144 ![1] bcast_S262144_S1x262144_1 : (⟨S262144, .f32⟩ : BufTy).Contents (Elt F) → (⟨S1x262144, .f32⟩ : BufTy).Contents (Elt F))
  :: StableHlo.nary ![main_v0, main_v1, main_v2] main_v3 (fun u => concatenate S3x262144 0 [⟨S1x262144, u 0⟩, ⟨S1x262144, u 1⟩, ⟨S1x262144, u 2⟩] concatenates_S1x262144_S1x262144_S1x262144_S3x262144_d0)
  :: StableHlo.nullary main_c (constantI S_ 32 30#32)
  :: StableHlo.TRef.unary (.of main_c : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_v1 : StableHlo.TRef sig ⟨S262144, .i32⟩) (broadcastInDim S262144 ![] bcast_S_S262144)
  :: StableHlo.TRef.binary (.of main_arg6 : StableHlo.TRef sig ⟨S262144, .i32⟩) (.of main_call0_v1 : StableHlo.TRef sig ⟨S262144, .i32⟩) (.of main_call0_v2 : StableHlo.TRef sig ⟨S262144, .i32⟩) Host.divsi
  :: StableHlo.TRef.unary (.of main_arg6 : StableHlo.TRef sig ⟨S262144, .i32⟩) (.of main_call0_v3 : StableHlo.TRef sig ⟨S262144, .i32⟩) signi
  :: StableHlo.TRef.unary (.of main_call0_v0 : StableHlo.TRef sig ⟨S_, .i32⟩) (.of main_call0_v4 : StableHlo.TRef sig ⟨S_, .i32⟩) signi
  :: StableHlo.TRef.unary (.of main_call0_v4 : StableHlo.TRef sig ⟨S_, .i32⟩) (.of main_call0_v5 : StableHlo.TRef sig ⟨S262144, .i32⟩) (broadcastInDim S262144 ![] bcast_S_S262144)
  :: StableHlo.TRef.binary (.of main_call0_v3 : StableHlo.TRef sig ⟨S262144, .i32⟩) (.of main_call0_v5 : StableHlo.TRef sig ⟨S262144, .i32⟩) (.of main_call0_v6 : StableHlo.TRef sig ⟨S262144, .i1⟩) (cmpi .ne)
  :: StableHlo.TRef.unary (.of main_call0_v0 : StableHlo.TRef sig ⟨S_, .i32⟩) (.of main_call0_v7 : StableHlo.TRef sig ⟨S262144, .i32⟩) (broadcastInDim S262144 ![] bcast_S_S262144)
  :: StableHlo.TRef.binary (.of main_arg6 : StableHlo.TRef sig ⟨S262144, .i32⟩) (.of main_call0_v7 : StableHlo.TRef sig ⟨S262144, .i32⟩) (.of main_call0_v8 : StableHlo.TRef sig ⟨S262144, .i32⟩) Host.remsi
  :: StableHlo.TRef.nullary (.of main_call0_c : StableHlo.TRef sig ⟨S_, .i32⟩) (constantI S_ 32 0#32)
  :: StableHlo.TRef.unary (.of main_call0_c : StableHlo.TRef sig ⟨S_, .i32⟩) (.of main_call0_v9 : StableHlo.TRef sig ⟨S262144, .i32⟩) (broadcastInDim S262144 ![] bcast_S_S262144)
  :: StableHlo.TRef.binary (.of main_call0_v8 : StableHlo.TRef sig ⟨S262144, .i32⟩) (.of main_call0_v9 : StableHlo.TRef sig ⟨S262144, .i32⟩) (.of main_call0_v10 : StableHlo.TRef sig ⟨S262144, .i1⟩) (cmpi .ne)
  :: StableHlo.TRef.binary (.of main_call0_v6 : StableHlo.TRef sig ⟨S262144, .i1⟩) (.of main_call0_v10 : StableHlo.TRef sig ⟨S262144, .i1⟩) (.of main_call0_v11 : StableHlo.TRef sig ⟨S262144, .i1⟩) andi
  :: StableHlo.TRef.nullary (.of main_call0_c_0 : StableHlo.TRef sig ⟨S_, .i32⟩) (constantI S_ 32 1#32)
  :: StableHlo.TRef.unary (.of main_call0_c_0 : StableHlo.TRef sig ⟨S_, .i32⟩) (.of main_call0_v12 : StableHlo.TRef sig ⟨S262144, .i32⟩) (broadcastInDim S262144 ![] bcast_S_S262144)
  :: StableHlo.TRef.binary (.of main_call0_v2 : StableHlo.TRef sig ⟨S262144, .i32⟩) (.of main_call0_v12 : StableHlo.TRef sig ⟨S262144, .i32⟩) (.of main_call0_v13 : StableHlo.TRef sig ⟨S262144, .i32⟩) subi
  :: StableHlo.TRef.ternary (.of main_call0_v11 : StableHlo.TRef sig ⟨S262144, .i1⟩) (.of main_call0_v13 : StableHlo.TRef sig ⟨S262144, .i32⟩) (.of main_call0_v2 : StableHlo.TRef sig ⟨S262144, .i32⟩) (.of main_v4 : StableHlo.TRef sig ⟨S262144, .i32⟩) select
  :: StableHlo.nullary main_c_0 (constantI S_ 32 0#32)
  :: StableHlo.unary main_c_0 main_v5 (broadcastInDim S262144 ![] bcast_S_S262144 : (⟨S_, .i32⟩ : BufTy).Contents (Elt F) → (⟨S262144, .i32⟩ : BufTy).Contents (Elt F))
  :: StableHlo.binary main_v4 main_v5 main_v6 (cmpi .slt : (⟨S262144, .i32⟩ : BufTy).Contents (Elt F) → (⟨S262144, .i32⟩ : BufTy).Contents (Elt F) → (⟨S262144, .i1⟩ : BufTy).Contents (Elt F))
  :: StableHlo.nullary main_c_1 (constantI S_ 32 134#32)
  :: StableHlo.unary main_c_1 main_v7 (broadcastInDim S262144 ![] bcast_S_S262144 : (⟨S_, .i32⟩ : BufTy).Contents (Elt F) → (⟨S262144, .i32⟩ : BufTy).Contents (Elt F))
  :: StableHlo.binary main_v4 main_v7 main_v8 (addi : (⟨S262144, .i32⟩ : BufTy).Contents (Elt F) → (⟨S262144, .i32⟩ : BufTy).Contents (Elt F) → (⟨S262144, .i32⟩ : BufTy).Contents (Elt F))
  :: StableHlo.ternary main_v6 main_v8 main_v4 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v9 main_v10 (broadcastInDim S262144x1 ![0] bcast_S262144_S262144x1_0 : (⟨S262144, .i32⟩ : BufTy).Contents (Elt F) → (⟨S262144x1, .i32⟩ : BufTy).Contents (Elt F))
  :: StableHlo.binary main_arg11 main_v10 main_v11 ((fun x i => Host.gather gather_S134x64_S262144x1_S262144x64_1_0_n_n_0_1_164 x i) : (⟨S134x64, .f32⟩ : BufTy).Contents (Elt F) → (⟨S262144x1, .i32⟩ : BufTy).Contents (Elt F) → (⟨S262144x64, .f32⟩ : BufTy).Contents (Elt F))
  :: StableHlo.nullary main_c_2 (constantI S_ 32 0#32)
  :: StableHlo.unary main_c_2 main_v12 (broadcastInDim S262144 ![] bcast_S_S262144 : (⟨S_, .i32⟩ : BufTy).Contents (Elt F) → (⟨S262144, .i32⟩ : BufTy).Contents (Elt F))
  :: StableHlo.binary main_arg6 main_v12 main_v13 (cmpi .slt : (⟨S262144, .i32⟩ : BufTy).Contents (Elt F) → (⟨S262144, .i32⟩ : BufTy).Contents (Elt F) → (⟨S262144, .i1⟩ : BufTy).Contents (Elt F))
  :: StableHlo.nullary main_c_3 (constantI S_ 32 4000#32)
  :: StableHlo.unary main_c_3 main_v14 (broadcastInDim S262144 ![] bcast_S_S262144 : (⟨S_, .i32⟩ : BufTy).Contents (Elt F) → (⟨S262144, .i32⟩ : BufTy).Contents (Elt F))
  :: StableHlo.binary main_arg6 main_v14 main_v15 (addi : (⟨S262144, .i32⟩ : BufTy).Contents (Elt F) → (⟨S262144, .i32⟩ : BufTy).Contents (Elt F) → (⟨S262144, .i32⟩ : BufTy).Contents (Elt F))
  :: StableHlo.ternary main_v13 main_v15 main_arg6 main_v16 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v16 main_v17 (broadcastInDim S262144x1 ![0] bcast_S262144_S262144x1_0 : (⟨S262144, .i32⟩ : BufTy).Contents (Elt F) → (⟨S262144x1, .i32⟩ : BufTy).Contents (Elt F))
  :: StableHlo.binary main_arg12 main_v17 main_v18 ((fun x i => Host.gather gather_S4000x128_S262144x1_S262144x128_1_0_n_n_0_1_1128 x i) : (⟨S4000x128, .f32⟩ : BufTy).Contents (Elt F) → (⟨S262144x1, .i32⟩ : BufTy).Contents (Elt F) → (⟨S262144x128, .f32⟩ : BufTy).Contents (Elt F))
  :: StableHlo.nullary main_c_4 (constantI S_ 32 0#32)
  :: StableHlo.unary main_c_4 main_v19 (broadcastInDim S262144 ![] bcast_S_S262144 : (⟨S_, .i32⟩ : BufTy).Contents (Elt F) → (⟨S262144, .i32⟩ : BufTy).Contents (Elt F))
  :: StableHlo.binary main_arg1 main_v19 main_v20 (cmpi .slt : (⟨S262144, .i32⟩ : BufTy).Contents (Elt F) → (⟨S262144, .i32⟩ : BufTy).Contents (Elt F) → (⟨S262144, .i1⟩ : BufTy).Contents (Elt F))
  :: StableHlo.nullary main_c_5 (constantI S_ 32 500#32)
  :: StableHlo.unary main_c_5 main_v21 (broadcastInDim S262144 ![] bcast_S_S262144 : (⟨S_, .i32⟩ : BufTy).Contents (Elt F) → (⟨S262144, .i32⟩ : BufTy).Contents (Elt F))
  :: StableHlo.binary main_arg1 main_v21 main_v22 (addi : (⟨S262144, .i32⟩ : BufTy).Contents (Elt F) → (⟨S262144, .i32⟩ : BufTy).Contents (Elt F) → (⟨S262144, .i32⟩ : BufTy).Contents (Elt F))
  :: StableHlo.ternary main_v20 main_v22 main_arg1 main_v23 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v23 main_v24 (broadcastInDim S262144x1 ![0] bcast_S262144_S262144x1_0 : (⟨S262144, .i32⟩ : BufTy).Contents (Elt F) → (⟨S262144x1, .i32⟩ : BufTy).Contents (Elt F))
  :: StableHlo.binary main_arg9 main_v24 main_v25 ((fun x i => Host.gather gather_S500x128_S262144x1_S262144x128_1_0_n_n_0_1_1128 x i) : (⟨S500x128, .f32⟩ : BufTy).Contents (Elt F) → (⟨S262144x1, .i32⟩ : BufTy).Contents (Elt F) → (⟨S262144x128, .f32⟩ : BufTy).Contents (Elt F))
  :: StableHlo.nullary main_c_6 (constantI S_ 32 0#32)
  :: StableHlo.unary main_c_6 main_v26 (broadcastInDim S262144 ![] bcast_S_S262144 : (⟨S_, .i32⟩ : BufTy).Contents (Elt F) → (⟨S262144, .i32⟩ : BufTy).Contents (Elt F))
  :: StableHlo.binary main_arg1 main_v26 main_v27 (cmpi .slt : (⟨S262144, .i32⟩ : BufTy).Contents (Elt F) → (⟨S262144, .i32⟩ : BufTy).Contents (Elt F) → (⟨S262144, .i1⟩ : BufTy).Contents (Elt F))
  :: StableHlo.nullary main_c_7 (constantI S_ 32 500#32)
  :: StableHlo.unary main_c_7 main_v28 (broadcastInDim S262144 ![] bcast_S_S262144 : (⟨S_, .i32⟩ : BufTy).Contents (Elt F) → (⟨S262144, .i32⟩ : BufTy).Contents (Elt F))
  :: StableHlo.binary main_arg1 main_v28 main_v29 (addi : (⟨S262144, .i32⟩ : BufTy).Contents (Elt F) → (⟨S262144, .i32⟩ : BufTy).Contents (Elt F) → (⟨S262144, .i32⟩ : BufTy).Contents (Elt F))
  :: StableHlo.ternary main_v27 main_v29 main_arg1 main_v30 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v30 main_v31 (broadcastInDim S262144x1 ![0] bcast_S262144_S262144x1_0 : (⟨S262144, .i32⟩ : BufTy).Contents (Elt F) → (⟨S262144x1, .i32⟩ : BufTy).Contents (Elt F))
  :: StableHlo.binary main_arg10 main_v31 main_v32 ((fun x i => Host.gather gather_S500x128_S262144x1_S262144x128_1_0_n_n_0_1_1128 x i) : (⟨S500x128, .f32⟩ : BufTy).Contents (Elt F) → (⟨S262144x1, .i32⟩ : BufTy).Contents (Elt F) → (⟨S262144x128, .f32⟩ : BufTy).Contents (Elt F))
  :: StableHlo.binary main_v25 main_v18 main_v33 (mulf : (⟨S262144x128, .f32⟩ : BufTy).Contents (Elt F) → (⟨S262144x128, .f32⟩ : BufTy).Contents (Elt F) → (⟨S262144x128, .f32⟩ : BufTy).Contents (Elt F))
  :: StableHlo.binary main_v25 main_v33 main_v34 (addf : (⟨S262144x128, .f32⟩ : BufTy).Contents (Elt F) → (⟨S262144x128, .f32⟩ : BufTy).Contents (Elt F) → (⟨S262144x128, .f32⟩ : BufTy).Contents (Elt F))
  :: StableHlo.binary main_v32 main_v18 main_v35 (mulf : (⟨S262144x128, .f32⟩ : BufTy).Contents (Elt F) → (⟨S262144x128, .f32⟩ : BufTy).Contents (Elt F) → (⟨S262144x128, .f32⟩ : BufTy).Contents (Elt F))
  :: StableHlo.binary main_v32 main_v35 main_v36 (addf : (⟨S262144x128, .f32⟩ : BufTy).Contents (Elt F) → (⟨S262144x128, .f32⟩ : BufTy).Contents (Elt F) → (⟨S262144x128, .f32⟩ : BufTy).Contents (Elt F))
  :: StableHlo.nullary main_c_8 (constantI S_ 32 0#32)
  :: StableHlo.unary main_c_8 main_v37 (broadcastInDim S262144 ![] bcast_S_S262144 : (⟨S_, .i32⟩ : BufTy).Contents (Elt F) → (⟨S262144, .i32⟩ : BufTy).Contents (Elt F))
  :: StableHlo.binary main_arg0 main_v37 main_v38 (cmpi .slt : (⟨S262144, .i32⟩ : BufTy).Contents (Elt F) → (⟨S262144, .i32⟩ : BufTy).Contents (Elt F) → (⟨S262144, .i1⟩ : BufTy).Contents (Elt F))
  :: StableHlo.nullary main_c_9 (constantI S_ 32 100000#32)
  :: StableHlo.unary main_c_9 main_v39 (broadcastInDim S262144 ![] bcast_S_S262144 : (⟨S_, .i32⟩ : BufTy).Contents (Elt F) → (⟨S262144, .i32⟩ : BufTy).Contents (Elt F))
  :: StableHlo.binary main_arg0 main_v39 main_v40 (addi : (⟨S262144, .i32⟩ : BufTy).Contents (Elt F) → (⟨S262144, .i32⟩ : BufTy).Contents (Elt F) → (⟨S262144, .i32⟩ : BufTy).Contents (Elt F))
  :: StableHlo.ternary main_v38 main_v40 main_arg0 main_v41 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v41 main_v42 (broadcastInDim S262144x1 ![0] bcast_S262144_S262144x1_0 : (⟨S262144, .i32⟩ : BufTy).Contents (Elt F) → (⟨S262144x1, .i32⟩ : BufTy).Contents (Elt F))
  :: StableHlo.binary main_arg13 main_v42 main_v43 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_10 (constantI S_ 32 0#32)
  :: StableHlo.unary main_c_10 main_v44 (broadcastInDim S262144 ![] bcast_S_S262144 : (⟨S_, .i32⟩ : BufTy).Contents (Elt F) → (⟨S262144, .i32⟩ : BufTy).Contents (Elt F))
  :: StableHlo.binary main_arg0 main_v44 main_v45 (cmpi .slt : (⟨S262144, .i32⟩ : BufTy).Contents (Elt F) → (⟨S262144, .i32⟩ : BufTy).Contents (Elt F) → (⟨S262144, .i1⟩ : BufTy).Contents (Elt F))
  :: StableHlo.nullary main_c_11 (constantI S_ 32 100000#32)
  :: StableHlo.unary main_c_11 main_v46 (broadcastInDim S262144 ![] bcast_S_S262144 : (⟨S_, .i32⟩ : BufTy).Contents (Elt F) → (⟨S262144, .i32⟩ : BufTy).Contents (Elt F))
  :: StableHlo.binary main_arg0 main_v46 main_v47 (addi : (⟨S262144, .i32⟩ : BufTy).Contents (Elt F) → (⟨S262144, .i32⟩ : BufTy).Contents (Elt F) → (⟨S262144, .i32⟩ : BufTy).Contents (Elt F))
  :: StableHlo.ternary main_v45 main_v47 main_arg0 main_v48 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v48 main_v49 (broadcastInDim S262144x1 ![0] bcast_S262144_S262144x1_0 : (⟨S262144, .i32⟩ : BufTy).Contents (Elt F) → (⟨S262144x1, .i32⟩ : BufTy).Contents (Elt F))
  :: StableHlo.binary main_arg14 main_v49 main_v50 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_12 (constantI S_ 32 0#32)
  :: StableHlo.unary main_c_12 main_v51 (broadcastInDim S262144 ![] bcast_S_S262144 : (⟨S_, .i32⟩ : BufTy).Contents (Elt F) → (⟨S262144, .i32⟩ : BufTy).Contents (Elt F))
  :: StableHlo.binary main_arg0 main_v51 main_v52 (cmpi .slt : (⟨S262144, .i32⟩ : BufTy).Contents (Elt F) → (⟨S262144, .i32⟩ : BufTy).Contents (Elt F) → (⟨S262144, .i1⟩ : BufTy).Contents (Elt F))
  :: StableHlo.nullary main_c_13 (constantI S_ 32 100000#32)
  :: StableHlo.unary main_c_13 main_v53 (broadcastInDim S262144 ![] bcast_S_S262144 : (⟨S_, .i32⟩ : BufTy).Contents (Elt F) → (⟨S262144, .i32⟩ : BufTy).Contents (Elt F))
  :: StableHlo.binary main_arg0 main_v53 main_v54 (addi : (⟨S262144, .i32⟩ : BufTy).Contents (Elt F) → (⟨S262144, .i32⟩ : BufTy).Contents (Elt F) → (⟨S262144, .i32⟩ : BufTy).Contents (Elt F))
  :: StableHlo.ternary main_v52 main_v54 main_arg0 main_v55 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v55 main_v56 (broadcastInDim S262144x1 ![0] bcast_S262144_S262144x1_0 : (⟨S262144, .i32⟩ : BufTy).Contents (Elt F) → (⟨S262144x1, .i32⟩ : BufTy).Contents (Elt F))
  :: StableHlo.binary main_arg15 main_v56 main_v57 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v58 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v58 main_v59 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v50 main_v59 main_v60 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v60 main_v57 main_v61 (addf : (⟨S3x262144x64, .f32⟩ : BufTy).Contents (Elt F) → (⟨S3x262144x64, .f32⟩ : BufTy).Contents (Elt F) → (⟨S3x262144x64, .f32⟩ : BufTy).Contents (Elt F))
  :: StableHlo.unary main_v61 main_v62 (Host.sin : (⟨S3x262144x64, .f32⟩ : BufTy).Contents (Elt F) → (⟨S3x262144x64, .f32⟩ : BufTy).Contents (Elt F))
  :: StableHlo.binary main_v43 main_v62 main_v63 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst (constant S_ .f32 0x00000000#32)
  :: StableHlo.binary main_v63 main_cst main_v64 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v64 main_v11 main_v65 (addf : (⟨S262144x64, .f32⟩ : BufTy).Contents (Elt F) → (⟨S262144x64, .f32⟩ : BufTy).Contents (Elt F) → (⟨S262144x64, .f32⟩ : BufTy).Contents (Elt F))
  :: StableHlo.nullary main_c_14 (constantI S_ 32 0#32)
  :: StableHlo.unary main_c_14 main_v66 (broadcastInDim S262144 ![] bcast_S_S262144 : (⟨S_, .i32⟩ : BufTy).Contents (Elt F) → (⟨S262144, .i32⟩ : BufTy).Contents (Elt F))
  :: StableHlo.binary main_arg2 main_v66 main_v67 (cmpi .slt : (⟨S262144, .i32⟩ : BufTy).Contents (Elt F) → (⟨S262144, .i32⟩ : BufTy).Contents (Elt F) → (⟨S262144, .i1⟩ : BufTy).Contents (Elt F))
  :: StableHlo.nullary main_c_15 (constantI S_ 32 100000#32)
  :: StableHlo.unary main_c_15 main_v68 (broadcastInDim S262144 ![] bcast_S_S262144 : (⟨S_, .i32⟩ : BufTy).Contents (Elt F) → (⟨S262144, .i32⟩ : BufTy).Contents (Elt F))
  :: StableHlo.binary main_arg2 main_v68 main_v69 (addi : (⟨S262144, .i32⟩ : BufTy).Contents (Elt F) → (⟨S262144, .i32⟩ : BufTy).Contents (Elt F) → (⟨S262144, .i32⟩ : BufTy).Contents (Elt F))
  :: StableHlo.ternary main_v67 main_v69 main_arg2 main_v70 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v70 main_v71 (broadcastInDim S262144x1 ![0] bcast_S262144_S262144x1_0 : (⟨S262144, .i32⟩ : BufTy).Contents (Elt F) → (⟨S262144x1, .i32⟩ : BufTy).Contents (Elt F))
  :: StableHlo.binary main_arg16 main_v71 main_v72 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_16 (constantI S_ 32 0#32)
  :: StableHlo.unary main_c_16 main_v73 (broadcastInDim S262144 ![] bcast_S_S262144 : (⟨S_, .i32⟩ : BufTy).Contents (Elt F) → (⟨S262144, .i32⟩ : BufTy).Contents (Elt F))
  :: StableHlo.binary main_arg2 main_v73 main_v74 (cmpi .slt : (⟨S262144, .i32⟩ : BufTy).Contents (Elt F) → (⟨S262144, .i32⟩ : BufTy).Contents (Elt F) → (⟨S262144, .i1⟩ : BufTy).Contents (Elt F))
  :: StableHlo.nullary main_c_17 (constantI S_ 32 100000#32)
  :: StableHlo.unary main_c_17 main_v75 (broadcastInDim S262144 ![] bcast_S_S262144 : (⟨S_, .i32⟩ : BufTy).Contents (Elt F) → (⟨S262144, .i32⟩ : BufTy).Contents (Elt F))
  :: StableHlo.binary main_arg2 main_v75 main_v76 (addi : (⟨S262144, .i32⟩ : BufTy).Contents (Elt F) → (⟨S262144, .i32⟩ : BufTy).Contents (Elt F) → (⟨S262144, .i32⟩ : BufTy).Contents (Elt F))
  :: StableHlo.ternary main_v74 main_v76 main_arg2 main_v77 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v77 main_v78 (broadcastInDim S262144x1 ![0] bcast_S262144_S262144x1_0 : (⟨S262144, .i32⟩ : BufTy).Contents (Elt F) → (⟨S262144x1, .i32⟩ : BufTy).Contents (Elt F))
  :: StableHlo.binary main_arg17 main_v78 main_v79 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_18 (constantI S_ 32 0#32)
  :: StableHlo.unary main_c_18 main_v80 (broadcastInDim S262144 ![] bcast_S_S262144 : (⟨S_, .i32⟩ : BufTy).Contents (Elt F) → (⟨S262144, .i32⟩ : BufTy).Contents (Elt F))
  :: StableHlo.binary main_arg2 main_v80 main_v81 (cmpi .slt : (⟨S262144, .i32⟩ : BufTy).Contents (Elt F) → (⟨S262144, .i32⟩ : BufTy).Contents (Elt F) → (⟨S262144, .i1⟩ : BufTy).Contents (Elt F))
  :: StableHlo.nullary main_c_19 (constantI S_ 32 100000#32)
  :: StableHlo.unary main_c_19 main_v82 (broadcastInDim S262144 ![] bcast_S_S262144 : (⟨S_, .i32⟩ : BufTy).Contents (Elt F) → (⟨S262144, .i32⟩ : BufTy).Contents (Elt F))
  :: StableHlo.binary main_arg2 main_v82 main_v83 (addi : (⟨S262144, .i32⟩ : BufTy).Contents (Elt F) → (⟨S262144, .i32⟩ : BufTy).Contents (Elt F) → (⟨S262144, .i32⟩ : BufTy).Contents (Elt F))
  :: StableHlo.ternary main_v81 main_v83 main_arg2 main_v84 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v84 main_v85 (broadcastInDim S262144x1 ![0] bcast_S262144_S262144x1_0 : (⟨S262144, .i32⟩ : BufTy).Contents (Elt F) → (⟨S262144x1, .i32⟩ : BufTy).Contents (Elt F))
  :: StableHlo.binary main_arg18 main_v85 main_v86 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v87 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v87 main_v88 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v79 main_v88 main_v89 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v89 main_v86 main_v90 (addf : (⟨S3x262144x64, .f32⟩ : BufTy).Contents (Elt F) → (⟨S3x262144x64, .f32⟩ : BufTy).Contents (Elt F) → (⟨S3x262144x64, .f32⟩ : BufTy).Contents (Elt F))
  :: StableHlo.unary main_v90 main_v91 (Host.sin : (⟨S3x262144x64, .f32⟩ : BufTy).Contents (Elt F) → (⟨S3x262144x64, .f32⟩ : BufTy).Contents (Elt F))
  :: StableHlo.binary main_v72 main_v91 main_v92 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst_20 (constant S_ .f32 0x00000000#32)
  :: StableHlo.binary main_v92 main_cst_20 main_v93 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v93 main_v11 main_v94 (addf : (⟨S262144x64, .f32⟩ : BufTy).Contents (Elt F) → (⟨S262144x64, .f32⟩ : BufTy).Contents (Elt F) → (⟨S262144x64, .f32⟩ : BufTy).Contents (Elt F))
  :: StableHlo.nullary main_c_21 (constantI S_ 32 0#32)
  :: StableHlo.unary main_c_21 main_v95 (broadcastInDim S262144 ![] bcast_S_S262144 : (⟨S_, .i32⟩ : BufTy).Contents (Elt F) → (⟨S262144, .i32⟩ : BufTy).Contents (Elt F))
  :: StableHlo.binary main_arg2 main_v95 main_v96 (cmpi .slt : (⟨S262144, .i32⟩ : BufTy).Contents (Elt F) → (⟨S262144, .i32⟩ : BufTy).Contents (Elt F) → (⟨S262144, .i1⟩ : BufTy).Contents (Elt F))
  :: StableHlo.nullary main_c_22 (constantI S_ 32 100000#32)
  :: StableHlo.unary main_c_22 main_v97 (broadcastInDim S262144 ![] bcast_S_S262144 : (⟨S_, .i32⟩ : BufTy).Contents (Elt F) → (⟨S262144, .i32⟩ : BufTy).Contents (Elt F))
  :: StableHlo.binary main_arg2 main_v97 main_v98 (addi : (⟨S262144, .i32⟩ : BufTy).Contents (Elt F) → (⟨S262144, .i32⟩ : BufTy).Contents (Elt F) → (⟨S262144, .i32⟩ : BufTy).Contents (Elt F))
  :: StableHlo.ternary main_v96 main_v98 main_arg2 main_v99 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v99 main_v100 (broadcastInDim S262144x1 ![0] bcast_S262144_S262144x1_0 : (⟨S262144, .i32⟩ : BufTy).Contents (Elt F) → (⟨S262144x1, .i32⟩ : BufTy).Contents (Elt F))
  :: StableHlo.binary main_arg13 main_v100 main_v101 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_23 (constantI S_ 32 0#32)
  :: StableHlo.unary main_c_23 main_v102 (broadcastInDim S262144 ![] bcast_S_S262144 : (⟨S_, .i32⟩ : BufTy).Contents (Elt F) → (⟨S262144, .i32⟩ : BufTy).Contents (Elt F))
  :: StableHlo.binary main_arg2 main_v102 main_v103 (cmpi .slt : (⟨S262144, .i32⟩ : BufTy).Contents (Elt F) → (⟨S262144, .i32⟩ : BufTy).Contents (Elt F) → (⟨S262144, .i1⟩ : BufTy).Contents (Elt F))
  :: StableHlo.nullary main_c_24 (constantI S_ 32 100000#32)
  :: StableHlo.unary main_c_24 main_v104 (broadcastInDim S262144 ![] bcast_S_S262144 : (⟨S_, .i32⟩ : BufTy).Contents (Elt F) → (⟨S262144, .i32⟩ : BufTy).Contents (Elt F))
  :: StableHlo.binary main_arg2 main_v104 main_v105 (addi : (⟨S262144, .i32⟩ : BufTy).Contents (Elt F) → (⟨S262144, .i32⟩ : BufTy).Contents (Elt F) → (⟨S262144, .i32⟩ : BufTy).Contents (Elt F))
  :: StableHlo.ternary main_v103 main_v105 main_arg2 main_v106 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v106 main_v107 (broadcastInDim S262144x1 ![0] bcast_S262144_S262144x1_0 : (⟨S262144, .i32⟩ : BufTy).Contents (Elt F) → (⟨S262144x1, .i32⟩ : BufTy).Contents (Elt F))
  :: StableHlo.binary main_arg14 main_v107 main_v108 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_25 (constantI S_ 32 0#32)
  :: StableHlo.unary main_c_25 main_v109 (broadcastInDim S262144 ![] bcast_S_S262144 : (⟨S_, .i32⟩ : BufTy).Contents (Elt F) → (⟨S262144, .i32⟩ : BufTy).Contents (Elt F))
  :: StableHlo.binary main_arg2 main_v109 main_v110 (cmpi .slt : (⟨S262144, .i32⟩ : BufTy).Contents (Elt F) → (⟨S262144, .i32⟩ : BufTy).Contents (Elt F) → (⟨S262144, .i1⟩ : BufTy).Contents (Elt F))
  :: StableHlo.nullary main_c_26 (constantI S_ 32 100000#32)
  :: StableHlo.unary main_c_26 main_v111 (broadcastInDim S262144 ![] bcast_S_S262144 : (⟨S_, .i32⟩ : BufTy).Contents (Elt F) → (⟨S262144, .i32⟩ : BufTy).Contents (Elt F))
  :: StableHlo.binary main_arg2 main_v111 main_v112 (addi : (⟨S262144, .i32⟩ : BufTy).Contents (Elt F) → (⟨S262144, .i32⟩ : BufTy).Contents (Elt F) → (⟨S262144, .i32⟩ : BufTy).Contents (Elt F))
  :: StableHlo.ternary main_v110 main_v112 main_arg2 main_v113 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v113 main_v114 (broadcastInDim S262144x1 ![0] bcast_S262144_S262144x1_0 : (⟨S262144, .i32⟩ : BufTy).Contents (Elt F) → (⟨S262144x1, .i32⟩ : BufTy).Contents (Elt F))
  :: StableHlo.binary main_arg15 main_v114 main_v115 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v116 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v116 main_v117 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v108 main_v117 main_v118 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v118 main_v115 main_v119 (addf : (⟨S3x262144x64, .f32⟩ : BufTy).Contents (Elt F) → (⟨S3x262144x64, .f32⟩ : BufTy).Contents (Elt F) → (⟨S3x262144x64, .f32⟩ : BufTy).Contents (Elt F))
  :: StableHlo.unary main_v119 main_v120 (Host.sin : (⟨S3x262144x64, .f32⟩ : BufTy).Contents (Elt F) → (⟨S3x262144x64, .f32⟩ : BufTy).Contents (Elt F))
  :: StableHlo.binary main_v101 main_v120 main_v121 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst_27 (constant S_ .f32 0x00000000#32)
  :: StableHlo.binary main_v121 main_cst_27 main_v122 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v122 main_v11 main_v123 (addf : (⟨S262144x64, .f32⟩ : BufTy).Contents (Elt F) → (⟨S262144x64, .f32⟩ : BufTy).Contents (Elt F) → (⟨S262144x64, .f32⟩ : BufTy).Contents (Elt F))
  :: StableHlo.nullary main_c_28 (constantI S_ 32 0#32)
  :: StableHlo.unary main_c_28 main_v124 (broadcastInDim S262144 ![] bcast_S_S262144 : (⟨S_, .i32⟩ : BufTy).Contents (Elt F) → (⟨S262144, .i32⟩ : BufTy).Contents (Elt F))
  :: StableHlo.binary main_arg0 main_v124 main_v125 (cmpi .slt : (⟨S262144, .i32⟩ : BufTy).Contents (Elt F) → (⟨S262144, .i32⟩ : BufTy).Contents (Elt F) → (⟨S262144, .i1⟩ : BufTy).Contents (Elt F))
  :: StableHlo.nullary main_c_29 (constantI S_ 32 100000#32)
  :: StableHlo.unary main_c_29 main_v126 (broadcastInDim S262144 ![] bcast_S_S262144 : (⟨S_, .i32⟩ : BufTy).Contents (Elt F) → (⟨S262144, .i32⟩ : BufTy).Contents (Elt F))
  :: StableHlo.binary main_arg0 main_v126 main_v127 (addi : (⟨S262144, .i32⟩ : BufTy).Contents (Elt F) → (⟨S262144, .i32⟩ : BufTy).Contents (Elt F) → (⟨S262144, .i32⟩ : BufTy).Contents (Elt F))
  :: StableHlo.ternary main_v125 main_v127 main_arg0 main_v128 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v128 main_v129 (broadcastInDim S262144x1 ![0] bcast_S262144_S262144x1_0 : (⟨S262144, .i32⟩ : BufTy).Contents (Elt F) → (⟨S262144x1, .i32⟩ : BufTy).Contents (Elt F))
  :: StableHlo.binary main_arg16 main_v129 main_v130 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_30 (constantI S_ 32 0#32)
  :: StableHlo.unary main_c_30 main_v131 (broadcastInDim S262144 ![] bcast_S_S262144 : (⟨S_, .i32⟩ : BufTy).Contents (Elt F) → (⟨S262144, .i32⟩ : BufTy).Contents (Elt F))
  :: StableHlo.binary main_arg0 main_v131 main_v132 (cmpi .slt : (⟨S262144, .i32⟩ : BufTy).Contents (Elt F) → (⟨S262144, .i32⟩ : BufTy).Contents (Elt F) → (⟨S262144, .i1⟩ : BufTy).Contents (Elt F))
  :: StableHlo.nullary main_c_31 (constantI S_ 32 100000#32)
  :: StableHlo.unary main_c_31 main_v133 (broadcastInDim S262144 ![] bcast_S_S262144 : (⟨S_, .i32⟩ : BufTy).Contents (Elt F) → (⟨S262144, .i32⟩ : BufTy).Contents (Elt F))
  :: StableHlo.binary main_arg0 main_v133 main_v134 (addi : (⟨S262144, .i32⟩ : BufTy).Contents (Elt F) → (⟨S262144, .i32⟩ : BufTy).Contents (Elt F) → (⟨S262144, .i32⟩ : BufTy).Contents (Elt F))
  :: StableHlo.ternary main_v132 main_v134 main_arg0 main_v135 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v135 main_v136 (broadcastInDim S262144x1 ![0] bcast_S262144_S262144x1_0 : (⟨S262144, .i32⟩ : BufTy).Contents (Elt F) → (⟨S262144x1, .i32⟩ : BufTy).Contents (Elt F))
  :: StableHlo.binary main_arg17 main_v136 main_v137 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.nullary main_c_32 (constantI S_ 32 0#32)
  :: StableHlo.unary main_c_32 main_v138 (broadcastInDim S262144 ![] bcast_S_S262144 : (⟨S_, .i32⟩ : BufTy).Contents (Elt F) → (⟨S262144, .i32⟩ : BufTy).Contents (Elt F))
  :: StableHlo.binary main_arg0 main_v138 main_v139 (cmpi .slt : (⟨S262144, .i32⟩ : BufTy).Contents (Elt F) → (⟨S262144, .i32⟩ : BufTy).Contents (Elt F) → (⟨S262144, .i1⟩ : BufTy).Contents (Elt F))
  :: StableHlo.nullary main_c_33 (constantI S_ 32 100000#32)
  :: StableHlo.unary main_c_33 main_v140 (broadcastInDim S262144 ![] bcast_S_S262144 : (⟨S_, .i32⟩ : BufTy).Contents (Elt F) → (⟨S262144, .i32⟩ : BufTy).Contents (Elt F))
  :: StableHlo.binary main_arg0 main_v140 main_v141 (addi : (⟨S262144, .i32⟩ : BufTy).Contents (Elt F) → (⟨S262144, .i32⟩ : BufTy).Contents (Elt F) → (⟨S262144, .i32⟩ : BufTy).Contents (Elt F))
  :: StableHlo.ternary main_v139 main_v141 main_arg0 main_v142 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v142 main_v143 (broadcastInDim S262144x1 ![0] bcast_S262144_S262144x1_0 : (⟨S262144, .i32⟩ : BufTy).Contents (Elt F) → (⟨S262144x1, .i32⟩ : BufTy).Contents (Elt F))
  :: StableHlo.binary main_arg18 main_v143 main_v144 ((fun x i => Host.gather gather_S3x100000x64_S262144x1_S3x262144x64_02_1_n_n_1_1_3164 x i) : (⟨S3x100000x64, .f32⟩ : BufTy).Contents (Elt F) → (⟨S262144x1, .i32⟩ : BufTy).Contents (Elt F) → (⟨S3x262144x64, .f32⟩ : BufTy).Contents (Elt F))
  :: StableHlo.unary main_v3 main_v145 (broadcastInDim S3x262144x1 ![0, 1] bcast_S3x262144_S3x262144x1_0_1 : (⟨S3x262144, .f32⟩ : BufTy).Contents (Elt F) → (⟨S3x262144x1, .f32⟩ : BufTy).Contents (Elt F))
  :: StableHlo.unary main_v145 main_v146 (broadcastInDim S3x262144x64 ![0, 1, 2] bcast_S3x262144x1_S3x262144x64_0_1_2 : (⟨S3x262144x1, .f32⟩ : BufTy).Contents (Elt F) → (⟨S3x262144x64, .f32⟩ : BufTy).Contents (Elt F))
  :: StableHlo.binary main_v137 main_v146 main_v147 (mulf : (⟨S3x262144x64, .f32⟩ : BufTy).Contents (Elt F) → (⟨S3x262144x64, .f32⟩ : BufTy).Contents (Elt F) → (⟨S3x262144x64, .f32⟩ : BufTy).Contents (Elt F))
  :: StableHlo.binary main_v147 main_v144 main_v148 (addf : (⟨S3x262144x64, .f32⟩ : BufTy).Contents (Elt F) → (⟨S3x262144x64, .f32⟩ : BufTy).Contents (Elt F) → (⟨S3x262144x64, .f32⟩ : BufTy).Contents (Elt F))
  :: StableHlo.unary main_v148 main_v149 (Host.sin : (⟨S3x262144x64, .f32⟩ : BufTy).Contents (Elt F) → (⟨S3x262144x64, .f32⟩ : BufTy).Contents (Elt F))
  :: StableHlo.binary main_v130 main_v149 main_v150 (mulf : (⟨S3x262144x64, .f32⟩ : BufTy).Contents (Elt F) → (⟨S3x262144x64, .f32⟩ : BufTy).Contents (Elt F) → (⟨S3x262144x64, .f32⟩ : BufTy).Contents (Elt F))
  :: StableHlo.nullary main_cst_34 (constant S_ .f32 0x00000000#32)
  :: StableHlo.binary main_v150 main_cst_34 main_v151 ((fun x v => Host.reduceAdd x v reducesTo_S3x262144x64_S262144x64_d0 h_S_) : (⟨S3x262144x64, .f32⟩ : BufTy).Contents (Elt F) → (⟨S_, .f32⟩ : BufTy).Contents (Elt F) → (⟨S262144x64, .f32⟩ : BufTy).Contents (Elt F))
  :: StableHlo.binary main_v151 main_v11 main_v152 (addf : (⟨S262144x64, .f32⟩ : BufTy).Contents (Elt F) → (⟨S262144x64, .f32⟩ : BufTy).Contents (Elt F) → (⟨S262144x64, .f32⟩ : BufTy).Contents (Elt F))
  :: StableHlo.nullary main_c_35 (constantI S_ 32 0#32)
  :: StableHlo.unary main_c_35 main_v153 (broadcastInDim S262144 ![] bcast_S_S262144 : (⟨S_, .i32⟩ : BufTy).Contents (Elt F) → (⟨S262144, .i32⟩ : BufTy).Contents (Elt F))
  :: StableHlo.binary main_arg0 main_v153 main_v154 (cmpi .slt : (⟨S262144, .i32⟩ : BufTy).Contents (Elt F) → (⟨S262144, .i32⟩ : BufTy).Contents (Elt F) → (⟨S262144, .i1⟩ : BufTy).Contents (Elt F))
  :: StableHlo.nullary main_c_36 (constantI S_ 32 100000#32)
  :: StableHlo.unary main_c_36 main_v155 (broadcastInDim S262144 ![] bcast_S_S262144 : (⟨S_, .i32⟩ : BufTy).Contents (Elt F) → (⟨S262144, .i32⟩ : BufTy).Contents (Elt F))
  :: StableHlo.binary main_arg0 main_v155 main_v156 (addi : (⟨S262144, .i32⟩ : BufTy).Contents (Elt F) → (⟨S262144, .i32⟩ : BufTy).Contents (Elt F) → (⟨S262144, .i32⟩ : BufTy).Contents (Elt F))
  :: StableHlo.ternary main_v154 main_v156 main_arg0 main_v157 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v157 main_v158 (broadcastInDim S262144x1 ![0] bcast_S262144_S262144x1_0 : (⟨S262144, .i32⟩ : BufTy).Contents (Elt F) → (⟨S262144x1, .i32⟩ : BufTy).Contents (Elt F))
  :: StableHlo.binary main_arg7 main_v158 main_v159 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v159 main_v65 main_v160 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.nullary main_c_37 (constantI S_ 32 0#32)
  :: StableHlo.unary main_c_37 main_v161 (broadcastInDim S262144 ![] bcast_S_S262144 : (⟨S_, .i32⟩ : BufTy).Contents (Elt F) → (⟨S262144, .i32⟩ : BufTy).Contents (Elt F))
  :: StableHlo.binary main_arg2 main_v161 main_v162 (cmpi .slt : (⟨S262144, .i32⟩ : BufTy).Contents (Elt F) → (⟨S262144, .i32⟩ : BufTy).Contents (Elt F) → (⟨S262144, .i1⟩ : BufTy).Contents (Elt F))
  :: StableHlo.nullary main_c_38 (constantI S_ 32 100000#32)
  :: StableHlo.unary main_c_38 main_v163 (broadcastInDim S262144 ![] bcast_S_S262144 : (⟨S_, .i32⟩ : BufTy).Contents (Elt F) → (⟨S262144, .i32⟩ : BufTy).Contents (Elt F))
  :: StableHlo.binary main_arg2 main_v163 main_v164 (addi : (⟨S262144, .i32⟩ : BufTy).Contents (Elt F) → (⟨S262144, .i32⟩ : BufTy).Contents (Elt F) → (⟨S262144, .i32⟩ : BufTy).Contents (Elt F))
  :: StableHlo.ternary main_v162 main_v164 main_arg2 main_v165 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v165 main_v166 (broadcastInDim S262144x1 ![0] bcast_S262144_S262144x1_0 : (⟨S262144, .i32⟩ : BufTy).Contents (Elt F) → (⟨S262144x1, .i32⟩ : BufTy).Contents (Elt F))
  :: StableHlo.binary main_arg8 main_v166 main_v167 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v167 main_v94 main_v168 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.nullary main_c_39 (constantI S_ 32 0#32)
  :: StableHlo.unary main_c_39 main_v169 (broadcastInDim S262144 ![] bcast_S_S262144 : (⟨S_, .i32⟩ : BufTy).Contents (Elt F) → (⟨S262144, .i32⟩ : BufTy).Contents (Elt F))
  :: StableHlo.binary main_arg2 main_v169 main_v170 (cmpi .slt : (⟨S262144, .i32⟩ : BufTy).Contents (Elt F) → (⟨S262144, .i32⟩ : BufTy).Contents (Elt F) → (⟨S262144, .i1⟩ : BufTy).Contents (Elt F))
  :: StableHlo.nullary main_c_40 (constantI S_ 32 100000#32)
  :: StableHlo.unary main_c_40 main_v171 (broadcastInDim S262144 ![] bcast_S_S262144 : (⟨S_, .i32⟩ : BufTy).Contents (Elt F) → (⟨S262144, .i32⟩ : BufTy).Contents (Elt F))
  :: StableHlo.binary main_arg2 main_v171 main_v172 (addi : (⟨S262144, .i32⟩ : BufTy).Contents (Elt F) → (⟨S262144, .i32⟩ : BufTy).Contents (Elt F) → (⟨S262144, .i32⟩ : BufTy).Contents (Elt F))
  :: StableHlo.ternary main_v170 main_v172 main_arg2 main_v173 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v173 main_v174 (broadcastInDim S262144x1 ![0] bcast_S262144_S262144x1_0 : (⟨S262144, .i32⟩ : BufTy).Contents (Elt F) → (⟨S262144x1, .i32⟩ : BufTy).Contents (Elt F))
  :: StableHlo.binary main_arg7 main_v174 main_v175 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v175 main_v123 main_v176 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.nullary main_c_41 (constantI S_ 32 0#32)
  :: StableHlo.unary main_c_41 main_v177 (broadcastInDim S262144 ![] bcast_S_S262144 : (⟨S_, .i32⟩ : BufTy).Contents (Elt F) → (⟨S262144, .i32⟩ : BufTy).Contents (Elt F))
  :: StableHlo.binary main_arg0 main_v177 main_v178 (cmpi .slt : (⟨S262144, .i32⟩ : BufTy).Contents (Elt F) → (⟨S262144, .i32⟩ : BufTy).Contents (Elt F) → (⟨S262144, .i1⟩ : BufTy).Contents (Elt F))
  :: StableHlo.nullary main_c_42 (constantI S_ 32 100000#32)
  :: StableHlo.unary main_c_42 main_v179 (broadcastInDim S262144 ![] bcast_S_S262144 : (⟨S_, .i32⟩ : BufTy).Contents (Elt F) → (⟨S262144, .i32⟩ : BufTy).Contents (Elt F))
  :: StableHlo.binary main_arg0 main_v179 main_v180 (addi : (⟨S262144, .i32⟩ : BufTy).Contents (Elt F) → (⟨S262144, .i32⟩ : BufTy).Contents (Elt F) → (⟨S262144, .i32⟩ : BufTy).Contents (Elt F))
  :: StableHlo.ternary main_v178 main_v180 main_arg0 main_v181 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v181 main_v182 (broadcastInDim S262144x1 ![0] bcast_S262144_S262144x1_0 : (⟨S262144, .i32⟩ : BufTy).Contents (Elt F) → (⟨S262144x1, .i32⟩ : BufTy).Contents (Elt F))
  :: StableHlo.binary main_arg8 main_v182 main_v183 ((fun x i => Host.gather gather_S100000x64_S262144x1_S262144x64_1_0_n_n_0_1_164 x i) : (⟨S100000x64, .f32⟩ : BufTy).Contents (Elt F) → (⟨S262144x1, .i32⟩ : BufTy).Contents (Elt F) → (⟨S262144x64, .f32⟩ : BufTy).Contents (Elt F))
  :: StableHlo.binary main_v183 main_v152 main_v184 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F))
  :: StableHlo.binary main_v160 main_v34 main_v185 (mulf : (⟨S262144x128, .f32⟩ : BufTy).Contents (Elt F) → (⟨S262144x128, .f32⟩ : BufTy).Contents (Elt F) → (⟨S262144x128, .f32⟩ : BufTy).Contents (Elt F))
  :: StableHlo.binary main_v185 main_v168 main_v186 (mulf : (⟨S262144x128, .f32⟩ : BufTy).Contents (Elt F) → (⟨S262144x128, .f32⟩ : BufTy).Contents (Elt F) → (⟨S262144x128, .f32⟩ : BufTy).Contents (Elt F))
  :: StableHlo.binary main_v176 main_v36 main_v187 (mulf : (⟨S262144x128, .f32⟩ : BufTy).Contents (Elt F) → (⟨S262144x128, .f32⟩ : BufTy).Contents (Elt F) → (⟨S262144x128, .f32⟩ : BufTy).Contents (Elt F))
  :: StableHlo.binary main_v187 main_v184 main_v188 (mulf : (⟨S262144x128, .f32⟩ : BufTy).Contents (Elt F) → (⟨S262144x128, .f32⟩ : BufTy).Contents (Elt F) → (⟨S262144x128, .f32⟩ : BufTy).Contents (Elt F))
  :: StableHlo.binary main_v186 main_v188 main_v189 (addf : (⟨S262144x128, .f32⟩ : BufTy).Contents (Elt F) → (⟨S262144x128, .f32⟩ : BufTy).Contents (Elt F) → (⟨S262144x128, .f32⟩ : BufTy).Contents (Elt F))
  :: StableHlo.nullary main_cst_43 (constant S_ .f32 0x3F000000#32)
  :: StableHlo.unary main_cst_43 main_v190 (broadcastInDim S262144x128 ![] bcast_S_S262144x128 : (⟨S_, .f32⟩ : BufTy).Contents (Elt F) → (⟨S262144x128, .f32⟩ : BufTy).Contents (Elt F))
  :: StableHlo.binary main_v189 main_v190 main_v191 (mulf : (⟨S262144x128, .f32⟩ : BufTy).Contents (Elt F) → (⟨S262144x128, .f32⟩ : BufTy).Contents (Elt F) → (⟨S262144x128, .f32⟩ : BufTy).Contents (Elt F))
  :: StableHlo.nullary main_cst_44 (constant S_ .f32 0x00000000#32)
  :: StableHlo.binary main_v191 main_cst_44 main_v192 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F))
  :: [] )

/-- The whole line is the four windows' lines one after the other. -/
theorem ops_eq : (ops : List (HloOp τ sig (Elt F))) = ops0 ++ (ops1 ++ (ops2 ++ ops3)) := by chain_rfl

/-- Each window of @main is its line of operations: both sides unfold to the same chain of steps, the called
    functions' bodies at their calls, the records at their fields. -/
theorem part0_eq (c : Dev nD) : main_part0 (F := F) c = seq ops0 := by chain_rfl
theorem part1_eq (c : Dev nD) : main_part1 (F := F) c = seq ops1 := by chain_rfl
theorem part2_eq (c : Dev nD) : main_part2 (F := F) c = seq ops2 := by chain_rfl
theorem part3_eq (c : Dev nD) : main_part3 (F := F) c = seq ops3 := by chain_rfl

/-- @main is that straight line: its windows in order, the last one the bare return. -/
theorem main_eq (c : Dev nD) : main (F := F) c = seq ops := by
  have h4 : (main_part3 (F := F) c >>= fun _ => main_part4 (F := F) c) = main_part3 (F := F) c := bind_pure _
  show (main_part0 (F := F) c >>= fun _ => main_part1 (F := F) c >>= fun _ => main_part2 (F := F) c >>= fun _ =>
    main_part3 (F := F) c >>= fun _ => main_part4 (F := F) c) = _
  rw [h4, part0_eq, part1_eq, part2_eq, part3_eq, ops_eq, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

set_option maxHeartbeats 40000000 in
/-- Each operation touches TensorCore references only. -/
theorem ops_sub : (ops : List (HloOp τ sig (Elt F))).Forall fun op => op.bufs ⊆ tcRefs τ sig :=
  ⟨unary_bufs_sub .., unary_bufs_sub .., unary_bufs_sub .., nary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., unary_bufs_sub .., binary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., binary_bufs_sub ..⟩

set_option maxHeartbeats 40000000 in
/-- Every operation determines its result: none leaves a buffer as allocated. -/
theorem ops_fresh : ∀ op ∈ (ops : List (HloOp τ sig (Elt F))), op.fresh = ∅ :=
  List.forall_iff_forall_mem.mp
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- On every device, for any float values, from any memory with zero counters: every weakly fair execution of
    @main terminates, and every final state has each TensorCore buffer at the fold of the operations' results
    over its launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  run_seq scopedRefs_eq scopedSems_eq defs main (fun _ => ops) main_eq (fun _ => ops_sub) m ρ (fun _ => ops_fresh)

end Cert.ReferenceIdeal.RefRun

end
-- ==== Proof.RefArgs.lean ====
/- The reference program's line of operations writes none of @main's nineteen arguments: after it each argument's
   buffer holds what it held at launch. One pass over the line lists the reference every operation writes; an
   argument is then kept because it is not in that list. -/
import proofs.«129495_j14431090114916_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference each operation of the line writes (its result's buffer), in the line's order. -/
abbrev written : List (Ref sig .tc) :=
  [ main_v0, main_v1, main_v2, main_v3, main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_c_0, main_v5, main_v6, main_c_1, main_v7, main_v8, main_v9, main_v10, main_v11, main_c_2, main_v12, main_v13, main_c_3, main_v14, main_v15, main_v16, main_v17, main_v18, main_c_4, main_v19, main_v20, main_c_5, main_v21, main_v22, main_v23, main_v24, main_v25, main_c_6, main_v26, main_v27, main_c_7, main_v28, main_v29, main_v30, main_v31, main_v32, main_v33, main_v34, main_v35, main_v36, main_c_8, main_v37, main_v38, main_c_9, main_v39, main_v40, main_v41, main_v42, main_v43, main_c_10, main_v44, main_v45, main_c_11, main_v46, main_v47, main_v48, main_v49, main_v50, main_c_12, main_v51, main_v52, main_c_13, main_v53, main_v54, main_v55, main_v56, main_v57, main_v58, main_v59, main_v60, main_v61, main_v62, main_v63, main_cst, main_v64, main_v65, main_c_14, main_v66, main_v67, main_c_15, main_v68, main_v69, main_v70, main_v71, main_v72, main_c_16, main_v73, main_v74, main_c_17, main_v75, main_v76, main_v77, main_v78, main_v79, main_c_18, main_v80, main_v81, main_c_19, main_v82, main_v83, main_v84, main_v85, main_v86, main_v87, main_v88, main_v89, main_v90, main_v91, main_v92, main_cst_20, main_v93, main_v94, main_c_21, main_v95, main_v96, main_c_22, main_v97, main_v98, main_v99, main_v100, main_v101, main_c_23, main_v102, main_v103, main_c_24, main_v104, main_v105, main_v106, main_v107, main_v108, main_c_25, main_v109, main_v110, main_c_26, main_v111, main_v112, main_v113, main_v114, main_v115, main_v116, main_v117, main_v118, main_v119, main_v120, main_v121, main_cst_27, main_v122, main_v123, main_c_28, main_v124, main_v125, main_c_29, main_v126, main_v127, main_v128, main_v129, main_v130, main_c_30, main_v131, main_v132, main_c_31, main_v133, main_v134, main_v135, main_v136, main_v137, main_c_32, main_v138, main_v139, main_c_33, main_v140, main_v141, main_v142, main_v143, main_v144, main_v145, main_v146, main_v147, main_v148, main_v149, main_v150, main_cst_34, main_v151, main_v152, main_c_35, main_v153, main_v154, main_c_36, main_v155, main_v156, main_v157, main_v158, main_v159, main_v160, main_c_37, main_v161, main_v162, main_c_38, main_v163, main_v164, main_v165, main_v166, main_v167, main_v168, main_c_39, main_v169, main_v170, main_c_40, main_v171, main_v172, main_v173, main_v174, main_v175, main_v176, main_c_41, main_v177, main_v178, main_c_42, main_v179, main_v180, main_v181, main_v182, main_v183, main_v184, main_v185, main_v186, main_v187, main_v188, main_v189, main_cst_43, main_v190, main_v191, main_cst_44, main_v192 ]

/-- A listed reference's buffer, alone, is within the listed buffers. -/
theorem single_sub_written {y : Ref sig .tc} (hy : y ∈ written) :
    ({Proc.devRef .tc y} : Finset (DevRef τ sig)) ⊆ (written.map (Proc.devRef (τ := τ) .tc)).toFinset :=
  Finset.singleton_subset_iff.mpr (List.mem_toFinset.mpr (List.mem_map.mpr ⟨y, hy, rfl⟩))

set_option maxHeartbeats 40000000 in
/-- Every operation of the line writes its result's buffer only, a listed one. -/
theorem ops_writes : (ops : List (HloOp τ sig (Elt F))).Forall fun op =>
    op.writes ⊆ (written.map (Proc.devRef (τ := τ) .tc)).toFinset :=
  ⟨single_sub_written (y := main_v0) (by decide),
   single_sub_written (y := main_v1) (by decide),
   single_sub_written (y := main_v2) (by decide),
   single_sub_written (y := main_v3) (by decide),
   single_sub_written (y := main_c) (by decide),
   single_sub_written (y := main_call0_v0) (by decide),
   single_sub_written (y := main_call0_v1) (by decide),
   single_sub_written (y := main_call0_v2) (by decide),
   single_sub_written (y := main_call0_v3) (by decide),
   single_sub_written (y := main_call0_v4) (by decide),
   single_sub_written (y := main_call0_v5) (by decide),
   single_sub_written (y := main_call0_v6) (by decide),
   single_sub_written (y := main_call0_v7) (by decide),
   single_sub_written (y := main_call0_v8) (by decide),
   single_sub_written (y := main_call0_c) (by decide),
   single_sub_written (y := main_call0_v9) (by decide),
   single_sub_written (y := main_call0_v10) (by decide),
   single_sub_written (y := main_call0_v11) (by decide),
   single_sub_written (y := main_call0_c_0) (by decide),
   single_sub_written (y := main_call0_v12) (by decide),
   single_sub_written (y := main_call0_v13) (by decide),
   single_sub_written (y := main_v4) (by decide),
   single_sub_written (y := main_c_0) (by decide),
   single_sub_written (y := main_v5) (by decide),
   single_sub_written (y := main_v6) (by decide),
   single_sub_written (y := main_c_1) (by decide),
   single_sub_written (y := main_v7) (by decide),
   single_sub_written (y := main_v8) (by decide),
   single_sub_written (y := main_v9) (by decide),
   single_sub_written (y := main_v10) (by decide),
   single_sub_written (y := main_v11) (by decide),
   single_sub_written (y := main_c_2) (by decide),
   single_sub_written (y := main_v12) (by decide),
   single_sub_written (y := main_v13) (by decide),
   single_sub_written (y := main_c_3) (by decide),
   single_sub_written (y := main_v14) (by decide),
   single_sub_written (y := main_v15) (by decide),
   single_sub_written (y := main_v16) (by decide),
   single_sub_written (y := main_v17) (by decide),
   single_sub_written (y := main_v18) (by decide),
   single_sub_written (y := main_c_4) (by decide),
   single_sub_written (y := main_v19) (by decide),
   single_sub_written (y := main_v20) (by decide),
   single_sub_written (y := main_c_5) (by decide),
   single_sub_written (y := main_v21) (by decide),
   single_sub_written (y := main_v22) (by decide),
   single_sub_written (y := main_v23) (by decide),
   single_sub_written (y := main_v24) (by decide),
   single_sub_written (y := main_v25) (by decide),
   single_sub_written (y := main_c_6) (by decide),
   single_sub_written (y := main_v26) (by decide),
   single_sub_written (y := main_v27) (by decide),
   single_sub_written (y := main_c_7) (by decide),
   single_sub_written (y := main_v28) (by decide),
   single_sub_written (y := main_v29) (by decide),
   single_sub_written (y := main_v30) (by decide),
   single_sub_written (y := main_v31) (by decide),
   single_sub_written (y := main_v32) (by decide),
   single_sub_written (y := main_v33) (by decide),
   single_sub_written (y := main_v34) (by decide),
   single_sub_written (y := main_v35) (by decide),
   single_sub_written (y := main_v36) (by decide),
   single_sub_written (y := main_c_8) (by decide),
   single_sub_written (y := main_v37) (by decide),
   single_sub_written (y := main_v38) (by decide),
   single_sub_written (y := main_c_9) (by decide),
   single_sub_written (y := main_v39) (by decide),
   single_sub_written (y := main_v40) (by decide),
   single_sub_written (y := main_v41) (by decide),
   single_sub_written (y := main_v42) (by decide),
   single_sub_written (y := main_v43) (by decide),
   single_sub_written (y := main_c_10) (by decide),
   single_sub_written (y := main_v44) (by decide),
   single_sub_written (y := main_v45) (by decide),
   single_sub_written (y := main_c_11) (by decide),
   single_sub_written (y := main_v46) (by decide),
   single_sub_written (y := main_v47) (by decide),
   single_sub_written (y := main_v48) (by decide),
   single_sub_written (y := main_v49) (by decide),
   single_sub_written (y := main_v50) (by decide),
   single_sub_written (y := main_c_12) (by decide),
   single_sub_written (y := main_v51) (by decide),
   single_sub_written (y := main_v52) (by decide),
   single_sub_written (y := main_c_13) (by decide),
   single_sub_written (y := main_v53) (by decide),
   single_sub_written (y := main_v54) (by decide),
   single_sub_written (y := main_v55) (by decide),
   single_sub_written (y := main_v56) (by decide),
   single_sub_written (y := main_v57) (by decide),
   single_sub_written (y := main_v58) (by decide),
   single_sub_written (y := main_v59) (by decide),
   single_sub_written (y := main_v60) (by decide),
   single_sub_written (y := main_v61) (by decide),
   single_sub_written (y := main_v62) (by decide),
   single_sub_written (y := main_v63) (by decide),
   single_sub_written (y := main_cst) (by decide),
   single_sub_written (y := main_v64) (by decide),
   single_sub_written (y := main_v65) (by decide),
   single_sub_written (y := main_c_14) (by decide),
   single_sub_written (y := main_v66) (by decide),
   single_sub_written (y := main_v67) (by decide),
   single_sub_written (y := main_c_15) (by decide),
   single_sub_written (y := main_v68) (by decide),
   single_sub_written (y := main_v69) (by decide),
   single_sub_written (y := main_v70) (by decide),
   single_sub_written (y := main_v71) (by decide),
   single_sub_written (y := main_v72) (by decide),
   single_sub_written (y := main_c_16) (by decide),
   single_sub_written (y := main_v73) (by decide),
   single_sub_written (y := main_v74) (by decide),
   single_sub_written (y := main_c_17) (by decide),
   single_sub_written (y := main_v75) (by decide),
   single_sub_written (y := main_v76) (by decide),
   single_sub_written (y := main_v77) (by decide),
   single_sub_written (y := main_v78) (by decide),
   single_sub_written (y := main_v79) (by decide),
   single_sub_written (y := main_c_18) (by decide),
   single_sub_written (y := main_v80) (by decide),
   single_sub_written (y := main_v81) (by decide),
   single_sub_written (y := main_c_19) (by decide),
   single_sub_written (y := main_v82) (by decide),
   single_sub_written (y := main_v83) (by decide),
   single_sub_written (y := main_v84) (by decide),
   single_sub_written (y := main_v85) (by decide),
   single_sub_written (y := main_v86) (by decide),
   single_sub_written (y := main_v87) (by decide),
   single_sub_written (y := main_v88) (by decide),
   single_sub_written (y := main_v89) (by decide),
   single_sub_written (y := main_v90) (by decide),
   single_sub_written (y := main_v91) (by decide),
   single_sub_written (y := main_v92) (by decide),
   single_sub_written (y := main_cst_20) (by decide),
   single_sub_written (y := main_v93) (by decide),
   single_sub_written (y := main_v94) (by decide),
   single_sub_written (y := main_c_21) (by decide),
   single_sub_written (y := main_v95) (by decide),
   single_sub_written (y := main_v96) (by decide),
   single_sub_written (y := main_c_22) (by decide),
   single_sub_written (y := main_v97) (by decide),
   single_sub_written (y := main_v98) (by decide),
   single_sub_written (y := main_v99) (by decide),
   single_sub_written (y := main_v100) (by decide),
   single_sub_written (y := main_v101) (by decide),
   single_sub_written (y := main_c_23) (by decide),
   single_sub_written (y := main_v102) (by decide),
   single_sub_written (y := main_v103) (by decide),
   single_sub_written (y := main_c_24) (by decide),
   single_sub_written (y := main_v104) (by decide),
   single_sub_written (y := main_v105) (by decide),
   single_sub_written (y := main_v106) (by decide),
   single_sub_written (y := main_v107) (by decide),
   single_sub_written (y := main_v108) (by decide),
   single_sub_written (y := main_c_25) (by decide),
   single_sub_written (y := main_v109) (by decide),
   single_sub_written (y := main_v110) (by decide),
   single_sub_written (y := main_c_26) (by decide),
   single_sub_written (y := main_v111) (by decide),
   single_sub_written (y := main_v112) (by decide),
   single_sub_written (y := main_v113) (by decide),
   single_sub_written (y := main_v114) (by decide),
   single_sub_written (y := main_v115) (by decide),
   single_sub_written (y := main_v116) (by decide),
   single_sub_written (y := main_v117) (by decide),
   single_sub_written (y := main_v118) (by decide),
   single_sub_written (y := main_v119) (by decide),
   single_sub_written (y := main_v120) (by decide),
   single_sub_written (y := main_v121) (by decide),
   single_sub_written (y := main_cst_27) (by decide),
   single_sub_written (y := main_v122) (by decide),
   single_sub_written (y := main_v123) (by decide),
   single_sub_written (y := main_c_28) (by decide),
   single_sub_written (y := main_v124) (by decide),
   single_sub_written (y := main_v125) (by decide),
   single_sub_written (y := main_c_29) (by decide),
   single_sub_written (y := main_v126) (by decide),
   single_sub_written (y := main_v127) (by decide),
   single_sub_written (y := main_v128) (by decide),
   single_sub_written (y := main_v129) (by decide),
   single_sub_written (y := main_v130) (by decide),
   single_sub_written (y := main_c_30) (by decide),
   single_sub_written (y := main_v131) (by decide),
   single_sub_written (y := main_v132) (by decide),
   single_sub_written (y := main_c_31) (by decide),
   single_sub_written (y := main_v133) (by decide),
   single_sub_written (y := main_v134) (by decide),
   single_sub_written (y := main_v135) (by decide),
   single_sub_written (y := main_v136) (by decide),
   single_sub_written (y := main_v137) (by decide),
   single_sub_written (y := main_c_32) (by decide),
   single_sub_written (y := main_v138) (by decide),
   single_sub_written (y := main_v139) (by decide),
   single_sub_written (y := main_c_33) (by decide),
   single_sub_written (y := main_v140) (by decide),
   single_sub_written (y := main_v141) (by decide),
   single_sub_written (y := main_v142) (by decide),
   single_sub_written (y := main_v143) (by decide),
   single_sub_written (y := main_v144) (by decide),
   single_sub_written (y := main_v145) (by decide),
   single_sub_written (y := main_v146) (by decide),
   single_sub_written (y := main_v147) (by decide),
   single_sub_written (y := main_v148) (by decide),
   single_sub_written (y := main_v149) (by decide),
   single_sub_written (y := main_v150) (by decide),
   single_sub_written (y := main_cst_34) (by decide),
   single_sub_written (y := main_v151) (by decide),
   single_sub_written (y := main_v152) (by decide),
   single_sub_written (y := main_c_35) (by decide),
   single_sub_written (y := main_v153) (by decide),
   single_sub_written (y := main_v154) (by decide),
   single_sub_written (y := main_c_36) (by decide),
   single_sub_written (y := main_v155) (by decide),
   single_sub_written (y := main_v156) (by decide),
   single_sub_written (y := main_v157) (by decide),
   single_sub_written (y := main_v158) (by decide),
   single_sub_written (y := main_v159) (by decide),
   single_sub_written (y := main_v160) (by decide),
   single_sub_written (y := main_c_37) (by decide),
   single_sub_written (y := main_v161) (by decide),
   single_sub_written (y := main_v162) (by decide),
   single_sub_written (y := main_c_38) (by decide),
   single_sub_written (y := main_v163) (by decide),
   single_sub_written (y := main_v164) (by decide),
   single_sub_written (y := main_v165) (by decide),
   single_sub_written (y := main_v166) (by decide),
   single_sub_written (y := main_v167) (by decide),
   single_sub_written (y := main_v168) (by decide),
   single_sub_written (y := main_c_39) (by decide),
   single_sub_written (y := main_v169) (by decide),
   single_sub_written (y := main_v170) (by decide),
   single_sub_written (y := main_c_40) (by decide),
   single_sub_written (y := main_v171) (by decide),
   single_sub_written (y := main_v172) (by decide),
   single_sub_written (y := main_v173) (by decide),
   single_sub_written (y := main_v174) (by decide),
   single_sub_written (y := main_v175) (by decide),
   single_sub_written (y := main_v176) (by decide),
   single_sub_written (y := main_c_41) (by decide),
   single_sub_written (y := main_v177) (by decide),
   single_sub_written (y := main_v178) (by decide),
   single_sub_written (y := main_c_42) (by decide),
   single_sub_written (y := main_v179) (by decide),
   single_sub_written (y := main_v180) (by decide),
   single_sub_written (y := main_v181) (by decide),
   single_sub_written (y := main_v182) (by decide),
   single_sub_written (y := main_v183) (by decide),
   single_sub_written (y := main_v184) (by decide),
   single_sub_written (y := main_v185) (by decide),
   single_sub_written (y := main_v186) (by decide),
   single_sub_written (y := main_v187) (by decide),
   single_sub_written (y := main_v188) (by decide),
   single_sub_written (y := main_v189) (by decide),
   single_sub_written (y := main_cst_43) (by decide),
   single_sub_written (y := main_v190) (by decide),
   single_sub_written (y := main_v191) (by decide),
   single_sub_written (y := main_cst_44) (by decide),
   single_sub_written (y := main_v192) (by decide)⟩

theorem kept_main_arg0 (m : (ℓ : Loc nD τ sig) → Buf (Elt F) ℓ) (c : Dev nD) :
    StableHlo.after ops (StableHlo.launchContents m c) (Proc.devRef .tc main_arg0) = m ((c.tc : Thread nD τ).loc main_arg0) :=
  after_of_writes_sub (r := main_arg0) ops _ ops_writes (by decide)

theorem kept_main_arg1 (m : (ℓ : Loc nD τ sig) → Buf (Elt F) ℓ) (c : Dev nD) :
    StableHlo.after ops (StableHlo.launchContents m c) (Proc.devRef .tc main_arg1) = m ((c.tc : Thread nD τ).loc main_arg1) :=
  after_of_writes_sub (r := main_arg1) ops _ ops_writes (by decide)

theorem kept_main_arg2 (m : (ℓ : Loc nD τ sig) → Buf (Elt F) ℓ) (c : Dev nD) :
    StableHlo.after ops (StableHlo.launchContents m c) (Proc.devRef .tc main_arg2) = m ((c.tc : Thread nD τ).loc main_arg2) :=
  after_of_writes_sub (r := main_arg2) ops _ ops_writes (by decide)

theorem kept_main_arg3 (m : (ℓ : Loc nD τ sig) → Buf (Elt F) ℓ) (c : Dev nD) :
    StableHlo.after ops (StableHlo.launchContents m c) (Proc.devRef .tc main_arg3) = m ((c.tc : Thread nD τ).loc main_arg3) :=
  after_of_writes_sub (r := main_arg3) ops _ ops_writes (by decide)

theorem kept_main_arg4 (m : (ℓ : Loc nD τ sig) → Buf (Elt F) ℓ) (c : Dev nD) :
    StableHlo.after ops (StableHlo.launchContents m c) (Proc.devRef .tc main_arg4) = m ((c.tc : Thread nD τ).loc main_arg4) :=
  after_of_writes_sub (r := main_arg4) ops _ ops_writes (by decide)

theorem kept_main_arg5 (m : (ℓ : Loc nD τ sig) → Buf (Elt F) ℓ) (c : Dev nD) :
    StableHlo.after ops (StableHlo.launchContents m c) (Proc.devRef .tc main_arg5) = m ((c.tc : Thread nD τ).loc main_arg5) :=
  after_of_writes_sub (r := main_arg5) ops _ ops_writes (by decide)

theorem kept_main_arg6 (m : (ℓ : Loc nD τ sig) → Buf (Elt F) ℓ) (c : Dev nD) :
    StableHlo.after ops (StableHlo.launchContents m c) (Proc.devRef .tc main_arg6) = m ((c.tc : Thread nD τ).loc main_arg6) :=
  after_of_writes_sub (r := main_arg6) ops _ ops_writes (by decide)

theorem kept_main_arg7 (m : (ℓ : Loc nD τ sig) → Buf (Elt F) ℓ) (c : Dev nD) :
    StableHlo.after ops (StableHlo.launchContents m c) (Proc.devRef .tc main_arg7) = m ((c.tc : Thread nD τ).loc main_arg7) :=
  after_of_writes_sub (r := main_arg7) ops _ ops_writes (by decide)

theorem kept_main_arg8 (m : (ℓ : Loc nD τ sig) → Buf (Elt F) ℓ) (c : Dev nD) :
    StableHlo.after ops (StableHlo.launchContents m c) (Proc.devRef .tc main_arg8) = m ((c.tc : Thread nD τ).loc main_arg8) :=
  after_of_writes_sub (r := main_arg8) ops _ ops_writes (by decide)

theorem kept_main_arg9 (m : (ℓ : Loc nD τ sig) → Buf (Elt F) ℓ) (c : Dev nD) :
    StableHlo.after ops (StableHlo.launchContents m c) (Proc.devRef .tc main_arg9) = m ((c.tc : Thread nD τ).loc main_arg9) :=
  after_of_writes_sub (r := main_arg9) ops _ ops_writes (by decide)

theorem kept_main_arg10 (m : (ℓ : Loc nD τ sig) → Buf (Elt F) ℓ) (c : Dev nD) :
    StableHlo.after ops (StableHlo.launchContents m c) (Proc.devRef .tc main_arg10) = m ((c.tc : Thread nD τ).loc main_arg10) :=
  after_of_writes_sub (r := main_arg10) ops _ ops_writes (by decide)

theorem kept_main_arg11 (m : (ℓ : Loc nD τ sig) → Buf (Elt F) ℓ) (c : Dev nD) :
    StableHlo.after ops (StableHlo.launchContents m c) (Proc.devRef .tc main_arg11) = m ((c.tc : Thread nD τ).loc main_arg11) :=
  after_of_writes_sub (r := main_arg11) ops _ ops_writes (by decide)

theorem kept_main_arg12 (m : (ℓ : Loc nD τ sig) → Buf (Elt F) ℓ) (c : Dev nD) :
    StableHlo.after ops (StableHlo.launchContents m c) (Proc.devRef .tc main_arg12) = m ((c.tc : Thread nD τ).loc main_arg12) :=
  after_of_writes_sub (r := main_arg12) ops _ ops_writes (by decide)

theorem kept_main_arg13 (m : (ℓ : Loc nD τ sig) → Buf (Elt F) ℓ) (c : Dev nD) :
    StableHlo.after ops (StableHlo.launchContents m c) (Proc.devRef .tc main_arg13) = m ((c.tc : Thread nD τ).loc main_arg13) :=
  after_of_writes_sub (r := main_arg13) ops _ ops_writes (by decide)

theorem kept_main_arg14 (m : (ℓ : Loc nD τ sig) → Buf (Elt F) ℓ) (c : Dev nD) :
    StableHlo.after ops (StableHlo.launchContents m c) (Proc.devRef .tc main_arg14) = m ((c.tc : Thread nD τ).loc main_arg14) :=
  after_of_writes_sub (r := main_arg14) ops _ ops_writes (by decide)

theorem kept_main_arg15 (m : (ℓ : Loc nD τ sig) → Buf (Elt F) ℓ) (c : Dev nD) :
    StableHlo.after ops (StableHlo.launchContents m c) (Proc.devRef .tc main_arg15) = m ((c.tc : Thread nD τ).loc main_arg15) :=
  after_of_writes_sub (r := main_arg15) ops _ ops_writes (by decide)

theorem kept_main_arg16 (m : (ℓ : Loc nD τ sig) → Buf (Elt F) ℓ) (c : Dev nD) :
    StableHlo.after ops (StableHlo.launchContents m c) (Proc.devRef .tc main_arg16) = m ((c.tc : Thread nD τ).loc main_arg16) :=
  after_of_writes_sub (r := main_arg16) ops _ ops_writes (by decide)

theorem kept_main_arg17 (m : (ℓ : Loc nD τ sig) → Buf (Elt F) ℓ) (c : Dev nD) :
    StableHlo.after ops (StableHlo.launchContents m c) (Proc.devRef .tc main_arg17) = m ((c.tc : Thread nD τ).loc main_arg17) :=
  after_of_writes_sub (r := main_arg17) ops _ ops_writes (by decide)

theorem kept_main_arg18 (m : (ℓ : Loc nD τ sig) → Buf (Elt F) ℓ) (c : Dev nD) :
    StableHlo.after ops (StableHlo.launchContents m c) (Proc.devRef .tc main_arg18) = m ((c.tc : Thread nD τ).loc main_arg18) :=
  after_of_writes_sub (r := main_arg18) ops _ ops_writes (by decide)

end Cert.ReferenceIdeal.RefRun

end
-- ==== Proof.ConcatArgs.lean ====
/-
  Concatenations of two, three and four vectors along an axis with the pieces as plain arguments: the same function
  as the library's `concatenate` of the list of (shape, vector) pairs, in a form whose operands can be rewritten
  one by one.
-/
import Idealize.ShloMosaic.PureOps.Ideal

noncomputable section

namespace Cert.ConcatArgs

open Idealize.ShloMosaic

variable {α : Type}

def cat2 (t : Shape) (a : Fin t.rank) (s₁ s₂ : Shape) (h : Shape.Concatenates [s₁, s₂] t a)
    (v : s₁.Idx → α) (w : s₂.Idx → α) : t.Idx → α := concatenate t a [⟨s₁, v⟩, ⟨s₂, w⟩] h

def cat3 (t : Shape) (a : Fin t.rank) (s₁ s₂ s₃ : Shape) (h : Shape.Concatenates [s₁, s₂, s₃] t a)
    (u : s₁.Idx → α) (v : s₂.Idx → α) (w : s₃.Idx → α) : t.Idx → α := concatenate t a [⟨s₁, u⟩, ⟨s₂, v⟩, ⟨s₃, w⟩] h

def cat4 (t : Shape) (a : Fin t.rank) (s₁ s₂ s₃ s₄ : Shape) (h : Shape.Concatenates [s₁, s₂, s₃, s₄] t a)
    (u : s₁.Idx → α) (v : s₂.Idx → α) (w : s₃.Idx → α) (x : s₄.Idx → α) : t.Idx → α :=
  concatenate t a [⟨s₁, u⟩, ⟨s₂, v⟩, ⟨s₃, w⟩, ⟨s₄, x⟩] h

theorem concatenate_two (t : Shape) (a : Fin t.rank) (s₁ s₂ : Shape) (h : Shape.Concatenates [s₁, s₂] t a)
    (v : s₁.Idx → α) (w : s₂.Idx → α) : concatenate t a [⟨s₁, v⟩, ⟨s₂, w⟩] h = cat2 t a s₁ s₂ h v w := rfl

end Cert.ConcatArgs

end
-- ==== Proof.ScoreMath.lean ====
/-
  The arithmetic that joins the two programs, on the extended reals.

  Per query row the kernel computes  (∑ over 256 lanes of a·r·c) · ½  over three packed rows, and the reference
  ∑ over 128 lanes of ((h₁·r₁·t₁ + h₂·r₂·t₂) · ½).  Cutting the 256 lanes into four runs of 64 and the 128 lanes into
  two runs of 64, both are the sum over q < 64 of the same four products, once multiplied by ½ after the sum and once
  term by term.  Multiplication by a nonnegative finite constant distributes over every sum of extended reals
  (also when infinities of both signs meet), so the two agree without any finiteness of the summands.
-/
import Idealize.ShloMosaic.PureOps.Ideal
import Mathlib.Data.EReal.Operations
import Mathlib.Algebra.BigOperators.Fin

noncomputable section

open scoped BigOperators

namespace Cert.ScoreMath

open Idealize.ShloMosaic

/-- The float pattern of one half denotes the real 1/2. -/
theorem half_eq : Ideal.ofBits .f32 0x3F000000#32 = ((1 / 2 : ℝ) : EReal) := by
  simp [Ideal.ofBits, Ideal.ieee, -EReal.coe_mul]; norm_num

theorem half_nonneg : (0 : EReal) ≤ Ideal.ofBits .f32 0x3F000000#32 := by
  rw [half_eq]; exact EReal.coe_nonneg.mpr (by norm_num)

theorem half_ne_top : (Ideal.ofBits .f32 0x3F000000#32 : EReal) ≠ ⊤ := by
  rw [half_eq]; exact EReal.coe_ne_top _

/-- A nonnegative finite factor goes inside a finite sum of extended reals. -/
theorem sum_mul_const {ι : Type} (s : Finset ι) (f : ι → EReal) (k : EReal) (h0 : 0 ≤ k) (ht : k ≠ ⊤) :
    (∑ i ∈ s, f i) * k = ∑ i ∈ s, f i * k := by
  classical
  induction s using Finset.induction_on with
  | empty => simp
  | insert a s ha ih =>
    rw [Finset.sum_insert ha, Finset.sum_insert ha, EReal.right_distrib_of_nonneg_of_ne_top h0 ht, ih]

/-- A sum over n = 2K lanes is the sum over q < K of lane q and lane K + q. -/
theorem sum_halves {M : Type} [AddCommMonoid M] (n K : Nat) (hn : n = K + K) (g : Fin n → M) :
    ∑ j, g j = ∑ q : Fin K, (g ⟨q.val, by have := q.isLt; omega⟩ + g ⟨K + q.val, by have := q.isLt; omega⟩) := by
  subst hn
  rw [Fin.sum_univ_add, Finset.sum_add_distrib]
  rfl

/-- 128 lanes as two runs of 64. -/
theorem sum_128 {M : Type} [AddCommMonoid M] (g : Fin 128 → M) :
    ∑ j, g j = ∑ q : Fin 64, (g ⟨q.val, by have := q.isLt; omega⟩ + g ⟨64 + q.val, by have := q.isLt; omega⟩) :=
  sum_halves 128 64 rfl g

/-- 256 lanes as four runs of 64. -/
theorem sum_256 {M : Type} [AddCommMonoid M] (g : Fin 256 → M) :
    ∑ j, g j = ∑ q : Fin 64, (g ⟨q.val, by have := q.isLt; omega⟩ + g ⟨64 + q.val, by have := q.isLt; omega⟩
      + g ⟨128 + q.val, by have := q.isLt; omega⟩ + g ⟨192 + q.val, by have := q.isLt; omega⟩) := by
  rw [sum_halves 256 128 rfl g,
    sum_128 (fun j : Fin 128 => g ⟨j.val, by have := j.isLt; omega⟩ + g ⟨128 + j.val, by have := j.isLt; omega⟩)]
  refine Finset.sum_congr rfl fun q _ => ?_
  have e : (⟨128 + (64 + q.val), by have := q.isLt; omega⟩ : Fin 256) = ⟨192 + q.val, by have := q.isLt; omega⟩ :=
    Fin.ext (by show 128 + (64 + q.val) = 192 + q.val; omega)
  show g _ + g _ + (g _ + g ⟨128 + (64 + q.val), _⟩) = _
  rw [e]
  abel

/-- THE LAW. For one query row: the four products summed over q < 64 and then halved are the reference's
    128-lane sum of halved pair sums, started from zero. -/
theorem row_law (p1 p2 p3 p4 : Fin 64 → EReal) (k : EReal) (h0 : 0 ≤ k) (ht : k ≠ ⊤) :
    (∑ q : Fin 64, (p1 q + p2 q + p3 q + p4 q)) * k
      = 0 + ∑ q : Fin 64, ((p1 q + p2 q) * k + (p3 q + p4 q) * k) := by
  rw [zero_add, sum_mul_const _ _ _ h0 ht]
  refine Finset.sum_congr rfl fun q _ => ?_
  rw [add_assoc (p1 q + p2 q), EReal.right_distrib_of_nonneg_of_ne_top h0 ht]

end Cert.ScoreMath

end
-- ==== Proof.LibConcatCols.lean ====
/-
  A concatenation of N matrices of one shape [n, K] along the columns, read at an entry (p, c): the piece that holds
  column c, at its own column.  Stated for N = 2 and N = 4 at any extents n, K and any result width W that the
  concatenation's shape fact admits.
-/
import Idealize.ShloMosaic.Lib.Pipeline.Value
import Idealize.ShloMosaic.Lib.ValueIdx

noncomputable section

namespace Cert.LibConcatCols

open Idealize.ShloMosaic Idealize.ShloMosaic.ValueIdx

/-- Piece 0 of 2: column `0·K + q` of the concatenation is column `q` of piece 0. -/
theorem cat2_piece0 {α : Type} {n K W : Nat} (x0 x1 : (⟨2, ![n, K]⟩ : Shape).Idx → α)
    (h : Shape.Concatenates (([⟨⟨2, ![n, K]⟩, x0⟩, ⟨⟨2, ![n, K]⟩, x1⟩] : List ((s : Shape) × (s.Idx → α))).map (·.1)) ⟨2, ![n, W]⟩ 1)
    (p : Fin n) (q : Fin K) (c : Fin W) (hc : c.val = q.val) :
    concatenate ⟨2, ![n, W]⟩ 1 [⟨⟨2, ![n, K]⟩, x0⟩, ⟨⟨2, ![n, K]⟩, x1⟩] h (ix2 p c) = x0 (ix2 p q) := by
  refine concatenate_apply_piece (1 : Fin 2) _ h (ix2 p c) 0 (by simp) ⟨2, ![n, K]⟩ x0 rfl rfl (0) (by simp) (ix2 p q)
    (fun b hb => ?_) ?_
  · match b with
    | ⟨0, _⟩ => rfl
    | ⟨1, _⟩ => exact absurd rfl hb
  · show 0 + q.val = c.val
    omega

/-- Piece 1 of 2: column `1·K + q` of the concatenation is column `q` of piece 1. -/
theorem cat2_piece1 {α : Type} {n K W : Nat} (x0 x1 : (⟨2, ![n, K]⟩ : Shape).Idx → α)
    (h : Shape.Concatenates (([⟨⟨2, ![n, K]⟩, x0⟩, ⟨⟨2, ![n, K]⟩, x1⟩] : List ((s : Shape) × (s.Idx → α))).map (·.1)) ⟨2, ![n, W]⟩ 1)
    (p : Fin n) (q : Fin K) (c : Fin W) (hc : c.val = 1 * K + q.val) :
    concatenate ⟨2, ![n, W]⟩ 1 [⟨⟨2, ![n, K]⟩, x0⟩, ⟨⟨2, ![n, K]⟩, x1⟩] h (ix2 p c) = x1 (ix2 p q) := by
  refine concatenate_apply_piece (1 : Fin 2) _ h (ix2 p c) 1 (by simp) ⟨2, ![n, K]⟩ x1 rfl rfl (K + (0)) (by simp) (ix2 p q)
    (fun b hb => ?_) ?_
  · match b with
    | ⟨0, _⟩ => rfl
    | ⟨1, _⟩ => exact absurd rfl hb
  · show K + (0) + q.val = c.val
    omega

/-- Piece 0 of 4: column `0·K + q` of the concatenation is column `q` of piece 0. -/
theorem cat4_piece0 {α : Type} {n K W : Nat} (x0 x1 x2 x3 : (⟨2, ![n, K]⟩ : Shape).Idx → α)
    (h : Shape.Concatenates (([⟨⟨2, ![n, K]⟩, x0⟩, ⟨⟨2, ![n, K]⟩, x1⟩, ⟨⟨2, ![n, K]⟩, x2⟩, ⟨⟨2, ![n, K]⟩, x3⟩] : List ((s : Shape) × (s.Idx → α))).map (·.1)) ⟨2, ![n, W]⟩ 1)
    (p : Fin n) (q : Fin K) (c : Fin W) (hc : c.val = q.val) :
    concatenate ⟨2, ![n, W]⟩ 1 [⟨⟨2, ![n, K]⟩, x0⟩, ⟨⟨2, ![n, K]⟩, x1⟩, ⟨⟨2, ![n, K]⟩, x2⟩, ⟨⟨2, ![n, K]⟩, x3⟩] h (ix2 p c) = x0 (ix2 p q) := by
  refine concatenate_apply_piece (1 : Fin 2) _ h (ix2 p c) 0 (by simp) ⟨2, ![n, K]⟩ x0 rfl rfl (0) (by simp) (ix2 p q)
    (fun b hb => ?_) ?_
  · match b with
    | ⟨0, _⟩ => rfl
    | ⟨1, _⟩ => exact absurd rfl hb
  · show 0 + q.val = c.val
    omega

/-- Piece 1 of 4: column `1·K + q` of the concatenation is column `q` of piece 1. -/
theorem cat4_piece1 {α : Type} {n K W : Nat} (x0 x1 x2 x3 : (⟨2, ![n, K]⟩ : Shape).Idx → α)
    (h : Shape.Concatenates (([⟨⟨2, ![n, K]⟩, x0⟩, ⟨⟨2, ![n, K]⟩, x1⟩, ⟨⟨2, ![n, K]⟩, x2⟩, ⟨⟨2, ![n, K]⟩, x3⟩] : List ((s : Shape) × (s.Idx → α))).map (·.1)) ⟨2, ![n, W]⟩ 1)
    (p : Fin n) (q : Fin K) (c : Fin W) (hc : c.val = 1 * K + q.val) :
    concatenate ⟨2, ![n, W]⟩ 1 [⟨⟨2, ![n, K]⟩, x0⟩, ⟨⟨2, ![n, K]⟩, x1⟩, ⟨⟨2, ![n, K]⟩, x2⟩, ⟨⟨2, ![n, K]⟩, x3⟩] h (ix2 p c) = x1 (ix2 p q) := by
  refine concatenate_apply_piece (1 : Fin 2) _ h (ix2 p c) 1 (by simp) ⟨2, ![n, K]⟩ x1 rfl rfl (K + (0)) (by simp) (ix2 p q)
    (fun b hb => ?_) ?_
  · match b with
    | ⟨0, _⟩ => rfl
    | ⟨1, _⟩ => exact absurd rfl hb
  · show K + (0) + q.val = c.val
    omega

/-- Piece 2 of 4: column `2·K + q` of the concatenation is column `q` of piece 2. -/
theorem cat4_piece2 {α : Type} {n K W : Nat} (x0 x1 x2 x3 : (⟨2, ![n, K]⟩ : Shape).Idx → α)
    (h : Shape.Concatenates (([⟨⟨2, ![n, K]⟩, x0⟩, ⟨⟨2, ![n, K]⟩, x1⟩, ⟨⟨2, ![n, K]⟩, x2⟩, ⟨⟨2, ![n, K]⟩, x3⟩] : List ((s : Shape) × (s.Idx → α))).map (·.1)) ⟨2, ![n, W]⟩ 1)
    (p : Fin n) (q : Fin K) (c : Fin W) (hc : c.val = 2 * K + q.val) :
    concatenate ⟨2, ![n, W]⟩ 1 [⟨⟨2, ![n, K]⟩, x0⟩, ⟨⟨2, ![n, K]⟩, x1⟩, ⟨⟨2, ![n, K]⟩, x2⟩, ⟨⟨2, ![n, K]⟩, x3⟩] h (ix2 p c) = x2 (ix2 p q) := by
  refine concatenate_apply_piece (1 : Fin 2) _ h (ix2 p c) 2 (by simp) ⟨2, ![n, K]⟩ x2 rfl rfl (K + (K + (0))) (by simp) (ix2 p q)
    (fun b hb => ?_) ?_
  · match b with
    | ⟨0, _⟩ => rfl
    | ⟨1, _⟩ => exact absurd rfl hb
  · show K + (K + (0)) + q.val = c.val
    omega

/-- Piece 3 of 4: column `3·K + q` of the concatenation is column `q` of piece 3. -/
theorem cat4_piece3 {α : Type} {n K W : Nat} (x0 x1 x2 x3 : (⟨2, ![n, K]⟩ : Shape).Idx → α)
    (h : Shape.Concatenates (([⟨⟨2, ![n, K]⟩, x0⟩, ⟨⟨2, ![n, K]⟩, x1⟩, ⟨⟨2, ![n, K]⟩, x2⟩, ⟨⟨2, ![n, K]⟩, x3⟩] : List ((s : Shape) × (s.Idx → α))).map (·.1)) ⟨2, ![n, W]⟩ 1)
    (p : Fin n) (q : Fin K) (c : Fin W) (hc : c.val = 3 * K + q.val) :
    concatenate ⟨2, ![n, W]⟩ 1 [⟨⟨2, ![n, K]⟩, x0⟩, ⟨⟨2, ![n, K]⟩, x1⟩, ⟨⟨2, ![n, K]⟩, x2⟩, ⟨⟨2, ![n, K]⟩, x3⟩] h (ix2 p c) = x3 (ix2 p q) := by
  refine concatenate_apply_piece (1 : Fin 2) _ h (ix2 p c) 3 (by simp) ⟨2, ![n, K]⟩ x3 rfl rfl (K + (K + (K + (0)))) (by simp) (ix2 p q)
    (fun b hb => ?_) ?_
  · match b with
    | ⟨0, _⟩ => rfl
    | ⟨1, _⟩ => exact absurd rfl hb
  · show K + (K + (K + (0))) + q.val = c.val
    omega

end Cert.LibConcatCols

end
-- ==== Proof.Bridge.lean ====
/-
  The reference's last operations, applied to ten arrays, give the kernel's score of the three packings of the same
  ten arrays.  Reference: h₁ = [h1e | tHH], t₁ = [t1e | tTT], h₂ = [h2e | tHT], t₂ = [t2e | tTH] (64 + 64 columns each),
  result b = 0 + ∑ over 128 columns of ((h₁·r₁·t₁ + h₂·r₂·t₂)·½).  Kernel: A = [h1e | h2e | tHH | tHT],
  R = [r₁ left | r₂ left | r₁ right | r₂ right], C = [t1e | t2e | tTT | tTH] (four runs of 64 columns),
  result b = (∑ over 256 columns of A·R·C)·½.  Column by column the products are the same four families, and the
  factor ½ passes through the sums (ScoreMath.row_law).
-/
import proofs.«129495_j14431090114916_2_alg».proof.Proof.ScoreMath
import proofs.«129495_j14431090114916_2_alg».proof.Proof.ScoreSpec
import proofs.«129495_j14431090114916_2_alg».proof.Proof.LibConcatCols
import proofs.«129495_j14431090114916_2_alg».proof.Proof.ConcatArgs
import Idealize.ShloMosaic.PureOps.Ideal.Laws
import Idealize.ShloMosaic.Lib.ValueLayout

noncomputable section

open scoped BigOperators

namespace Cert.Bridge

open Idealize.ShloMosaic Idealize.ShloMosaic.ValueIdx Cert.ScoreMath Cert.ScoreSpec Cert.LibConcatCols

abbrev S0 : Shape := ⟨0, ![]⟩
abbrev SB : Shape := ⟨1, ![262144]⟩
abbrev SB64 : Shape := ⟨2, ![262144, 64]⟩
abbrev SB128 : Shape := ⟨2, ![262144, 128]⟩
abbrev SB256 : Shape := ⟨2, ![262144, 256]⟩

theorem bridge
    (hc2 : Shape.Concatenates [SB64, SB64] SB128 1)
    (hc4 : Shape.Concatenates [SB64, SB64, SB64, SB64] SB256 1)
    (hs0 : SB128.Slices ![0, 0] SB64) (hs64 : SB128.Slices ![0, 64] SB64)
    (hb : S0.BroadcastsInDim SB128 ![]) (hred : SB128.ReducesTo [1] SB) (hnum : 0 < S0.numel)
    (h1e t1e h2e t2e tHH tTT tHT tTH : FVec Ideal SB64 .f32) (r1 r2 : FVec Ideal SB128 .f32) :
    Host.reduceAdd (F := Ideal)
        (mulf
          (addf
            (mulf (mulf (concatenate SB128 1 [⟨SB64, h1e⟩, ⟨SB64, tHH⟩] hc2) r1) (concatenate SB128 1 [⟨SB64, t1e⟩, ⟨SB64, tTT⟩] hc2))
            (mulf (mulf (concatenate SB128 1 [⟨SB64, h2e⟩, ⟨SB64, tHT⟩] hc2) r2) (concatenate SB128 1 [⟨SB64, t2e⟩, ⟨SB64, tTH⟩] hc2)))
          (broadcastInDim SB128 ![] hb (constant (F := Ideal) S0 .f32 0x3F000000#32)))
        (constant (F := Ideal) S0 .f32 0x00000000#32) hred hnum
      = score
          (concatenate SB256 1 [⟨SB64, h1e⟩, ⟨SB64, h2e⟩, ⟨SB64, tHH⟩, ⟨SB64, tHT⟩] hc4)
          (concatenate SB256 1 [⟨SB64, extractStridedSlice SB64 ![0, 0] r1 hs0⟩, ⟨SB64, extractStridedSlice SB64 ![0, 0] r2 hs0⟩,
            ⟨SB64, extractStridedSlice SB64 ![0, 64] r1 hs64⟩, ⟨SB64, extractStridedSlice SB64 ![0, 64] r2 hs64⟩] hc4)
          (concatenate SB256 1 [⟨SB64, t1e⟩, ⟨SB64, t2e⟩, ⟨SB64, tTT⟩, ⟨SB64, tTH⟩] hc4) := by
  have hR : SB128.Reduces [1] SB := by decide
  funext i
  obtain ⟨b, rfl⟩ : ∃ b : Fin 262144, i = ix1 b := ⟨i 0, eq_ix1 i⟩
  show Ideal.hostReduceAdd hred _ _ (ix1 b) = _
  rw [Ideal.hostReduceAdd_single hred hR]
  -- the reduced index with column k inserted is the entry (b, k)
  have hl : ∀ k : Fin 128, hR.lift (ix1 b) k = ix2 b k := fun k => by
    funext a; match a with | ⟨0, _⟩ => rfl | ⟨1, _⟩ => rfl
  -- the reference's summand at column k, operation by operation
  have hsum : ∀ k : Fin 128,
      mulf
          (addf
            (mulf (mulf (concatenate SB128 1 [⟨SB64, h1e⟩, ⟨SB64, tHH⟩] hc2) r1) (concatenate SB128 1 [⟨SB64, t1e⟩, ⟨SB64, tTT⟩] hc2))
            (mulf (mulf (concatenate SB128 1 [⟨SB64, h2e⟩, ⟨SB64, tHT⟩] hc2) r2) (concatenate SB128 1 [⟨SB64, t2e⟩, ⟨SB64, tTH⟩] hc2)))
          (broadcastInDim SB128 ![] hb (constant (F := Ideal) S0 .f32 0x3F000000#32)) (hR.lift (ix1 b) k)
        = (concatenate SB128 1 [⟨SB64, h1e⟩, ⟨SB64, tHH⟩] hc2 (ix2 b k) * r1 (ix2 b k)
              * concatenate SB128 1 [⟨SB64, t1e⟩, ⟨SB64, tTT⟩] hc2 (ix2 b k)
            + concatenate SB128 1 [⟨SB64, h2e⟩, ⟨SB64, tHT⟩] hc2 (ix2 b k) * r2 (ix2 b k)
              * concatenate SB128 1 [⟨SB64, t2e⟩, ⟨SB64, tTH⟩] hc2 (ix2 b k))
          * Ideal.ofBits .f32 0x3F000000#32 := fun k => by
    rw [hl k]; rfl
  show constant (F := Ideal) S0 .f32 0x00000000#32 (Shape.Idx.first hnum) + ∑ k : Fin 128, _ = _
  rw [Finset.sum_congr rfl (fun k _ => hsum k)]
  rw [show (constant (F := Ideal) S0 .f32 0x00000000#32 (Shape.Idx.first hnum) : EReal) = 0 from Ideal.ofBits_zero_f32]
  show _ = (∑ j : Fin 256,
      concatenate SB256 1 [⟨SB64, h1e⟩, ⟨SB64, h2e⟩, ⟨SB64, tHH⟩, ⟨SB64, tHT⟩] hc4 (ix2 b j)
      * concatenate SB256 1 [⟨SB64, extractStridedSlice SB64 ![0, 0] r1 hs0⟩, ⟨SB64, extractStridedSlice SB64 ![0, 0] r2 hs0⟩,
          ⟨SB64, extractStridedSlice SB64 ![0, 64] r1 hs64⟩, ⟨SB64, extractStridedSlice SB64 ![0, 64] r2 hs64⟩] hc4 (ix2 b j)
      * concatenate SB256 1 [⟨SB64, t1e⟩, ⟨SB64, t2e⟩, ⟨SB64, tTT⟩, ⟨SB64, tTH⟩] hc4 (ix2 b j)) * Ideal.ofBits .f32 0x3F000000#32
  rw [sum_128, sum_256]
  -- the two-piece rows, column q and column 64 + q
  have H1a : ∀ (q : Fin 64) (h : q.val < 128), concatenate SB128 1 [⟨SB64, h1e⟩, ⟨SB64, tHH⟩] hc2 (ix2 b ⟨q.val, h⟩) = h1e (ix2 b q) :=
    fun q h => cat2_piece0 h1e tHH hc2 b q ⟨q.val, h⟩ rfl
  have H1b : ∀ (q : Fin 64) (h : 64 + q.val < 128), concatenate SB128 1 [⟨SB64, h1e⟩, ⟨SB64, tHH⟩] hc2 (ix2 b ⟨64 + q.val, h⟩) = tHH (ix2 b q) :=
    fun q h => cat2_piece1 h1e tHH hc2 b q ⟨64 + q.val, h⟩ (by show 64 + q.val = 1 * 64 + q.val; omega)
  have T1a : ∀ (q : Fin 64) (h : q.val < 128), concatenate SB128 1 [⟨SB64, t1e⟩, ⟨SB64, tTT⟩] hc2 (ix2 b ⟨q.val, h⟩) = t1e (ix2 b q) :=
    fun q h => cat2_piece0 t1e tTT hc2 b q ⟨q.val, h⟩ rfl
  have T1b : ∀ (q : Fin 64) (h : 64 + q.val < 128), concatenate SB128 1 [⟨SB64, t1e⟩, ⟨SB64, tTT⟩] hc2 (ix2 b ⟨64 + q.val, h⟩) = tTT (ix2 b q) :=
    fun q h => cat2_piece1 t1e tTT hc2 b q ⟨64 + q.val, h⟩ (by show 64 + q.val = 1 * 64 + q.val; omega)
  have H2a : ∀ (q : Fin 64) (h : q.val < 128), concatenate SB128 1 [⟨SB64, h2e⟩, ⟨SB64, tHT⟩] hc2 (ix2 b ⟨q.val, h⟩) = h2e (ix2 b q) :=
    fun q h => cat2_piece0 h2e tHT hc2 b q ⟨q.val, h⟩ rfl
  have H2b : ∀ (q : Fin 64) (h : 64 + q.val < 128), concatenate SB128 1 [⟨SB64, h2e⟩, ⟨SB64, tHT⟩] hc2 (ix2 b ⟨64 + q.val, h⟩) = tHT (ix2 b q) :=
    fun q h => cat2_piece1 h2e tHT hc2 b q ⟨64 + q.val, h⟩ (by show 64 + q.val = 1 * 64 + q.val; omega)
  have T2a : ∀ (q : Fin 64) (h : q.val < 128), concatenate SB128 1 [⟨SB64, t2e⟩, ⟨SB64, tTH⟩] hc2 (ix2 b ⟨q.val, h⟩) = t2e (ix2 b q) :=
    fun q h => cat2_piece0 t2e tTH hc2 b q ⟨q.val, h⟩ rfl
  have T2b : ∀ (q : Fin 64) (h : 64 + q.val < 128), concatenate SB128 1 [⟨SB64, t2e⟩, ⟨SB64, tTH⟩] hc2 (ix2 b ⟨64 + q.val, h⟩) = tTH (ix2 b q) :=
    fun q h => cat2_piece1 t2e tTH hc2 b q ⟨64 + q.val, h⟩ (by show 64 + q.val = 1 * 64 + q.val; omega)
  -- the four-piece rows, columns q, 64 + q, 128 + q, 192 + q
  have A0 : ∀ (q : Fin 64) (h : q.val < 256), concatenate SB256 1 [⟨SB64, h1e⟩, ⟨SB64, h2e⟩, ⟨SB64, tHH⟩, ⟨SB64, tHT⟩] hc4 (ix2 b ⟨q.val, h⟩) = h1e (ix2 b q) :=
    fun q h => cat4_piece0 h1e h2e tHH tHT hc4 b q ⟨q.val, h⟩ rfl
  have A1 : ∀ (q : Fin 64) (h : 64 + q.val < 256), concatenate SB256 1 [⟨SB64, h1e⟩, ⟨SB64, h2e⟩, ⟨SB64, tHH⟩, ⟨SB64, tHT⟩] hc4 (ix2 b ⟨64 + q.val, h⟩) = h2e (ix2 b q) :=
    fun q h => cat4_piece1 h1e h2e tHH tHT hc4 b q ⟨64 + q.val, h⟩ (by show 64 + q.val = 1 * 64 + q.val; omega)
  have A2 : ∀ (q : Fin 64) (h : 128 + q.val < 256), concatenate SB256 1 [⟨SB64, h1e⟩, ⟨SB64, h2e⟩, ⟨SB64, tHH⟩, ⟨SB64, tHT⟩] hc4 (ix2 b ⟨128 + q.val, h⟩) = tHH (ix2 b q) :=
    fun q h => cat4_piece2 h1e h2e tHH tHT hc4 b q ⟨128 + q.val, h⟩ (by show 128 + q.val = 2 * 64 + q.val; omega)
  have A3 : ∀ (q : Fin 64) (h : 192 + q.val < 256), concatenate SB256 1 [⟨SB64, h1e⟩, ⟨SB64, h2e⟩, ⟨SB64, tHH⟩, ⟨SB64, tHT⟩] hc4 (ix2 b ⟨192 + q.val, h⟩) = tHT (ix2 b q) :=
    fun q h => cat4_piece3 h1e h2e tHH tHT hc4 b q ⟨192 + q.val, h⟩ (by show 192 + q.val = 3 * 64 + q.val; omega)
  have C0 : ∀ (q : Fin 64) (h : q.val < 256), concatenate SB256 1 [⟨SB64, t1e⟩, ⟨SB64, t2e⟩, ⟨SB64, tTT⟩, ⟨SB64, tTH⟩] hc4 (ix2 b ⟨q.val, h⟩) = t1e (ix2 b q) :=
    fun q h => cat4_piece0 t1e t2e tTT tTH hc4 b q ⟨q.val, h⟩ rfl
  have C1 : ∀ (q : Fin 64) (h : 64 + q.val < 256), concatenate SB256 1 [⟨SB64, t1e⟩, ⟨SB64, t2e⟩, ⟨SB64, tTT⟩, ⟨SB64, tTH⟩] hc4 (ix2 b ⟨64 + q.val, h⟩) = t2e (ix2 b q) :=
    fun q h => cat4_piece1 t1e t2e tTT tTH hc4 b q ⟨64 + q.val, h⟩ (by show 64 + q.val = 1 * 64 + q.val; omega)
  have C2 : ∀ (q : Fin 64) (h : 128 + q.val < 256), concatenate SB256 1 [⟨SB64, t1e⟩, ⟨SB64, t2e⟩, ⟨SB64, tTT⟩, ⟨SB64, tTH⟩] hc4 (ix2 b ⟨128 + q.val, h⟩) = tTT (ix2 b q) :=
    fun q h => cat4_piece2 t1e t2e tTT tTH hc4 b q ⟨128 + q.val, h⟩ (by show 128 + q.val = 2 * 64 + q.val; omega)
  have C3 : ∀ (q : Fin 64) (h : 192 + q.val < 256), concatenate SB256 1 [⟨SB64, t1e⟩, ⟨SB64, t2e⟩, ⟨SB64, tTT⟩, ⟨SB64, tTH⟩] hc4 (ix2 b ⟨192 + q.val, h⟩) = tTH (ix2 b q) :=
    fun q h => cat4_piece3 t1e t2e tTT tTH hc4 b q ⟨192 + q.val, h⟩ (by show 192 + q.val = 3 * 64 + q.val; omega)
  -- the packed relation rows: the left halves of r₁, r₂, then their right halves
  have R0 : ∀ (q : Fin 64) (h : q.val < 256), concatenate SB256 1 [⟨SB64, extractStridedSlice SB64 ![0, 0] r1 hs0⟩, ⟨SB64, extractStridedSlice SB64 ![0, 0] r2 hs0⟩,
          ⟨SB64, extractStridedSlice SB64 ![0, 64] r1 hs64⟩, ⟨SB64, extractStridedSlice SB64 ![0, 64] r2 hs64⟩] hc4 (ix2 b ⟨q.val, h⟩)
        = r1 (ix2 b ⟨q.val, by have := q.isLt; omega⟩) :=
    fun q h => (cat4_piece0 _ _ _ _ hc4 b q ⟨q.val, h⟩ rfl).trans
      (slice2_axis1_apply 0 r1 hs0 b q ⟨q.val, by have := q.isLt; omega⟩ (by show q.val = 0 + q.val; omega))
  have R1 : ∀ (q : Fin 64) (h : 64 + q.val < 256), concatenate SB256 1 [⟨SB64, extractStridedSlice SB64 ![0, 0] r1 hs0⟩, ⟨SB64, extractStridedSlice SB64 ![0, 0] r2 hs0⟩,
          ⟨SB64, extractStridedSlice SB64 ![0, 64] r1 hs64⟩, ⟨SB64, extractStridedSlice SB64 ![0, 64] r2 hs64⟩] hc4 (ix2 b ⟨64 + q.val, h⟩)
        = r2 (ix2 b ⟨q.val, by have := q.isLt; omega⟩) :=
    fun q h => (cat4_piece1 _ _ _ _ hc4 b q ⟨64 + q.val, h⟩ (by show 64 + q.val = 1 * 64 + q.val; omega)).trans
      (slice2_axis1_apply 0 r2 hs0 b q ⟨q.val, by have := q.isLt; omega⟩ (by show q.val = 0 + q.val; omega))
  have R2 : ∀ (q : Fin 64) (h : 128 + q.val < 256), concatenate SB256 1 [⟨SB64, extractStridedSlice SB64 ![0, 0] r1 hs0⟩, ⟨SB64, extractStridedSlice SB64 ![0, 0] r2 hs0⟩,
          ⟨SB64, extractStridedSlice SB64 ![0, 64] r1 hs64⟩, ⟨SB64, extractStridedSlice SB64 ![0, 64] r2 hs64⟩] hc4 (ix2 b ⟨128 + q.val, h⟩)
        = r1 (ix2 b ⟨64 + q.val, by have := q.isLt; omega⟩) :=
    fun q h => (cat4_piece2 _ _ _ _ hc4 b q ⟨128 + q.val, h⟩ (by show 128 + q.val = 2 * 64 + q.val; omega)).trans
      (slice2_axis1_apply 64 r1 hs64 b q ⟨64 + q.val, by have := q.isLt; omega⟩ rfl)
  have R3 : ∀ (q : Fin 64) (h : 192 + q.val < 256), concatenate SB256 1 [⟨SB64, extractStridedSlice SB64 ![0, 0] r1 hs0⟩, ⟨SB64, extractStridedSlice SB64 ![0, 0] r2 hs0⟩,
          ⟨SB64, extractStridedSlice SB64 ![0, 64] r1 hs64⟩, ⟨SB64, extractStridedSlice SB64 ![0, 64] r2 hs64⟩] hc4 (ix2 b ⟨192 + q.val, h⟩)
        = r2 (ix2 b ⟨64 + q.val, by have := q.isLt; omega⟩) :=
    fun q h => (cat4_piece3 _ _ _ _ hc4 b q ⟨192 + q.val, h⟩ (by show 192 + q.val = 3 * 64 + q.val; omega)).trans
      (slice2_axis1_apply 64 r2 hs64 b q ⟨64 + q.val, by have := q.isLt; omega⟩ rfl)
  simp only [H1a, H1b, T1a, T1b, H2a, H2b, T2a, T2b, A0, A1, A2, A3, C0, C1, C2, C3, R0, R1, R2, R3]
  exact (row_law _ _ _ _ _ half_nonneg half_ne_top).symm

/-- The same statement with each concatenation's pieces as plain arguments. -/
theorem bridge_args
    (hc2 : Shape.Concatenates [SB64, SB64] SB128 1)
    (hc4 : Shape.Concatenates [SB64, SB64, SB64, SB64] SB256 1)
    (hs0 : SB128.Slices ![0, 0] SB64) (hs64 : SB128.Slices ![0, 64] SB64)
    (hb : S0.BroadcastsInDim SB128 ![]) (hred : SB128.ReducesTo [1] SB) (hnum : 0 < S0.numel)
    (h1e t1e h2e t2e tHH tTT tHT tTH : FVec Ideal SB64 .f32) (r1 r2 : FVec Ideal SB128 .f32) :
    Host.reduceAdd (F := Ideal)
        (mulf
          (addf
            (mulf (mulf (Cert.ConcatArgs.cat2 SB128 1 SB64 SB64 hc2 h1e tHH) r1) (Cert.ConcatArgs.cat2 SB128 1 SB64 SB64 hc2 t1e tTT))
            (mulf (mulf (Cert.ConcatArgs.cat2 SB128 1 SB64 SB64 hc2 h2e tHT) r2) (Cert.ConcatArgs.cat2 SB128 1 SB64 SB64 hc2 t2e tTH)))
          (broadcastInDim SB128 ![] hb (constant (F := Ideal) S0 .f32 0x3F000000#32)))
        (constant (F := Ideal) S0 .f32 0x00000000#32) hred hnum
      = score
          (Cert.ConcatArgs.cat4 SB256 1 SB64 SB64 SB64 SB64 hc4 h1e h2e tHH tHT)
          (Cert.ConcatArgs.cat4 SB256 1 SB64 SB64 SB64 SB64 hc4 (extractStridedSlice SB64 ![0, 0] r1 hs0) (extractStridedSlice SB64 ![0, 0] r2 hs0)
            (extractStridedSlice SB64 ![0, 64] r1 hs64) (extractStridedSlice SB64 ![0, 64] r2 hs64))
          (Cert.ConcatArgs.cat4 SB256 1 SB64 SB64 SB64 SB64 hc4 t1e t2e tTT tTH) :=
  bridge hc2 hc4 hs0 hs64 hb hred hnum h1e t1e h2e t2e tHH tTT tHT tTH r1 r2

end Cert.Bridge

end
-- ==== Proof.Result.lean ====
/-
  The two idealized programs' results as functions of the argument arrays.  Every host operation writes its own
  fresh buffer, so a buffer read after the host operations is the operation that wrote it applied to its operands'
  contents, down to the argument arrays as launched.  Read that way, the kernel's three packed arrays and the
  reference's result are built from the same ten arrays (two gathers of each entity table, the two relation rows
  times one plus the date row, the four time embeddings), and Bridge.bridge_args joins them.
-/
import proofs.«129495_j14431090114916_2_alg».proof.Proof.FrameIdeal
import proofs.«129495_j14431090114916_2_alg».proof.Proof.RefRun
import proofs.«129495_j14431090114916_2_alg».proof.Proof.ScoreSpec
import proofs.«129495_j14431090114916_2_alg».proof.Proof.ConcatArgs
import proofs.«129495_j14431090114916_2_alg».proof.Proof.Bridge
import Idealize.ShloMosaic.Lib.StableHlo.Run
import Idealize.ShloMosaic.PureOps.Ideal

noncomputable section

namespace Cert.KernelIdeal.Reads

open Cert.KernelIdeal Cert.KernelIdeal.Gen Cert.ConcatArgs
open Idealize.ShloMosaic Idealize.ShloMosaic.TcCoe Idealize.SL.Sem Idealize.ShloMosaic.StableHlo

/-- The 3-operand concatenation writing `main_v60`: its result is the concatenation of its operands' contents. -/
theorem cat_tvals (W : Valuation τ sig (Elt Ideal)) :
    (StableHlo.nary ![main_v57, main_v58, main_v59] main_v60 (fun u => concatenate S3x262144 0 [⟨S1x262144, u 0⟩, ⟨S1x262144, u 1⟩, ⟨S1x262144, u 2⟩] concatenates_S1x262144_S1x262144_S1x262144_S3x262144_d0) : HloOp τ sig (Elt Ideal)).result W (no_index (Proc.devRef .tc main_v60))
      = cat3 S3x262144 0 S1x262144 S1x262144 S1x262144 concatenates_S1x262144_S1x262144_S1x262144_S3x262144_d0 (W (Proc.devRef .tc main_v57)) (W (Proc.devRef .tc main_v58)) (W (Proc.devRef .tc main_v59)) :=
  (nary_result _ _ _ _ _ W).trans rfl

/-- The 4-operand concatenation writing `main_v185`: its result is the concatenation of its operands' contents. -/
theorem cat_packA (W : Valuation τ sig (Elt Ideal)) :
    (StableHlo.nary ![main_v6, main_v20, main_v97, main_v155] main_v185 (fun u => concatenate S262144x256 1 [⟨S262144x64, u 0⟩, ⟨S262144x64, u 1⟩, ⟨S262144x64, u 2⟩, ⟨S262144x64, u 3⟩] concatenates_S262144x64_S262144x64_S262144x64_S262144x64_S262144x256_d1) : HloOp τ sig (Elt Ideal)).result W (no_index (Proc.devRef .tc main_v185))
      = cat4 S262144x256 1 S262144x64 S262144x64 S262144x64 S262144x64 concatenates_S262144x64_S262144x64_S262144x64_S262144x64_S262144x256_d1 (W (Proc.devRef .tc main_v6)) (W (Proc.devRef .tc main_v20)) (W (Proc.devRef .tc main_v97)) (W (Proc.devRef .tc main_v155)) :=
  (nary_result _ _ _ _ _ W).trans rfl

/-- The 4-operand concatenation writing `main_v186`: its result is the concatenation of its operands' contents. -/
theorem cat_packR (W : Valuation τ sig (Elt Ideal)) :
    (StableHlo.nary ![main_v53, main_v55, main_v54, main_v56] main_v186 (fun u => concatenate S262144x256 1 [⟨S262144x64, u 0⟩, ⟨S262144x64, u 1⟩, ⟨S262144x64, u 2⟩, ⟨S262144x64, u 3⟩] concatenates_S262144x64_S262144x64_S262144x64_S262144x64_S262144x256_d1) : HloOp τ sig (Elt Ideal)).result W (no_index (Proc.devRef .tc main_v186))
      = cat4 S262144x256 1 S262144x64 S262144x64 S262144x64 S262144x64 concatenates_S262144x64_S262144x64_S262144x64_S262144x64_S262144x256_d1 (W (Proc.devRef .tc main_v53)) (W (Proc.devRef .tc main_v55)) (W (Proc.devRef .tc main_v54)) (W (Proc.devRef .tc main_v56)) :=
  (nary_result _ _ _ _ _ W).trans rfl

/-- The 4-operand concatenation writing `main_v187`: its result is the concatenation of its operands' contents. -/
theorem cat_packC (W : Valuation τ sig (Elt Ideal)) :
    (StableHlo.nary ![main_v13, main_v27, main_v126, main_v184] main_v187 (fun u => concatenate S262144x256 1 [⟨S262144x64, u 0⟩, ⟨S262144x64, u 1⟩, ⟨S262144x64, u 2⟩, ⟨S262144x64, u 3⟩] concatenates_S262144x64_S262144x64_S262144x64_S262144x64_S262144x256_d1) : HloOp τ sig (Elt Ideal)).result W (no_index (Proc.devRef .tc main_v187))
      = cat4 S262144x256 1 S262144x64 S262144x64 S262144x64 S262144x64 concatenates_S262144x64_S262144x64_S262144x64_S262144x64_S262144x256_d1 (W (Proc.devRef .tc main_v13)) (W (Proc.devRef .tc main_v27)) (W (Proc.devRef .tc main_v126)) (W (Proc.devRef .tc main_v184)) :=
  (nary_result _ _ _ _ _ W).trans rfl

end Cert.KernelIdeal.Reads

namespace Cert.ReferenceIdeal.Reads

open Cert.ReferenceIdeal Cert.ReferenceIdeal.Gen Cert.ConcatArgs
open Idealize.ShloMosaic Idealize.ShloMosaic.TcCoe Idealize.SL.Sem Idealize.ShloMosaic.StableHlo

/-- The 3-operand concatenation writing `main_v3`: its result is the concatenation of its operands' contents. -/
theorem cat_tvals (W : Valuation τ sig (Elt Ideal)) :
    (StableHlo.nary ![main_v0, main_v1, main_v2] main_v3 (fun u => concatenate S3x262144 0 [⟨S1x262144, u 0⟩, ⟨S1x262144, u 1⟩, ⟨S1x262144, u 2⟩] concatenates_S1x262144_S1x262144_S1x262144_S3x262144_d0) : HloOp τ sig (Elt Ideal)).result W (no_index (Proc.devRef .tc main_v3))
      = cat3 S3x262144 0 S1x262144 S1x262144 S1x262144 concatenates_S1x262144_S1x262144_S1x262144_S3x262144_d0 (W (Proc.devRef .tc main_v0)) (W (Proc.devRef .tc main_v1)) (W (Proc.devRef .tc main_v2)) :=
  (nary_result _ _ _ _ _ W).trans rfl

end Cert.ReferenceIdeal.Reads

namespace Cert.Result

open Cert.ReferenceIdeal Cert.ReferenceIdeal.Gen Cert.ReferenceIdeal.RefRun Cert.ConcatArgs Cert.ScoreSpec
open Idealize.ShloMosaic Idealize.ShloMosaic.TcCoe Idealize.SL.Sem Idealize.ShloMosaic.StableHlo

set_option maxHeartbeats 400000000 in
set_option maxRecDepth 100000 in
/-- From memories agreeing on the nineteen arguments, the reference's result is the score of the kernel's three
    packed arrays. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    StableHlo.after (ops (F := Ideal)) (StableHlo.launchContents m' c) (Proc.devRef .tc main_v192)
      = score (Cert.KernelIdeal.Frm.V m c Cert.KernelIdeal.main_v185) (Cert.KernelIdeal.Frm.V m c Cert.KernelIdeal.main_v186)
          (Cert.KernelIdeal.Frm.V m c Cert.KernelIdeal.main_v187) := by
  suffices h : ∀ (A R C : Cert.KernelIdeal.S262144x256.Idx → EReal) (Y : S262144.Idx → EReal),
      (Cert.KernelIdeal.Frm.V m c Cert.KernelIdeal.main_v185 : Cert.KernelIdeal.S262144x256.Idx → EReal) = A →
      (Cert.KernelIdeal.Frm.V m c Cert.KernelIdeal.main_v186 : Cert.KernelIdeal.S262144x256.Idx → EReal) = R →
      (Cert.KernelIdeal.Frm.V m c Cert.KernelIdeal.main_v187 : Cert.KernelIdeal.S262144x256.Idx → EReal) = C →
      (StableHlo.after (ops (F := Ideal)) (StableHlo.launchContents m' c) (Proc.devRef .tc main_v192) : S262144.Idx → EReal) = Y →
      Y = score A R C from h _ _ _ _ rfl rfl rfl rfl
  intro A R C Y hA hR hC hY
  -- the kernel's three packed arrays, read down to the arguments
  dsimp only [Cert.KernelIdeal.Frm.V] at hA hR hC
  simp only [Cert.KernelIdeal.Gen.hostOps0, Cert.KernelIdeal.Gen.hostOps0_1, Cert.KernelIdeal.Gen.hostOps0_2, List.flatten_cons,
    List.flatten_nil, List.append_nil, List.cons_append, List.nil_append] at hA hR hC
  simp (disch := decide) only [after_cons, after_nil,
      nullary_result', unary_result', binary_result', ternary_result', quaternary_result', reshape_result', Cert.KernelIdeal.Reads.cat_tvals, Cert.KernelIdeal.Reads.cat_packA, Cert.KernelIdeal.Reads.cat_packR, Cert.KernelIdeal.Reads.cat_packC,
      unaryIndexed_result', binaryIndexed_result',
      nullary_result_ne', unary_result_ne', binary_result_ne', ternary_result_ne', quaternary_result_ne', reshape_result_ne',
      nary_result_ne', unaryIndexed_result_ne', binaryIndexed_result_ne', concatenate_two, TRef.toBuf, TRef.ofBuf, cast_eq] at hA hR hC
  -- the reference's result, read down to its arguments
  simp (disch := decide) only [after_cons, after_nil,
      nullary_result', unary_result', binary_result', ternary_result', quaternary_result', reshape_result', Cert.ReferenceIdeal.Reads.cat_tvals,
      unaryIndexed_result', binaryIndexed_result',
      nullary_result_ne', unary_result_ne', binary_result_ne', ternary_result_ne', quaternary_result_ne', reshape_result_ne',
      nary_result_ne', unaryIndexed_result_ne', binaryIndexed_result_ne', concatenate_two, TRef.toBuf, TRef.ofBuf, cast_eq] at hY
  -- the two memories agree on the arguments
  obtain ⟨a0, a1, a2, a3, a4, a5, a6, a7, a8, a9, a10, a11, a12, a13, a14, a15, a16, a17, a18⟩ := hag
  have b0 : (StableHlo.launchContents m' c (Proc.devRef .tc main_arg0) : S262144.Idx → BitVec 32) = m (c, Proc.devRef .tc Cert.KernelIdeal.main_arg0) := a0
  have b1 : (StableHlo.launchContents m' c (Proc.devRef .tc main_arg1) : S262144.Idx → BitVec 32) = m (c, Proc.devRef .tc Cert.KernelIdeal.main_arg1) := a1
  have b2 : (StableHlo.launchContents m' c (Proc.devRef .tc main_arg2) : S262144.Idx → BitVec 32) = m (c, Proc.devRef .tc Cert.KernelIdeal.main_arg2) := a2
  have b3 : (StableHlo.launchContents m' c (Proc.devRef .tc main_arg3) : S262144.Idx → EReal) = m (c, Proc.devRef .tc Cert.KernelIdeal.main_arg3) := a3
  have b4 : (StableHlo.launchContents m' c (Proc.devRef .tc main_arg4) : S262144.Idx → EReal) = m (c, Proc.devRef .tc Cert.KernelIdeal.main_arg4) := a4
  have b5 : (StableHlo.launchContents m' c (Proc.devRef .tc main_arg5) : S262144.Idx → EReal) = m (c, Proc.devRef .tc Cert.KernelIdeal.main_arg5) := a5
  have b6 : (StableHlo.launchContents m' c (Proc.devRef .tc main_arg6) : S262144.Idx → BitVec 32) = m (c, Proc.devRef .tc Cert.KernelIdeal.main_arg6) := a6
  have b7 : (StableHlo.launchContents m' c (Proc.devRef .tc main_arg7) : S100000x64.Idx → EReal) = m (c, Proc.devRef .tc Cert.KernelIdeal.main_arg7) := a7
  have b8 : (StableHlo.launchContents m' c (Proc.devRef .tc main_arg8) : S100000x64.Idx → EReal) = m (c, Proc.devRef .tc Cert.KernelIdeal.main_arg8) := a8
  have b9 : (StableHlo.launchContents m' c (Proc.devRef .tc main_arg9) : S500x128.Idx → EReal) = m (c, Proc.devRef .tc Cert.KernelIdeal.main_arg9) := a9
  have b10 : (StableHlo.launchContents m' c (Proc.devRef .tc main_arg10) : S500x128.Idx → EReal) = m (c, Proc.devRef .tc Cert.KernelIdeal.main_arg10) := a10
  have b11 : (StableHlo.launchContents m' c (Proc.devRef .tc main_arg11) : S134x64.Idx → EReal) = m (c, Proc.devRef .tc Cert.KernelIdeal.main_arg11) := a11
  have b12 : (StableHlo.launchContents m' c (Proc.devRef .tc main_arg12) : S4000x128.Idx → EReal) = m (c, Proc.devRef .tc Cert.KernelIdeal.main_arg12) := a12
  have b13 : (StableHlo.launchContents m' c (Proc.devRef .tc main_arg13) : S3x100000x64.Idx → EReal) = m (c, Proc.devRef .tc Cert.KernelIdeal.main_arg13) := a13
  have b14 : (StableHlo.launchContents m' c (Proc.devRef .tc main_arg14) : S3x100000x64.Idx → EReal) = m (c, Proc.devRef .tc Cert.KernelIdeal.main_arg14) := a14
  have b15 : (StableHlo.launchContents m' c (Proc.devRef .tc main_arg15) : S3x100000x64.Idx → EReal) = m (c, Proc.devRef .tc Cert.KernelIdeal.main_arg15) := a15
  have b16 : (StableHlo.launchContents m' c (Proc.devRef .tc main_arg16) : S3x100000x64.Idx → EReal) = m (c, Proc.devRef .tc Cert.KernelIdeal.main_arg16) := a16
  have b17 : (StableHlo.launchContents m' c (Proc.devRef .tc main_arg17) : S3x100000x64.Idx → EReal) = m (c, Proc.devRef .tc Cert.KernelIdeal.main_arg17) := a17
  have b18 : (StableHlo.launchContents m' c (Proc.devRef .tc main_arg18) : S3x100000x64.Idx → EReal) = m (c, Proc.devRef .tc Cert.KernelIdeal.main_arg18) := a18
  simp only [b0, b1, b2, b3, b4, b5, b6, b7, b8, b9, b10, b11, b12, b13, b14, b15, b16, b17, b18] at hY
  subst hA hR hC hY
  exact Cert.Bridge.bridge_args _ _ _ _ _ _ _ _ _ _ _ _ _ _ _ _ _

end Cert.Result

end
-- ==== Proof.lean ====
/-
  The certificate.  The word-level kernel and its idealization run to the end with their nineteen argument arrays
  unchanged (the host operations write fresh buffers only; the one pallas region reads three packed arrays block by
  block and overwrites the result block by block).  The reference is a straight line of host operations.  At the
  ideal instance the kernel's result is, row by row, half the 256-lane sum of the product of three packed arrays, and
  the reference's is the 128-lane sum of halved pair sums over the same ten arrays the packings are cut from; the two
  agree because a nonnegative finite factor passes through sums of extended reals.  The ideal pass rewrote nothing.
-/
import proofs.«129495_j14431090114916_2_alg».proof.Defs
import proofs.«129495_j14431090114916_2_alg».proof.Proof.Gen.Kernel
import proofs.«129495_j14431090114916_2_alg».proof.Proof.Gen.KernelIdeal
import proofs.«129495_j14431090114916_2_alg».proof.Proof.Gen.ReferenceIdeal
import proofs.«129495_j14431090114916_2_alg».proof.Proof.Gen.Pre_finite_inputs
import proofs.«129495_j14431090114916_2_alg».proof.Proof.FrameBits
import proofs.«129495_j14431090114916_2_alg».proof.Proof.FrameIdeal
import proofs.«129495_j14431090114916_2_alg».proof.Proof.KValue
import proofs.«129495_j14431090114916_2_alg».proof.Proof.RefRun
import proofs.«129495_j14431090114916_2_alg».proof.Proof.RefArgs
import proofs.«129495_j14431090114916_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

/-- The reference's run with the result dropped: no operation writes an argument array. -/
theorem frame_ri : Cert.frame_ReferenceIdeal := fun m ρ _ =>
  (θ_run Cert.ReferenceIdeal.defs _ _).mono (fun _ h c => ⟨(h c Cert.ReferenceIdeal.main_arg0).trans (Cert.ReferenceIdeal.RefRun.kept_main_arg0 m c),
      (h c Cert.ReferenceIdeal.main_arg1).trans (Cert.ReferenceIdeal.RefRun.kept_main_arg1 m c),
      (h c Cert.ReferenceIdeal.main_arg2).trans (Cert.ReferenceIdeal.RefRun.kept_main_arg2 m c),
      (h c Cert.ReferenceIdeal.main_arg3).trans (Cert.ReferenceIdeal.RefRun.kept_main_arg3 m c),
      (h c Cert.ReferenceIdeal.main_arg4).trans (Cert.ReferenceIdeal.RefRun.kept_main_arg4 m c),
      (h c Cert.ReferenceIdeal.main_arg5).trans (Cert.ReferenceIdeal.RefRun.kept_main_arg5 m c),
      (h c Cert.ReferenceIdeal.main_arg6).trans (Cert.ReferenceIdeal.RefRun.kept_main_arg6 m c),
      (h c Cert.ReferenceIdeal.main_arg7).trans (Cert.ReferenceIdeal.RefRun.kept_main_arg7 m c),
      (h c Cert.ReferenceIdeal.main_arg8).trans (Cert.ReferenceIdeal.RefRun.kept_main_arg8 m c),
      (h c Cert.ReferenceIdeal.main_arg9).trans (Cert.ReferenceIdeal.RefRun.kept_main_arg9 m c),
      (h c Cert.ReferenceIdeal.main_arg10).trans (Cert.ReferenceIdeal.RefRun.kept_main_arg10 m c),
      (h c Cert.ReferenceIdeal.main_arg11).trans (Cert.ReferenceIdeal.RefRun.kept_main_arg11 m c),
      (h c Cert.ReferenceIdeal.main_arg12).trans (Cert.ReferenceIdeal.RefRun.kept_main_arg12 m c),
      (h c Cert.ReferenceIdeal.main_arg13).trans (Cert.ReferenceIdeal.RefRun.kept_main_arg13 m c),
      (h c Cert.ReferenceIdeal.main_arg14).trans (Cert.ReferenceIdeal.RefRun.kept_main_arg14 m c),
      (h c Cert.ReferenceIdeal.main_arg15).trans (Cert.ReferenceIdeal.RefRun.kept_main_arg15 m c),
      (h c Cert.ReferenceIdeal.main_arg16).trans (Cert.ReferenceIdeal.RefRun.kept_main_arg16 m c),
      (h c Cert.ReferenceIdeal.main_arg17).trans (Cert.ReferenceIdeal.RefRun.kept_main_arg17 m c),
      (h c Cert.ReferenceIdeal.main_arg18).trans (Cert.ReferenceIdeal.RefRun.kept_main_arg18 m c)⟩)
    (Cert.ReferenceIdeal.RefRun.run (F := Ideal) m ρ)

theorem preserves : Cert.preserves_Kernel_KernelIdeal := trivial

/-- Both idealized programs end with the score of the kernel's three packed arrays in their result. -/
theorem algebraic : Cert.algebraic_KernelIdeal_ReferenceIdeal := by
  intro m ρ m' ρ' _ hagree
  refine ⟨fun c => Cert.ScoreSpec.score (Cert.KernelIdeal.Frm.V m c Cert.KernelIdeal.main_v185)
    (Cert.KernelIdeal.Frm.V m c Cert.KernelIdeal.main_v186) (Cert.KernelIdeal.Frm.V m c Cert.KernelIdeal.main_v187), ?_, ?_⟩
  · exact (θ_run Cert.KernelIdeal.defs _ _).mono (fun r h c => ⟨(h c).1,
      ((h c).2 Cert.KernelIdeal.main_arg0 (Pipeline.mem_restRefs_of Cert.KernelIdeal.main_arg0 (by decide) (by decide))).trans (Cert.KernelIdeal.Frm.entry_arg0 m c),
      ((h c).2 Cert.KernelIdeal.main_arg1 (Pipeline.mem_restRefs_of Cert.KernelIdeal.main_arg1 (by decide) (by decide))).trans (Cert.KernelIdeal.Frm.entry_arg1 m c),
      ((h c).2 Cert.KernelIdeal.main_arg2 (Pipeline.mem_restRefs_of Cert.KernelIdeal.main_arg2 (by decide) (by decide))).trans (Cert.KernelIdeal.Frm.entry_arg2 m c),
      ((h c).2 Cert.KernelIdeal.main_arg3 (Pipeline.mem_restRefs_of Cert.KernelIdeal.main_arg3 (by decide) (by decide))).trans (Cert.KernelIdeal.Frm.entry_arg3 m c),
      ((h c).2 Cert.KernelIdeal.main_arg4 (Pipeline.mem_restRefs_of Cert.KernelIdeal.main_arg4 (by decide) (by decide))).trans (Cert.KernelIdeal.Frm.entry_arg4 m c),
      ((h c).2 Cert.KernelIdeal.main_arg5 (Pipeline.mem_restRefs_of Cert.KernelIdeal.main_arg5 (by decide) (by decide))).trans (Cert.KernelIdeal.Frm.entry_arg5 m c),
      ((h c).2 Cert.KernelIdeal.main_arg6 (Pipeline.mem_restRefs_of Cert.KernelIdeal.main_arg6 (by decide) (by decide))).trans (Cert.KernelIdeal.Frm.entry_arg6 m c),
      ((h c).2 Cert.KernelIdeal.main_arg7 (Pipeline.mem_restRefs_of Cert.KernelIdeal.main_arg7 (by decide) (by decide))).trans (Cert.KernelIdeal.Frm.entry_arg7 m c),
      ((h c).2 Cert.KernelIdeal.main_arg8 (Pipeline.mem_restRefs_of Cert.KernelIdeal.main_arg8 (by decide) (by decide))).trans (Cert.KernelIdeal.Frm.entry_arg8 m c),
      ((h c).2 Cert.KernelIdeal.main_arg9 (Pipeline.mem_restRefs_of Cert.KernelIdeal.main_arg9 (by decide) (by decide))).trans (Cert.KernelIdeal.Frm.entry_arg9 m c),
      ((h c).2 Cert.KernelIdeal.main_arg10 (Pipeline.mem_restRefs_of Cert.KernelIdeal.main_arg10 (by decide) (by decide))).trans (Cert.KernelIdeal.Frm.entry_arg10 m c),
      ((h c).2 Cert.KernelIdeal.main_arg11 (Pipeline.mem_restRefs_of Cert.KernelIdeal.main_arg11 (by decide) (by decide))).trans (Cert.KernelIdeal.Frm.entry_arg11 m c),
      ((h c).2 Cert.KernelIdeal.main_arg12 (Pipeline.mem_restRefs_of Cert.KernelIdeal.main_arg12 (by decide) (by decide))).trans (Cert.KernelIdeal.Frm.entry_arg12 m c),
      ((h c).2 Cert.KernelIdeal.main_arg13 (Pipeline.mem_restRefs_of Cert.KernelIdeal.main_arg13 (by decide) (by decide))).trans (Cert.KernelIdeal.Frm.entry_arg13 m c),
      ((h c).2 Cert.KernelIdeal.main_arg14 (Pipeline.mem_restRefs_of Cert.KernelIdeal.main_arg14 (by decide) (by decide))).trans (Cert.KernelIdeal.Frm.entry_arg14 m c),
      ((h c).2 Cert.KernelIdeal.main_arg15 (Pipeline.mem_restRefs_of Cert.KernelIdeal.main_arg15 (by decide) (by decide))).trans (Cert.KernelIdeal.Frm.entry_arg15 m c),
      ((h c).2 Cert.KernelIdeal.main_arg16 (Pipeline.mem_restRefs_of Cert.KernelIdeal.main_arg16 (by decide) (by decide))).trans (Cert.KernelIdeal.Frm.entry_arg16 m c),
      ((h c).2 Cert.KernelIdeal.main_arg17 (Pipeline.mem_restRefs_of Cert.KernelIdeal.main_arg17 (by decide) (by decide))).trans (Cert.KernelIdeal.Frm.entry_arg17 m c),
      ((h c).2 Cert.KernelIdeal.main_arg18 (Pipeline.mem_restRefs_of Cert.KernelIdeal.main_arg18 (by decide) (by decide))).trans (Cert.KernelIdeal.Frm.entry_arg18 m c)⟩)
      (Cert.KernelIdeal.Val.run m ρ)
  · exact (θ_run Cert.ReferenceIdeal.defs _ _).mono (fun r h c => ⟨(h c Cert.ReferenceIdeal.main_v192).trans (Cert.Result.result_eq m m' c (hagree c)),
      (h c Cert.ReferenceIdeal.main_arg0).trans (Cert.ReferenceIdeal.RefRun.kept_main_arg0 m' c),
      (h c Cert.ReferenceIdeal.main_arg1).trans (Cert.ReferenceIdeal.RefRun.kept_main_arg1 m' c),
      (h c Cert.ReferenceIdeal.main_arg2).trans (Cert.ReferenceIdeal.RefRun.kept_main_arg2 m' c),
      (h c Cert.ReferenceIdeal.main_arg3).trans (Cert.ReferenceIdeal.RefRun.kept_main_arg3 m' c),
      (h c Cert.ReferenceIdeal.main_arg4).trans (Cert.ReferenceIdeal.RefRun.kept_main_arg4 m' c),
      (h c Cert.ReferenceIdeal.main_arg5).trans (Cert.ReferenceIdeal.RefRun.kept_main_arg5 m' c),
      (h c Cert.ReferenceIdeal.main_arg6).trans (Cert.ReferenceIdeal.RefRun.kept_main_arg6 m' c),
      (h c Cert.ReferenceIdeal.main_arg7).trans (Cert.ReferenceIdeal.RefRun.kept_main_arg7 m' c),
      (h c Cert.ReferenceIdeal.main_arg8).trans (Cert.ReferenceIdeal.RefRun.kept_main_arg8 m' c),
      (h c Cert.ReferenceIdeal.main_arg9).trans (Cert.ReferenceIdeal.RefRun.kept_main_arg9 m' c),
      (h c Cert.ReferenceIdeal.main_arg10).trans (Cert.ReferenceIdeal.RefRun.kept_main_arg10 m' c),
      (h c Cert.ReferenceIdeal.main_arg11).trans (Cert.ReferenceIdeal.RefRun.kept_main_arg11 m' c),
      (h c Cert.ReferenceIdeal.main_arg12).trans (Cert.ReferenceIdeal.RefRun.kept_main_arg12 m' c),
      (h c Cert.ReferenceIdeal.main_arg13).trans (Cert.ReferenceIdeal.RefRun.kept_main_arg13 m' c),
      (h c Cert.ReferenceIdeal.main_arg14).trans (Cert.ReferenceIdeal.RefRun.kept_main_arg14 m' c),
      (h c Cert.ReferenceIdeal.main_arg15).trans (Cert.ReferenceIdeal.RefRun.kept_main_arg15 m' c),
      (h c Cert.ReferenceIdeal.main_arg16).trans (Cert.ReferenceIdeal.RefRun.kept_main_arg16 m' c),
      (h c Cert.ReferenceIdeal.main_arg17).trans (Cert.ReferenceIdeal.RefRun.kept_main_arg17 m' c),
      (h c Cert.ReferenceIdeal.main_arg18).trans (Cert.ReferenceIdeal.RefRun.kept_main_arg18 m' c)⟩)
      (Cert.ReferenceIdeal.RefRun.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
